-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v154)) (v1 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_v160) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_v234) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x768 : Shape := ⟨2, ![64, 768]⟩
abbrev S100000x768 : Shape := ⟨2, ![100000, 768]⟩
abbrev S768x256 : Shape := ⟨2, ![768, 256]⟩
abbrev S256x256 : Shape := ⟨2, ![256, 256]⟩
abbrev S1280x256 : Shape := ⟨2, ![1280, 256]⟩
abbrev S256 : Shape := ⟨1, ![256]⟩
abbrev S256x2 : Shape := ⟨2, ![256, 2]⟩
abbrev S2 : Shape := ⟨1, ![2]⟩
abbrev S2x400000 : Shape := ⟨2, ![2, 400000]⟩
abbrev S100000 : Shape := ⟨1, ![100000]⟩
abbrev S2x300000 : Shape := ⟨2, ![2, 300000]⟩
abbrev S512 : Shape := ⟨1, ![512]⟩
abbrev S64 : Shape := ⟨1, ![64]⟩
abbrev S_ : Shape := ⟨0, ![]⟩

class Facts : Prop where
  bcast_S_S64x768 : S_.BroadcastsInDim S64x768 (![] : Fin 0 → Fin S64x768.rank)
  reducesTo_S64x768_S_d0_1 : S64x768.ReducesTo [0, 1] S_
  h_S_ : 0 < S_.numel
  bcast_S_S100000x768 : S_.BroadcastsInDim S100000x768 (![] : Fin 0 → Fin S100000x768.rank)
  reducesTo_S100000x768_S_d0_1 : S100000x768.ReducesTo [0, 1] S_
  bcast_S_S768x256 : S_.BroadcastsInDim S768x256 (![] : Fin 0 → Fin S768x256.rank)
  reducesTo_S768x256_S_d0_1 : S768x256.ReducesTo [0, 1] S_
  bcast_S_S256x256 : S_.BroadcastsInDim S256x256 (![] : Fin 0 → Fin S256x256.rank)
  reducesTo_S256x256_S_d0_1 : S256x256.ReducesTo [0, 1] S_
  bcast_S_S1280x256 : S_.BroadcastsInDim S1280x256 (![] : Fin 0 → Fin S1280x256.rank)
  reducesTo_S1280x256_S_d0_1 : S1280x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg14 : FVec F S256x2 .f32) (main_arg15 : FVec F S2 .f32) (main_v63 : IVec S_ 1) (main_v67 : IVec S_ 1) : IVec S_ 1 :=
  let main_v68 : IVec S_ 1 := andi main_v63 main_v67
  let main_v69 : FVec F S256x2 .f32 := Host.absf main_arg14
  let main_cst_26 : FVec F S_ .f32 := constant S_ .f32 0x7F800000#32
  let main_v70 : FVec F S256x2 .f32 := broadcastInDim S256x2 ![] bcast_S_S256x2 main_cst_26
  let main_v71 : IVec S256x2 1 := cmpf .olt main_v69 main_v70
  let main_c_27 : IVec S_ 1 := constantI S_ 1 1#1
  let main_v72 : IVec S_ 1 := (fun x v => Host.reduce IntOp.andi x v reducesTo_S256x2_S_d0_1 h_S_) main_v71 main_c_27
  let main_v73 : IVec S_ 1 := andi main_v68 main_v72
  let main_v74 : FVec F S2 .f32 := Host.absf main_arg15
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg11 : FVec F S256x256 .f32) (main_arg12 : FVec F S1280x256 .f32) (main_arg13 : FVec F S256 .f32) (main_arg14 : FVec F S256x2 .f32) (main_arg15 : FVec F S2 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S1280x256 .f32 := Host.absf main_arg12
  let main_cst_22 : FVec F S_ .f32 := constant S_ .f32 0x7F800000#32
  let main_v60 : FVec F S1280x256 .f32 := broadcastInDim S1280x256 ![] bcast_S_S1280x256 main_cst_22
  let main_v61 : IVec S1280x256 1 := cmpf .olt main_v59 main_v60
  let main_c_23 : IVec S_ 1 := constantI S_ 1 1#1
  let main_v62 : IVec S_ 1 := (fun x v => Host.reduce IntOp.andi x v reducesTo_S1280x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S768x256 .f32) (main_arg8 : FVec F S256x256 .f32) (main_arg9 : FVec F S256x256 .f32) (main_arg10 : FVec F S256x256 .f32) (main_arg11 : FVec F S256x256 .f32) (main_arg12 : FVec F S1280x256 .f32) (main_arg13 : FVec F S256 .f32) (main_arg14 : FVec F S256x2 .f32) (main_arg15 : FVec F S2 .f32) (main_v33 : IVec S_ 1) : IVec S_ 1 :=
  let main_v34 : FVec F S768x256 .f32 := Host.absf main_arg7
  let main_cst_12 : FVec F S_ .f32 := constant S_ .f32 0x7F800000#32
  let main_v35 : FVec F S768x256 .f32 := broadcastInDim S768x256 ![] bcast_S_S768x256 main_cst_12
  let main_v36 : IVec S768x256 1 := cmpf .olt main_v34 main_v35
  let main_c_13 : IVec S_ 1 := constantI S_ 1 1#1
  let main_v37 : IVec S_ 1 := (fun x v => Host.reduce IntOp.andi x v reducesTo_S768x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_v48 main_v49 main_v50

def fn_part1 {F : FTy → Type} [FloatOps F] (main_arg4 : FVec F S100000x768 .f32) (main_arg5 : FVec F S768x256 .f32) (main_arg6 : FVec F S768x256 .f32) (main_arg7 : FVec F S768x256 .f32) (main_arg8 : FVec F S256x256 .f32) (main_arg9 : FVec F S256x256 .f32) (main_arg10 : FVec F S256x256 .f32) (main_arg11 : FVec F S256x256 .f32) (main_arg12 : FVec F S1280x256 .f32) (main_arg13 : FVec F S256 .f32) (main_arg14 : FVec F S256x2 .f32) (main_arg15 : FVec F S2 .f32) (main_v13 : IVec S_ 1) (main_v16 : IVec S100000x768 1) : IVec S_ 1 :=
  let main_c_5 : IVec S_ 1 := constantI S_ 1 1#1
  let main_v17 : IVec S_ 1 := (fun x v => Host.reduce IntOp.andi x v reducesTo_S100000x768_S_d0_1 h_S_) main_v16 main_c_5
  let main_v18 : IVec S_ 1 := andi main_v13 main_v17
  let main_v19 : FVec F S100000x768 .f32 := Host.absf main_arg4
  let main_cst_6 : FVec F S_ .f32 := constant S_ .f32 0x7F800000#32
  let main_v20 : FVec F S100000x768 .f32 := broadcastInDim S100000x768 ![] bcast_S_S100000x768 main_cst_6
  let main_v21 : IVec S100000x768 1 := cmpf .olt main_v19 main_v20
  let main_c_7 : IVec S_ 1 := constantI S_ 1 1#1
  let main_v22 : IVec S_ 1 := (fun x v => Host.reduce IntOp.andi x v reducesTo_S100000x768_S_d0_1 h_S_) main_v21 main_c_7
  let main_v23 : IVec S_ 1 := andi main_v18 main_v22
  let main_v24 : FVec F S768x256 .f32 := Host.absf main_arg5
  let main_cst_8 : FVec F S_ .f32 := constant S_ .f32 0x7F800000#32
  let main_v25 : FVec F S768x256 .f32 := broadcastInDim S768x256 ![] bcast_S_S768x256 main_cst_8
  let main_v26 : IVec S768x256 1 := cmpf .olt main_v24 main_v25
  let main_c_9 : IVec S_ 1 := constantI S_ 1 1#1
  let main_v27 : IVec S_ 1 := (fun x v => Host.reduce IntOp.andi x v reducesTo_S768x256_S_d0_1 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S64x768 .f32) (main_arg1 : FVec F S64x768 .f32) (main_arg2 : FVec F S64x768 .f32) (main_arg3 : FVec F S100000x768 .f32) (main_arg4 : FVec F S100000x768 .f32) (main_arg5 : FVec F S768x256 .f32) (main_arg6 : FVec F S768x256 .f32) (main_arg7 : FVec F S768x256 .f32) (main_arg8 : FVec F S256x256 .f32) (main_arg9 : FVec F S256x256 .f32) (main_arg10 : FVec F S256x256 .f32) (main_arg11 : FVec F S256x256 .f32) (main_arg12 : FVec F S1280x256 .f32) (main_arg13 : FVec F S256 .f32) (main_arg14 : FVec F S256x2 .f32) (main_arg15 : FVec F S2 .f32) (main_arg16 : IVec S2x400000 32) (main_arg17 : IVec S100000 32) (main_arg18 : IVec S2x300000 32) (main_arg19 : IVec S100000 32) (main_arg20 : IVec S512 32) (main_arg21 : IVec S64 32) : IVec S_ 1 :=
  let main_v0 : FVec F S64x768 .f32 := Host.absf main_arg0
  let main_cst : FVec F S_ .f32 := constant S_ .f32 0x7F800000#32
  let main_v1 : FVec F S64x768 .f32 := broadcastInDim S64x768 ![] bcast_S_S64x768 main_cst
  let main_v2 : IVec S64x768 1 := cmpf .olt main_v0 main_v1
  let main_c : IVec S_ 1 := constantI S_ 1 1#1
  let main_v3 : IVec S_ 1 := (fun x v => Host.reduce IntOp.andi x v reducesTo_S64x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S100000x768 .f32 := Host.absf main_arg3
  let main_cst_4 : FVec F S_ .f32 := constant S_ .f32 0x7F800000#32
  let main_v15 : FVec F S100000x768 .f32 := broadcastInDim S100000x768 ![] bcast_S_S100000x768 main_cst_4
  let main_v16 : IVec S100000x768 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S64x768 : Shape := ⟨2, ![64, 768]⟩
abbrev S100000x768 : Shape := ⟨2, ![100000, 768]⟩
abbrev S768x256 : Shape := ⟨2, ![768, 256]⟩
abbrev S256x256 : Shape := ⟨2, ![256, 256]⟩
abbrev S1280x256 : Shape := ⟨2, ![1280, 256]⟩
abbrev S256 : Shape := ⟨1, ![256]⟩
abbrev S256x2 : Shape := ⟨2, ![256, 2]⟩
abbrev S2 : Shape := ⟨1, ![2]⟩
abbrev S2x400000 : Shape := ⟨2, ![2, 400000]⟩
abbrev S100000 : Shape := ⟨1, ![100000]⟩
abbrev S2x300000 : Shape := ⟨2, ![2, 300000]⟩
abbrev S512 : Shape := ⟨1, ![512]⟩
abbrev S64 : Shape := ⟨1, ![64]⟩
abbrev S64x256 : Shape := ⟨2, ![64, 256]⟩
abbrev S100000x256 : Shape := ⟨2, ![100000, 256]⟩
abbrev S4000x768 : Shape := ⟨2, ![4000, 768]⟩
abbrev S4000x256 : Shape := ⟨2, ![4000, 256]⟩
abbrev S1x400000 : Shape := ⟨2, ![1, 400000]⟩
abbrev S400000 : Shape := ⟨1, ![400000]⟩
abbrev S500000 : Shape := ⟨1, ![500000]⟩
abbrev S_ : Shape := ⟨0, ![]⟩
abbrev S500000x1 : Shape := ⟨2, ![500000, 1]⟩
abbrev S100000x1 : Shape := ⟨2, ![100000, 1]⟩
abbrev S500000x256 : Shape := ⟨2, ![500000, 256]⟩
abbrev S64x1 : Shape := ⟨2, ![64, 1]⟩
abbrev S1x300000 : Shape := ⟨2, ![1, 300000]⟩
abbrev S300000 : Shape := ⟨1, ![300000]⟩
abbrev S400000x1 : Shape := ⟨2, ![400000, 1]⟩
abbrev S400000x256 : Shape := ⟨2, ![400000, 256]⟩
abbrev S512x256 : Shape := ⟨2, ![512, 256]⟩
abbrev S512x1 : Shape := ⟨2, ![512, 1]⟩
abbrev S64x1280 : Shape := ⟨2, ![64, 1280]⟩
abbrev S1x256 : Shape := ⟨2, ![1, 256]⟩
abbrev S64x2 : Shape := ⟨2, ![64, 2]⟩
abbrev S1x2 : Shape := ⟨2, ![1, 2]⟩
abbrev S64x1x1 : Shape := ⟨3, ![64, 1, 1]⟩
abbrev S1 : Shape := ⟨1, ![1]⟩
abbrev S1x1x1 : Shape := ⟨3, ![1, 1, 1]⟩

abbrev nBuf : Space → Nat
  | .hbm => 258
  | .vmem => 20
  | .smem => 0
  | _ => 0

abbrev hbmTy0_0 (i : Nat) : BufTy := match i % 128 with
  | 0 => ⟨S64x768, .f32⟩
  | 1 => ⟨S64x768, .f32⟩
  | 2 => ⟨S64x768, .f32⟩
  | 3 => ⟨S100000x768, .f32⟩
  | 4 => ⟨S100000x768, .f32⟩
  | 5 => ⟨S768x256, .f32⟩
  | 6 => ⟨S768x256, .f32⟩
  | 7 => ⟨S768x256, .f32⟩
  | 8 => ⟨S256x256, .f32⟩
  | 9 => ⟨S256x256, .f32⟩
  | 10 => ⟨S256x256, .f32⟩
  | 11 => ⟨S256x256, .f32⟩
  | 12 => ⟨S1280x256, .f32⟩
  | 13 => ⟨S256, .f32⟩
  | 14 => ⟨S256x2, .f32⟩
  | 15 => ⟨S2, .f32⟩
  | 16 => ⟨S2x400000, .i32⟩
  | 17 => ⟨S100000, .i32⟩
  | 18 => ⟨S2x300000, .i32⟩
  | 19 => ⟨S100000, .i32⟩
  | 20 => ⟨S512, .i32⟩
  | 21 => ⟨S64, .i32⟩
  | 22 => ⟨S768x256, .f32⟩
  | 23 => ⟨S768x256, .f32⟩
  | 24 => ⟨S64x256, .f32⟩
  | 25 => ⟨S64x256, .f32⟩
  | 26 => ⟨S64x256, .f32⟩
  | 27 => ⟨S100000x256, .f32⟩
  | 28 => ⟨S1x400000, .i32⟩
  | 29 => ⟨S400000, .i32⟩
  | 30 => ⟨S1x400000, .i32⟩
  | 31 => ⟨S400000, .i32⟩
  | 32 => ⟨S100000, .i32⟩
  | 33 => ⟨S500000, .i32⟩
  | 34 => ⟨S500000, .i32⟩
  | 35 => ⟨S_, .f32⟩
  | 36 => ⟨S100000, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S_, .f32⟩
  | 46 => ⟨S500000, .f32⟩
  | 47 => ⟨S100000, .f32⟩
  | 48 => ⟨S100000, .f32⟩
  | 49 => ⟨S100000x1, .f32⟩
  | 50 => ⟨S100000x256, .f32⟩
  | 51 => ⟨S100000x256, .f32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x256, .f32⟩
  | 61 => ⟨S_, .f32⟩
  | 62 => ⟨S100000x256, .f32⟩
  | 63 => ⟨S500000x1, .i32⟩
  | 64 => ⟨S100000x256, .f32⟩
  | 65 => ⟨S100000x1, .f32⟩
  | 66 => ⟨S100000x256, .f32⟩
  | 67 => ⟨S100000x256, .f32⟩
  | 68 => ⟨S_, .f32⟩
  | 69 => ⟨S100000x256, .f32⟩
  | 70 => ⟨S100000x256, .f32⟩
  | 71 => ⟨S100000x256, .f32⟩
  | 72 => ⟨S100000x1, .f32⟩
  | 73 => ⟨S100000x256, .f32⟩
  | 74 => ⟨S100000x256, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000x256, .f32⟩
  | 84 => ⟨S_, .f32⟩
  | 85 => ⟨S100000x256, .f32⟩
  | 86 => ⟨S500000x1, .i32⟩
  | 87 => ⟨S100000x256, .f32⟩
  | 88 => ⟨S100000x1, .f32⟩
  | 89 => ⟨S100000x256, .f32⟩
  | 90 => ⟨S100000x256, .f32⟩
  | 91 => ⟨S_, .f32⟩
  | 92 => ⟨S64x256, .f32⟩
  | 93 => ⟨S100000x1, .i32⟩
  | 94 => ⟨S64x256, .f32⟩
  | 95 => ⟨S_, .f32⟩
  | 96 => ⟨S100000, .f32⟩
  | 97 => ⟨S_, .f32⟩
  | 98 => ⟨S64, .f32⟩
  | 99 => ⟨S100000x1, .i32⟩
  | 100 => ⟨S64, .f32⟩
  | 101 => ⟨S_, .f32⟩
  | 102 => ⟨S64, .f32⟩
  | 103 => ⟨S64, .f32⟩
  | 104 => ⟨S64x1, .f32⟩
  | 105 => ⟨S64x256, .f32⟩
  | 106 => ⟨S64x256, .f32⟩
  | 107 => ⟨S100000x256, .f32⟩
  | 108 => ⟨S1x300000, .i32⟩
  | 109 => ⟨S300000, .i32⟩
  | 110 => ⟨S1x300000, .i32⟩
  | 111 => ⟨S300000, .i32⟩
  | 112 => ⟨S100000, .i32⟩
  | 113 => ⟨S400000, .i32⟩
  | 114 => ⟨S400000, .i32⟩
  | 115 => ⟨S_, .f32⟩
  | 116 => ⟨S100000, .f32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S_, .f32⟩
  | 126 => ⟨S400000, .f32⟩
  | 127 => ⟨S100000, .f32⟩
  | _ => ⟨S64x768, .f32⟩

abbrev hbmTy0_1 (i : Nat) : BufTy := match i % 128 with
  | 0 => ⟨S100000, .f32⟩
  | 1 => ⟨S100000x1, .f32⟩
  | 2 => ⟨S100000x256, .f32⟩
  | 3 => ⟨S100000x256, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x256, .f32⟩
  | 13 => ⟨S_, .f32⟩
  | 14 => ⟨S100000x256, .f32⟩
  | 15 => ⟨S400000x1, .i32⟩
  | 16 => ⟨S100000x256, .f32⟩
  | 17 => ⟨S100000x1, .f32⟩
  | 18 => ⟨S100000x256, .f32⟩
  | 19 => ⟨S100000x256, .f32⟩
  | 20 => ⟨S_, .f32⟩
  | 21 => ⟨S100000x256, .f32⟩
  | 22 => ⟨S100000x256, .f32⟩
  | 23 => ⟨S100000x256, .f32⟩
  | 24 => ⟨S100000x1, .f32⟩
  | 25 => ⟨S100000x256, .f32⟩
  | 26 => ⟨S100000x256, .f32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S400000x256, .f32⟩
  | 36 => ⟨S_, .f32⟩
  | 37 => ⟨S100000x256, .f32⟩
  | 38 => ⟨S400000x1, .i32⟩
  | 39 => ⟨S100000x256, .f32⟩
  | 40 => ⟨S100000x1, .f32⟩
  | 41 => ⟨S100000x256, .f32⟩
  | 42 => ⟨S100000x256, .f32⟩
  | 43 => ⟨S_, .f32⟩
  | 44 => ⟨S512x256, .f32⟩
  | 45 => ⟨S100000x1, .i32⟩
  | 46 => ⟨S512x256, .f32⟩
  | 47 => ⟨S_, .f32⟩
  | 48 => ⟨S100000, .f32⟩
  | 49 => ⟨S_, .f32⟩
  | 50 => ⟨S512, .f32⟩
  | 51 => ⟨S100000x1, .i32⟩
  | 52 => ⟨S512, .f32⟩
  | 53 => ⟨S_, .f32⟩
  | 54 => ⟨S512, .f32⟩
  | 55 => ⟨S512, .f32⟩
  | 56 => ⟨S512x1, .f32⟩
  | 57 => ⟨S512x256, .f32⟩
  | 58 => ⟨S512x256, .f32⟩
  | 59 => ⟨S_, .f32⟩
  | 60 => ⟨S64x256, .f32⟩
  | 61 => ⟨S512x1, .i32⟩
  | 62 => ⟨S64x256, .f32⟩
  | 63 => ⟨S_, .f32⟩
  | 64 => ⟨S512, .f32⟩
  | 65 => ⟨S_, .f32⟩
  | 66 => ⟨S64, .f32⟩
  | 67 => ⟨S512x1, .i32⟩
  | 68 => ⟨S64, .f32⟩
  | 69 => ⟨S_, .f32⟩
  | 70 => ⟨S64, .f32⟩
  | 71 => ⟨S64, .f32⟩
  | 72 => ⟨S64x1, .f32⟩
  | 73 => ⟨S64x256, .f32⟩
  | 74 => ⟨S64x256, .f32⟩
  | 75 => ⟨S64x1280, .f32⟩
  | 76 => ⟨S64x256, .f32⟩
  | 77 => ⟨S1x256, .f32⟩
  | 78 => ⟨S64x256, .f32⟩
  | 79 => ⟨S64x256, .f32⟩
  | 80 => ⟨S_, .f32⟩
  | 81 => ⟨S64x256, .f32⟩
  | 82 => ⟨S64x256, .f32⟩
  | 83 => ⟨S64x2, .f32⟩
  | 84 => ⟨S1x2, .f32⟩
  | 85 => ⟨S64x2, .f32⟩
  | 86 => ⟨S64x2, .f32⟩
  | 87 => ⟨S_, .f32⟩
  | 88 => ⟨S64, .f32⟩
  | 89 => ⟨S_, .f32⟩
  | 90 => ⟨S64, .f32⟩
  | 91 => ⟨S64, .f32⟩
  | 92 => ⟨S64x1, .f32⟩
  | 93 => ⟨S64x2, .f32⟩
  | 94 => ⟨S64x2, .f32⟩
  | 95 => ⟨S64x2, .f32⟩
  | 96 => ⟨S_, .f32⟩
  | 97 => ⟨S64, .f32⟩
  | 98 => ⟨S64x1, .f32⟩
  | 99 => ⟨S64x1, .f32⟩
  | 100 => ⟨S64x2, .f32⟩
  | 101 => ⟨S64x2, .f32⟩
  | 102 => ⟨S64x1, .i32⟩
  | 103 => ⟨S_, .i32⟩
  | 104 => ⟨S64x1, .i32⟩
  | 105 => ⟨S64x1, .i1⟩
  | 106 => ⟨S_, .i32⟩
  | 107 => ⟨S64x1, .i32⟩
  | 108 => ⟨S64x1, .i32⟩
  | 109 => ⟨S64x1, .i32⟩
  | 110 => ⟨S64x1x1, .i32⟩
  | 111 => ⟨S1, .i32⟩
  | 112 => ⟨S_, .i32⟩
  | 113 => ⟨S64x1x1, .i32⟩
  | 114 => ⟨S64x1x1, .i1⟩
  | 115 => ⟨S1x1x1, .i32⟩
  | 116 => ⟨S64x1x1, .i32⟩
  | 117 => ⟨S64x1x1, .i1⟩
  | 118 => ⟨S64x1x1, .i1⟩
  | 119 => ⟨S_, .i1⟩
  | 120 => ⟨S64x1, .i1⟩
  | 121 => ⟨S64x1, .f32⟩
  | 122 => ⟨S_, .f32⟩
  | 123 => ⟨S64x1, .f32⟩
  | 124 => ⟨S64x1, .f32⟩
  | 125 => ⟨S_, .f32⟩
  | 126 => ⟨S_, .f32⟩
  | 127 => ⟨S_, .f32⟩
  | _ => ⟨S64x768, .f32⟩

abbrev hbmTy0_2 (i : Nat) : BufTy := match i % 128 with
  | 0 => ⟨S_, .f32⟩
  | 1 => ⟨S_, .f32⟩
  | _ => ⟨S64x768, .f32⟩

abbrev hbmTy (i : Nat) : BufTy := match i / 128 with
  | 0 => hbmTy0_0 i
  | 1 => hbmTy0_1 i
  | 2 => hbmTy0_2 i
  | _ => ⟨S64x768, .f32⟩

abbrev bufTy : (tb : Table) → Fin (tcTables nBuf tb) → BufTy
  | .hbm, ⟨i, _⟩ => hbmTy i
  | .local _ .vmem, ⟨0, _⟩ => ⟨S4000x768, .f32⟩
  | .local _ .vmem, ⟨1, _⟩ => ⟨S4000x768, .f32⟩
  | .local _ .vmem, ⟨2, _⟩ => ⟨S768x256, .f32⟩
  | .local _ .vmem, ⟨3, _⟩ => ⟨S4000x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S256x256, .f32⟩
  | .local _ .vmem, ⟨8, _⟩ => ⟨S4000x256, .f32⟩
  | .local _ .vmem, ⟨9, _⟩ => ⟨S4000x256, .f32⟩
  | .local _ .vmem, ⟨10, _⟩ => ⟨S4000x768, .f32⟩
  | .local _ .vmem, ⟨11, _⟩ => ⟨S4000x768, .f32⟩
  | .local _ .vmem, ⟨12, _⟩ => ⟨S768x256, .f32⟩
  | .local _ .vmem, ⟨13, _⟩ => ⟨S4000x256, .f32⟩
  | .local _ .vmem, ⟨14, _⟩ => ⟨S4000x256, .f32⟩
  | .local _ .vmem, ⟨15, _⟩ => ⟨S4000x256, .f32⟩
  | .local _ .vmem, ⟨16, _⟩ => ⟨S4000x256, .f32⟩
  | .local _ .vmem, ⟨17, _⟩ => ⟨S256x256, .f32⟩
  | .local _ .vmem, ⟨18, _⟩ => ⟨S4000x256, .f32⟩
  | .local _ .vmem, ⟨19, _⟩ => ⟨S4000x256, .f32⟩
  | _, _ => ⟨S64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_2 : Ref sig .tc := ⟨.hbm, 52, rfl⟩
abbrev main_v26 : Ref sig .tc := ⟨.hbm, 53, rfl⟩
abbrev main_v27 : Ref sig .tc := ⟨.hbm, 54, rfl⟩
abbrev main_c_3 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_4 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call0_cst : Ref sig .tc := ⟨.hbm, 68, rfl⟩
abbrev main_call0_v0 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_5 : Ref sig .tc := ⟨.hbm, 75, rfl⟩
abbrev main_v44 : Ref sig .tc := ⟨.hbm, 76, rfl⟩
abbrev main_v45 : Ref sig .tc := ⟨.hbm, 77, rfl⟩
abbrev main_c_6 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_7 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_8 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_9 : Ref sig .tc := ⟨.hbm, 95, rfl⟩
abbrev main_v60 : Ref sig .tc := ⟨.hbm, 96, rfl⟩
abbrev main_cst_10 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_12 : Ref sig .tc := ⟨.hbm, 115, rfl⟩
abbrev main_v77 : Ref sig .tc := ⟨.hbm, 116, rfl⟩
abbrev main_c_13 : Ref sig .tc := ⟨.hbm, 117, rfl⟩
abbrev main_v78 : Ref sig .tc := ⟨.hbm, 118, rfl⟩
abbrev main_v79 : Ref sig .tc := ⟨.hbm, 119, rfl⟩
abbrev main_c_14 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_15 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_16 : Ref sig .tc := ⟨.hbm, 132, rfl⟩
abbrev main_v90 : Ref sig .tc := ⟨.hbm, 133, rfl⟩
abbrev main_v91 : Ref sig .tc := ⟨.hbm, 134, rfl⟩
abbrev main_c_17 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_18 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_call1_cst : Ref sig .tc := ⟨.hbm, 148, rfl⟩
abbrev main_call1_v0 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_c_19 : Ref sig .tc := ⟨.hbm, 155, rfl⟩
abbrev main_v108 : Ref sig .tc := ⟨.hbm, 156, rfl⟩
abbrev main_v109 : Ref sig .tc := ⟨.hbm, 157, rfl⟩
abbrev main_c_20 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_21 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_22 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_23 : Ref sig .tc := ⟨.hbm, 175, rfl⟩
abbrev main_v124 : Ref sig .tc := ⟨.hbm, 176, rfl⟩
abbrev main_cst_24 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_25 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_26 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_27 : Ref sig .tc := ⟨.hbm, 191, rfl⟩
abbrev main_v136 : Ref sig .tc := ⟨.hbm, 192, rfl⟩
abbrev main_cst_28 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_29 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_call2_cst : Ref sig .tc := ⟨.hbm, 208, rfl⟩
abbrev main_call2_v0 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_call3_cst : Ref sig .tc := ⟨.hbm, 215, rfl⟩
abbrev main_call3_v0 : Ref sig .tc := ⟨.hbm, 216, rfl⟩
abbrev main_call3_cst_0 : Ref sig .tc := ⟨.hbm, 217, rfl⟩
abbrev main_call3_v1 : Ref sig .tc := ⟨.hbm, 218, rfl⟩
abbrev main_call3_v2 : Ref sig .tc := ⟨.hbm, 219, rfl⟩
abbrev main_call3_v3 : Ref sig .tc := ⟨.hbm, 220, rfl⟩
abbrev main_call3_v4 : Ref sig .tc := ⟨.hbm, 221, rfl⟩
abbrev main_call3_v5 : Ref sig .tc := ⟨.hbm, 222, rfl⟩
abbrev main_call3_v6 : Ref sig .tc := ⟨.hbm, 223, rfl⟩
abbrev main_call3_cst_1 : Ref sig .tc := ⟨.hbm, 224, rfl⟩
abbrev main_call3_v7 : Ref sig .tc := ⟨.hbm, 225, rfl⟩
abbrev main_call3_v8 : Ref sig .tc := ⟨.hbm, 226, rfl⟩
abbrev main_call3_v9 : Ref sig .tc := ⟨.hbm, 227, rfl⟩
abbrev main_call3_v10 : Ref sig .tc := ⟨.hbm, 228, rfl⟩
abbrev main_v155 : Ref sig .tc := ⟨.hbm, 229, rfl⟩
abbrev main_v156 : Ref sig .tc := ⟨.hbm, 230, rfl⟩
abbrev main_call4_c : Ref sig .tc := ⟨.hbm, 231, rfl⟩
abbrev main_call4_v0 : Ref sig .tc := ⟨.hbm, 232, rfl⟩
abbrev main_call4_v1 : Ref sig .tc := ⟨.hbm, 233, rfl⟩
abbrev main_call4_c_0 : Ref sig .tc := ⟨.hbm, 234, rfl⟩
abbrev main_call4_v2 : Ref sig .tc := ⟨.hbm, 235, rfl⟩
abbrev main_call4_v3 : Ref sig .tc := ⟨.hbm, 236, rfl⟩
abbrev main_call4_v4 : Ref sig .tc := ⟨.hbm, 237, rfl⟩
abbrev main_call4_v5 : Ref sig .tc := ⟨.hbm, 238, rfl⟩
abbrev main_call4_c_1 : Ref sig .tc := ⟨.hbm, 239, rfl⟩
abbrev main_call4_c_2 : Ref sig .tc := ⟨.hbm, 240, rfl⟩
abbrev main_call4_v6 : Ref sig .tc := ⟨.hbm, 241, rfl⟩
abbrev main_call4_v7 : Ref sig .tc := ⟨.hbm, 242, rfl⟩
abbrev main_call4_v8 : Ref sig .tc := ⟨.hbm, 243, rfl⟩
abbrev main_call4_v9 : Ref sig .tc := ⟨.hbm, 244, rfl⟩
abbrev main_call4_v10 : Ref sig .tc := ⟨.hbm, 245, rfl⟩
abbrev main_call4_v11 : Ref sig .tc := ⟨.hbm, 246, rfl⟩
abbrev main_call4_c_3 : Ref sig .tc := ⟨.hbm, 247, rfl⟩
abbrev main_call4_v12 : Ref sig .tc := ⟨.hbm, 248, rfl⟩
abbrev main_call4_v13 : Ref sig .tc := ⟨.hbm, 249, rfl⟩
abbrev main_call4_cst : Ref sig .tc := ⟨.hbm, 250, rfl⟩
abbrev main_call4_v14 : Ref sig .tc := ⟨.hbm, 251, rfl⟩
abbrev main_v157 : Ref sig .tc := ⟨.hbm, 252, rfl⟩
abbrev main_cst_30 : Ref sig .tc := ⟨.hbm, 253, rfl⟩
abbrev main_v158 : Ref sig .tc := ⟨.hbm, 254, rfl⟩
abbrev main_cst_31 : Ref sig .tc := ⟨.hbm, 255, rfl⟩
abbrev main_v159 : Ref sig .tc := ⟨.hbm, 256, rfl⟩
abbrev main_v160 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S4000x768_S4000x768_0_0 : ∀ a, (![0, 0] : Fin 2 → Nat) a + S4000x768.size a ≤ S4000x768.size a
  h_S4000x768 : 0 < S4000x768.numel
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S4000x256_S4000x256_0_0 : ∀ a, (![0, 0] : Fin 2 → Nat) a + S4000x256.size a ≤ S4000x256.size a
  h_S4000x256 : 0 < S4000x256.numel
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S100000_S500000_d0 : Shape.Concatenates [S400000, S100000] S500000 0
  bcast_S_S100000 : S_.BroadcastsInDim S100000 (![] : Fin 0 → Fin S100000.rank)
  bcast_S_S500000 : S_.BroadcastsInDim S500000 (![] : Fin 0 → Fin S500000.rank)
  bcast_S500000_S500000x1_0 : S500000.BroadcastsInDim S500000x1 (![0] : Fin 1 → Fin S500000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  concatenates_S300000_S100000_S400000_d0 : Shape.Concatenates [S300000, S100000] S400000 0
  bcast_S_S400000 : S_.BroadcastsInDim S400000 (![] : Fin 0 → Fin S400000.rank)
  bcast_S400000_S400000x1_0 : S400000.BroadcastsInDim S400000x1 (![0] : Fin 1 → Fin S400000x1.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  concatenates_S64x256_S64x256_S64x256_S64x256_S64x256_S64x1280_d1 : Shape.Concatenates [S64x256, S64x256, S64x256, S64x256, S64x256] S64x1280 1
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S64x1_S64x2_0_1 : S64x1.BroadcastsInDim S64x2 (![0, 1] : Fin 2 → Fin S64x2.rank)
  bcast_S_S64x1 : S_.BroadcastsInDim S64x1 (![] : Fin 0 → Fin S64x1.rank)
  shapeCasts_S64x1_S64x1x1 : S64x1.ShapeCasts S64x1x1
  bcast_S_S64x1x1 : S_.BroadcastsInDim S64x1x1 (![] : Fin 0 → Fin S64x1x1.rank)
  bcast_S1_S1x1x1_2 : S1.BroadcastsInDim S1x1x1 (![2] : Fin 1 → Fin S1x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  reducesTo_S64x1_S_d0_1 : S64x1.ReducesTo [0, 1] S_
  dot_S768x256_S256x256_S768x256_1_0_0_1_n_n_wf : DotDims.WF S768x256 S256x256 S768x256 [1] [0] [0] [1] [] []
  dot_S64x768_S768x256_S64x256_1_0_0_1_n_n_wf : DotDims.WF S64x768 S768x256 S64x256 [1] [0] [0] [1] [] []
  dot_S4000x768_S768x256_S4000x256_1_0_0_1_n_n_wf : DotDims.WF S4000x768 S768x256 S4000x256 [1] [0] [0] [1] [] []
  scatter_S100000_S500000x1_S500000_n_0_0_1_wf : ScatterDims.WF S100000 S500000x1 S500000 [] [0] [0] 1
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S4000x256_S256x256_S4000x256_1_0_0_1_n_n_wf : DotDims.WF S4000x256 S256x256 S4000x256 [1] [0] [0] [1] [] []
  scatter_S64x256_S100000x1_S100000x256_1_0_0_1_wf : ScatterDims.WF S64x256 S100000x1 S100000x256 [1] [0] [0] 1
  scatter_S64_S100000x1_S100000_n_0_0_1_wf : ScatterDims.WF S64 S100000x1 S100000 [] [0] [0] 1
  scatter_S100000_S400000x1_S400000_n_0_0_1_wf : ScatterDims.WF S100000 S400000x1 S400000 [] [0] [0] 1
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  scatter_S512x256_S100000x1_S100000x256_1_0_0_1_wf : ScatterDims.WF S512x256 S100000x1 S100000x256 [1] [0] [0] 1
  scatter_S512_S100000x1_S100000_n_0_0_1_wf : ScatterDims.WF S512 S100000x1 S100000 [] [0] [0] 1
  scatter_S64x256_S512x1_S512x256_1_0_0_1_wf : ScatterDims.WF S64x256 S512x1 S512x256 [1] [0] [0] 1
  scatter_S64_S512x1_S512_n_0_0_1_wf : ScatterDims.WF S64 S512x1 S512 [] [0] [0] 1
  dot_S64x1280_S1280x256_S64x256_1_0_0_1_n_n_wf : DotDims.WF S64x1280 S1280x256 S64x256 [1] [0] [0] [1] [] []
  dot_S64x256_S256x2_S64x2_1_0_0_1_n_n_wf : DotDims.WF S64x256 S256x2 S64x2 [1] [0] [0] [1] [] []
  gather_S64x2_S64x1x1_S64x1_n_1_0_0_1_2_11_wf : GatherDims.WF S64x2 S64x1x1 S64x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x768.size a ≤ S100000x768.size a
  hwx0_0 : ∀ i : grid0.Coords, EltTy.bits .f32 = 32 ∨ (Rect.block (s := S100000x768) S4000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S100000x256.size a
  hwx0_2 : ∀ i : grid0.Coords, EltTy.bits .f32 = 32 ∨ (Rect.block (s := S100000x256) S4000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S100000x256.size a
  hwx1_2 : ∀ i : grid1.Coords, EltTy.bits .f32 = 32 ∨ (Rect.block (s := S100000x256) S4000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x768.size a ≤ S100000x768.size a
  hwx2_0 : ∀ i : grid2.Coords, EltTy.bits .f32 = 32 ∨ (Rect.block (s := S100000x768) S4000x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x256.size a ≤ S768x256.size a
  hwx2_1 : ∀ i : grid2.Coords, EltTy.bits .f32 = 32 ∨ (Rect.block (s := S768x256) S768x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x256.size a ≤ S100000x256.size a
  hwx2_2 : ∀ i : grid2.Coords, EltTy.bits .f32 = 32 ∨ (Rect.block (s := S100000x256) S4000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S100000x256.size a
  hwx3_0 : ∀ i : grid3.Coords, EltTy.bits .f32 = 32 ∨ (Rect.block (s := S100000x256) S4000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x256.size a ≤ S100000x256.size a
  hwx3_2 : ∀ i : grid3.Coords, EltTy.bits .f32 = 32 ∨ (Rect.block (s := S100000x256) S4000x256.size (cc3_transform_2 i) (hinb3_2 i)).WholeWords (EltTy.packing .f32)

variable [Facts₀]

def dot_S768x256_S256x256_S768x256_1_0_0_1_n_n : DotDims S768x256 S256x256 S768x256 where
  lhsContracting := [1]
  rhsContracting := [0]
  lhsNonContracting := [0]
  rhsNonContracting := [1]
  lhsBatch := []
  rhsBatch := []
  wf := dot_S768x256_S256x256_S768x256_1_0_0_1_n_n_wf
def dot_S64x768_S768x256_S64x256_1_0_0_1_n_n : DotDims S64x768 S768x256 S64x256 where
  lhsContracting := [1]
  rhsContracting := [0]
  lhsNonContracting := [0]
  rhsNonContracting := [1]
  lhsBatch := []
  rhsBatch := []
  wf := dot_S64x768_S768x256_S64x256_1_0_0_1_n_n_wf
def dot_S4000x768_S768x256_S4000x256_1_0_0_1_n_n : DotDims S4000x768 S768x256 S4000x256 where
  lhsContracting := [1]
  rhsContracting := [0]
  lhsNonContracting := [0]
  rhsNonContracting := [1]
  lhsBatch := []
  rhsBatch := []
  wf := dot_S4000x768_S768x256_S4000x256_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S64x256_S100000x1_S100000x256_1_0_0_1 : ScatterDims S64x256 S100000x1 S100000x256 where
  updateWindowDims := [1]
  insertedWindowDims := [0]
  scatterDimsToOperandDims := [0]
  indexVectorDim := 1
  wf := scatter_S64x256_S100000x1_S100000x256_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def scatter_S512x256_S100000x1_S100000x256_1_0_0_1 : ScatterDims S512x256 S100000x1 S100000x256 where
  updateWindowDims := [1]
  insertedWindowDims := [0]
  scatterDimsToOperandDims := [0]
  indexVectorDim := 1
  wf := scatter_S512x256_S100000x1_S100000x256_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S64x256_S512x1_S512x256_1_0_0_1 : ScatterDims S64x256 S512x1 S512x256 where
  updateWindowDims := [1]
  insertedWindowDims := [0]
  scatterDimsToOperandDims := [0]
  indexVectorDim := 1
  wf := scatter_S64x256_S512x1_S512x256_1_0_0_1_wf
def scatter_S64_S512x1_S512_n_0_0_1 : ScatterDims S64 S512x1 S512 where
  updateWindowDims := []
  insertedWindowDims := [0]
  scatterDimsToOperandDims := [0]
  indexVectorDim := 1
  wf := scatter_S64_S512x1_S512_n_0_0_1_wf
def dot_S64x1280_S1280x256_S64x256_1_0_0_1_n_n : DotDims S64x1280 S1280x256 S64x256 where
  lhsContracting := [1]
  rhsContracting := [0]
  lhsNonContracting := [0]
  rhsNonContracting := [1]
  lhsBatch := []
  rhsBatch := []
  wf := dot_S64x1280_S1280x256_S64x256_1_0_0_1_n_n_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf
def gather_S64x2_S64x1x1_S64x1_n_1_0_0_1_2_11 : GatherDims S64x2 S64x1x1 S64x1 where
  offsetDims := []
  collapsedSliceDims := [1]
  operandBatchingDims := [0]
  startIndicesBatchingDims := [0]
  startIndexMap := [1]
  indexVectorDim := 2
  sliceSizes := ![1, 1]
  wf := gather_S64x2_S64x1x1_S64x1_n_1_0_0_1_2_11_wf

abbrev win0_0 : Pipeline.Window sig grid0 :=
  Pipeline.Window.ofSpec (Memref.whole main_arg3) S4000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S4000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg4) S4000x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S768x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S4000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v103) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v104) S4000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S64x768 : Shape := ⟨2, ![64, 768]⟩
abbrev S100000x768 : Shape := ⟨2, ![100000, 768]⟩
abbrev S768x256 : Shape := ⟨2, ![768, 256]⟩
abbrev S256x256 : Shape := ⟨2, ![256, 256]⟩
abbrev S1280x256 : Shape := ⟨2, ![1280, 256]⟩
abbrev S256 : Shape := ⟨1, ![256]⟩
abbrev S256x2 : Shape := ⟨2, ![256, 2]⟩
abbrev S2 : Shape := ⟨1, ![2]⟩
abbrev S2x400000 : Shape := ⟨2, ![2, 400000]⟩
abbrev S100000 : Shape := ⟨1, ![100000]⟩
abbrev S2x300000 : Shape := ⟨2, ![2, 300000]⟩
abbrev S512 : Shape := ⟨1, ![512]⟩
abbrev S64 : Shape := ⟨1, ![64]⟩
abbrev S64x256 : Shape := ⟨2, ![64, 256]⟩
abbrev S100000x256 : Shape := ⟨2, ![100000, 256]⟩
abbrev S1x400000 : Shape := ⟨2, ![1, 400000]⟩
abbrev S400000 : Shape := ⟨1, ![400000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S100000x1 : Shape := ⟨2, ![100000, 1]⟩
abbrev S64x1 : Shape := ⟨2, ![64, 1]⟩
abbrev S1x300000 : Shape := ⟨2, ![1, 300000]⟩
abbrev S300000 : Shape := ⟨1, ![300000]⟩
abbrev S400000x1 : Shape := ⟨2, ![400000, 1]⟩
abbrev S400000x256 : Shape := ⟨2, ![400000, 256]⟩
abbrev S512x256 : Shape := ⟨2, ![512, 256]⟩
abbrev S512x1 : Shape := ⟨2, ![512, 1]⟩
abbrev S64x1280 : Shape := ⟨2, ![64, 1280]⟩
abbrev S1x256 : Shape := ⟨2, ![1, 256]⟩
abbrev S64x2 : Shape := ⟨2, ![64, 2]⟩
abbrev S1x2 : Shape := ⟨2, ![1, 2]⟩
abbrev S64x1x1 : Shape := ⟨3, ![64, 1, 1]⟩
abbrev S1 : Shape := ⟨1, ![1]⟩
abbrev S1x1x1 : Shape := ⟨3, ![1, 1, 1]⟩

abbrev nBuf : Space → Nat
  | .hbm => 356
  | .vmem => 0
  | .smem => 0
  | _ => 0

abbrev hbmTy0_0 (i : Nat) : BufTy := match i % 128 with
  | 0 => ⟨S64x768, .f32⟩
  | 1 => ⟨S64x768, .f32⟩
  | 2 => ⟨S64x768, .f32⟩
  | 3 => ⟨S100000x768, .f32⟩
  | 4 => ⟨S100000x768, .f32⟩
  | 5 => ⟨S768x256, .f32⟩
  | 6 => ⟨S768x256, .f32⟩
  | 7 => ⟨S768x256, .f32⟩
  | 8 => ⟨S256x256, .f32⟩
  | 9 => ⟨S256x256, .f32⟩
  | 10 => ⟨S256x256, .f32⟩
  | 11 => ⟨S256x256, .f32⟩
  | 12 => ⟨S1280x256, .f32⟩
  | 13 => ⟨S256, .f32⟩
  | 14 => ⟨S256x2, .f32⟩
  | 15 => ⟨S2, .f32⟩
  | 16 => ⟨S2x400000, .i32⟩
  | 17 => ⟨S100000, .i32⟩
  | 18 => ⟨S2x300000, .i32⟩
  | 19 => ⟨S100000, .i32⟩
  | 20 => ⟨S512, .i32⟩
  | 21 => ⟨S64, .i32⟩
  | 22 => ⟨S64x256, .f32⟩
  | 23 => ⟨S100000x256, .f32⟩
  | 24 => ⟨S1x400000, .i32⟩
  | 25 => ⟨S400000, .i32⟩
  | 26 => ⟨S1x400000, .i32⟩
  | 27 => ⟨S400000, .i32⟩
  | 28 => ⟨S100000, .i32⟩
  | 29 => ⟨S500000, .i32⟩
  | 30 => ⟨S500000, .i32⟩
  | 31 => ⟨S_, .f32⟩
  | 32 => ⟨S100000, .f32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S_, .f32⟩
  | 42 => ⟨S500000, .f32⟩
  | 43 => ⟨S100000, .f32⟩
  | 44 => ⟨S100000, .f32⟩
  | 45 => ⟨S100000x256, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x256, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000, .f32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000, .f32⟩
  | 73 => ⟨S500000, .f32⟩
  | 74 => ⟨S500000x1, .f32⟩
  | 75 => ⟨S500000x256, .f32⟩
  | 76 => ⟨S500000x256, .f32⟩
  | 77 => ⟨S_, .f32⟩
  | 78 => ⟨S100000x256, .f32⟩
  | 79 => ⟨S500000x1, .i32⟩
  | 80 => ⟨S100000x256, .f32⟩
  | 81 => ⟨S_, .f32⟩
  | 82 => ⟨S100000x256, .f32⟩
  | 83 => ⟨S100000x256, .f32⟩
  | 84 => ⟨S100000, .i32⟩
  | 85 => ⟨S500000, .i32⟩
  | 86 => ⟨S500000, .i32⟩
  | 87 => ⟨S_, .f32⟩
  | 88 => ⟨S100000, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S_, .f32⟩
  | 98 => ⟨S500000, .f32⟩
  | 99 => ⟨S100000, .f32⟩
  | 100 => ⟨S100000, .f32⟩
  | 101 => ⟨S100000x256, .f32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000x256, .f32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000, .f32⟩
  | 120 => ⟨S_, .i32⟩
  | 121 => ⟨S500000, .i32⟩
  | 122 => ⟨S500000, .i1⟩
  | 123 => ⟨S_, .i32⟩
  | 124 => ⟨S500000, .i32⟩
  | 125 => ⟨S500000, .i32⟩
  | 126 => ⟨S500000, .i32⟩
  | 127 => ⟨S500000x1, .i32⟩
  | _ => ⟨S64x768, .f32⟩

abbrev hbmTy0_1 (i : Nat) : BufTy := match i % 128 with
  | 0 => ⟨S500000, .f32⟩
  | 1 => ⟨S500000, .f32⟩
  | 2 => ⟨S500000x1, .f32⟩
  | 3 => ⟨S500000x256, .f32⟩
  | 4 => ⟨S500000x256, .f32⟩
  | 5 => ⟨S_, .f32⟩
  | 6 => ⟨S100000x256, .f32⟩
  | 7 => ⟨S500000x1, .i32⟩
  | 8 => ⟨S100000x256, .f32⟩
  | 9 => ⟨S_, .f32⟩
  | 10 => ⟨S64x256, .f32⟩
  | 11 => ⟨S100000x1, .i32⟩
  | 12 => ⟨S64x256, .f32⟩
  | 13 => ⟨S_, .f32⟩
  | 14 => ⟨S100000, .f32⟩
  | 15 => ⟨S_, .f32⟩
  | 16 => ⟨S64, .f32⟩
  | 17 => ⟨S100000x1, .i32⟩
  | 18 => ⟨S64, .f32⟩
  | 19 => ⟨S_, .f32⟩
  | 20 => ⟨S64, .f32⟩
  | 21 => ⟨S64, .f32⟩
  | 22 => ⟨S64x1, .f32⟩
  | 23 => ⟨S64x256, .f32⟩
  | 24 => ⟨S64x256, .f32⟩
  | 25 => ⟨S100000x256, .f32⟩
  | 26 => ⟨S1x300000, .i32⟩
  | 27 => ⟨S300000, .i32⟩
  | 28 => ⟨S1x300000, .i32⟩
  | 29 => ⟨S300000, .i32⟩
  | 30 => ⟨S100000, .i32⟩
  | 31 => ⟨S400000, .i32⟩
  | 32 => ⟨S400000, .i32⟩
  | 33 => ⟨S_, .f32⟩
  | 34 => ⟨S100000, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S_, .f32⟩
  | 44 => ⟨S400000, .f32⟩
  | 45 => ⟨S100000, .f32⟩
  | 46 => ⟨S100000, .f32⟩
  | 47 => ⟨S100000x256, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000x256, .f32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S400000, .f32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S400000, .f32⟩
  | 75 => ⟨S400000, .f32⟩
  | 76 => ⟨S400000x1, .f32⟩
  | 77 => ⟨S400000x256, .f32⟩
  | 78 => ⟨S400000x256, .f32⟩
  | 79 => ⟨S_, .f32⟩
  | 80 => ⟨S100000x256, .f32⟩
  | 81 => ⟨S400000x1, .i32⟩
  | 82 => ⟨S100000x256, .f32⟩
  | 83 => ⟨S_, .f32⟩
  | 84 => ⟨S100000x256, .f32⟩
  | 85 => ⟨S100000x256, .f32⟩
  | 86 => ⟨S100000, .i32⟩
  | 87 => ⟨S400000, .i32⟩
  | 88 => ⟨S400000, .i32⟩
  | 89 => ⟨S_, .f32⟩
  | 90 => ⟨S100000, .f32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S_, .f32⟩
  | 100 => ⟨S400000, .f32⟩
  | 101 => ⟨S100000, .f32⟩
  | 102 => ⟨S100000, .f32⟩
  | 103 => ⟨S100000x256, .f32⟩
  | 104 => ⟨S_, .i32⟩
  | 105 => ⟨S400000, .i32⟩
  | 106 => ⟨S400000, .i1⟩
  | 107 => ⟨S_, .i32⟩
  | 108 => ⟨S400000, .i32⟩
  | 109 => ⟨S400000, .i32⟩
  | 110 => ⟨S400000, .i32⟩
  | 111 => ⟨S400000x1, .i32⟩
  | 112 => ⟨S400000x256, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000, .f32⟩
  | 122 => ⟨S_, .i32⟩
  | 123 => ⟨S400000, .i32⟩
  | 124 => ⟨S400000, .i1⟩
  | 125 => ⟨S_, .i32⟩
  | 126 => ⟨S400000, .i32⟩
  | 127 => ⟨S400000, .i32⟩
  | _ => ⟨S64x768, .f32⟩

abbrev hbmTy0_2 (i : Nat) : BufTy := match i % 128 with
  | 0 => ⟨S400000, .i32⟩
  | 1 => ⟨S400000x1, .i32⟩
  | 2 => ⟨S400000, .f32⟩
  | 3 => ⟨S400000, .f32⟩
  | 4 => ⟨S400000x1, .f32⟩
  | 5 => ⟨S400000x256, .f32⟩
  | 6 => ⟨S400000x256, .f32⟩
  | 7 => ⟨S_, .f32⟩
  | 8 => ⟨S100000x256, .f32⟩
  | 9 => ⟨S400000x1, .i32⟩
  | 10 => ⟨S100000x256, .f32⟩
  | 11 => ⟨S_, .f32⟩
  | 12 => ⟨S512x256, .f32⟩
  | 13 => ⟨S100000x1, .i32⟩
  | 14 => ⟨S512x256, .f32⟩
  | 15 => ⟨S_, .f32⟩
  | 16 => ⟨S100000, .f32⟩
  | 17 => ⟨S_, .f32⟩
  | 18 => ⟨S512, .f32⟩
  | 19 => ⟨S100000x1, .i32⟩
  | 20 => ⟨S512, .f32⟩
  | 21 => ⟨S_, .f32⟩
  | 22 => ⟨S512, .f32⟩
  | 23 => ⟨S512, .f32⟩
  | 24 => ⟨S512x1, .f32⟩
  | 25 => ⟨S512x256, .f32⟩
  | 26 => ⟨S512x256, .f32⟩
  | 27 => ⟨S_, .f32⟩
  | 28 => ⟨S64x256, .f32⟩
  | 29 => ⟨S512x1, .i32⟩
  | 30 => ⟨S64x256, .f32⟩
  | 31 => ⟨S_, .f32⟩
  | 32 => ⟨S512, .f32⟩
  | 33 => ⟨S_, .f32⟩
  | 34 => ⟨S64, .f32⟩
  | 35 => ⟨S512x1, .i32⟩
  | 36 => ⟨S64, .f32⟩
  | 37 => ⟨S_, .f32⟩
  | 38 => ⟨S64, .f32⟩
  | 39 => ⟨S64, .f32⟩
  | 40 => ⟨S64x1, .f32⟩
  | 41 => ⟨S64x256, .f32⟩
  | 42 => ⟨S64x256, .f32⟩
  | 43 => ⟨S64x256, .f32⟩
  | 44 => ⟨S64x256, .f32⟩
  | 45 => ⟨S64x1280, .f32⟩
  | 46 => ⟨S64x256, .f32⟩
  | 47 => ⟨S1x256, .f32⟩
  | 48 => ⟨S64x256, .f32⟩
  | 49 => ⟨S64x256, .f32⟩
  | 50 => ⟨S_, .f32⟩
  | 51 => ⟨S64x256, .f32⟩
  | 52 => ⟨S64x256, .f32⟩
  | 53 => ⟨S64x2, .f32⟩
  | 54 => ⟨S1x2, .f32⟩
  | 55 => ⟨S64x2, .f32⟩
  | 56 => ⟨S64x2, .f32⟩
  | 57 => ⟨S_, .f32⟩
  | 58 => ⟨S64, .f32⟩
  | 59 => ⟨S_, .f32⟩
  | 60 => ⟨S64, .f32⟩
  | 61 => ⟨S64, .f32⟩
  | 62 => ⟨S64x1, .f32⟩
  | 63 => ⟨S64x2, .f32⟩
  | 64 => ⟨S64x2, .f32⟩
  | 65 => ⟨S64x2, .f32⟩
  | 66 => ⟨S_, .f32⟩
  | 67 => ⟨S64, .f32⟩
  | 68 => ⟨S64x1, .f32⟩
  | 69 => ⟨S64x1, .f32⟩
  | 70 => ⟨S64x2, .f32⟩
  | 71 => ⟨S64x2, .f32⟩
  | 72 => ⟨S64x1, .i32⟩
  | 73 => ⟨S_, .i32⟩
  | 74 => ⟨S64x1, .i32⟩
  | 75 => ⟨S64x1, .i1⟩
  | 76 => ⟨S_, .i32⟩
  | 77 => ⟨S64x1, .i32⟩
  | 78 => ⟨S64x1, .i32⟩
  | 79 => ⟨S64x1, .i32⟩
  | 80 => ⟨S64x1x1, .i32⟩
  | 81 => ⟨S1, .i32⟩
  | 82 => ⟨S_, .i32⟩
  | 83 => ⟨S64x1x1, .i32⟩
  | 84 => ⟨S64x1x1, .i1⟩
  | 85 => ⟨S1x1x1, .i32⟩
  | 86 => ⟨S64x1x1, .i32⟩
  | 87 => ⟨S64x1x1, .i1⟩
  | 88 => ⟨S64x1x1, .i1⟩
  | 89 => ⟨S_, .i1⟩
  | 90 => ⟨S64x1, .i1⟩
  | 91 => ⟨S64x1, .f32⟩
  | 92 => ⟨S_, .f32⟩
  | 93 => ⟨S64x1, .f32⟩
  | 94 => ⟨S64x1, .f32⟩
  | 95 => ⟨S_, .f32⟩
  | 96 => ⟨S_, .f32⟩
  | 97 => ⟨S_, .f32⟩
  | 98 => ⟨S_, .f32⟩
  | 99 => ⟨S_, .f32⟩
  | _ => ⟨S64x768, .f32⟩

abbrev hbmTy (i : Nat) : BufTy := match i / 128 with
  | 0 => hbmTy0_0 i
  | 1 => hbmTy0_1 i
  | 2 => hbmTy0_2 i
  | _ => ⟨S64x768, .f32⟩

abbrev bufTy : (tb : Table) → Fin (tcTables nBuf tb) → BufTy
  | .hbm, ⟨i, _⟩ => hbmTy i
  | _, _ => ⟨S64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_c : Ref sig .tc := ⟨.hbm, 33, rfl⟩
abbrev main_v10 : Ref sig .tc := ⟨.hbm, 34, rfl⟩
abbrev main_v11 : Ref sig .tc := ⟨.hbm, 35, rfl⟩
abbrev main_c_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_c_3 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_6 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call0_cst : Ref sig .tc := ⟨.hbm, 81, rfl⟩
abbrev main_call0_v0 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_9 : Ref sig .tc := ⟨.hbm, 87, rfl⟩
abbrev main_v52 : Ref sig .tc := ⟨.hbm, 88, rfl⟩
abbrev main_c_10 : Ref sig .tc := ⟨.hbm, 89, rfl⟩
abbrev main_v53 : Ref sig .tc := ⟨.hbm, 90, rfl⟩
abbrev main_v54 : Ref sig .tc := ⟨.hbm, 91, rfl⟩
abbrev main_c_11 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_12 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_c_13 : Ref sig .tc := ⟨.hbm, 102, rfl⟩
abbrev main_v63 : Ref sig .tc := ⟨.hbm, 103, rfl⟩
abbrev main_v64 : Ref sig .tc := ⟨.hbm, 104, rfl⟩
abbrev main_c_14 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_15 : Ref sig .tc := ⟨.hbm, 111, rfl⟩
abbrev main_v70 : Ref sig .tc := ⟨.hbm, 112, rfl⟩
abbrev main_v71 : Ref sig .tc := ⟨.hbm, 113, rfl⟩
abbrev main_c_16 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_c_17 : Ref sig .tc := ⟨.hbm, 120, rfl⟩
abbrev main_v77 : Ref sig .tc := ⟨.hbm, 121, rfl⟩
abbrev main_v78 : Ref sig .tc := ⟨.hbm, 122, rfl⟩
abbrev main_c_18 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_19 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_20 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_21 : Ref sig .tc := ⟨.hbm, 141, rfl⟩
abbrev main_v94 : Ref sig .tc := ⟨.hbm, 142, rfl⟩
abbrev main_cst_22 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_23 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_24 : Ref sig .tc := ⟨.hbm, 161, rfl⟩
abbrev main_v111 : Ref sig .tc := ⟨.hbm, 162, rfl⟩
abbrev main_c_25 : Ref sig .tc := ⟨.hbm, 163, rfl⟩
abbrev main_v112 : Ref sig .tc := ⟨.hbm, 164, rfl⟩
abbrev main_v113 : Ref sig .tc := ⟨.hbm, 165, rfl⟩
abbrev main_c_26 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_27 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_c_28 : Ref sig .tc := ⟨.hbm, 176, rfl⟩
abbrev main_v122 : Ref sig .tc := ⟨.hbm, 177, rfl⟩
abbrev main_v123 : Ref sig .tc := ⟨.hbm, 178, rfl⟩
abbrev main_c_29 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_c_30 : Ref sig .tc := ⟨.hbm, 185, rfl⟩
abbrev main_v129 : Ref sig .tc := ⟨.hbm, 186, rfl⟩
abbrev main_v130 : Ref sig .tc := ⟨.hbm, 187, rfl⟩
abbrev main_c_31 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_c_32 : Ref sig .tc := ⟨.hbm, 194, rfl⟩
abbrev main_v136 : Ref sig .tc := ⟨.hbm, 195, rfl⟩
abbrev main_v137 : Ref sig .tc := ⟨.hbm, 196, rfl⟩
abbrev main_c_33 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_34 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_call1_cst : Ref sig .tc := ⟨.hbm, 211, rfl⟩
abbrev main_call1_v0 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_cst_35 : Ref sig .tc := ⟨.hbm, 217, rfl⟩
abbrev main_v154 : Ref sig .tc := ⟨.hbm, 218, rfl⟩
abbrev main_c_36 : Ref sig .tc := ⟨.hbm, 219, rfl⟩
abbrev main_v155 : Ref sig .tc := ⟨.hbm, 220, rfl⟩
abbrev main_v156 : Ref sig .tc := ⟨.hbm, 221, rfl⟩
abbrev main_c_37 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_cst_38 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_c_39 : Ref sig .tc := ⟨.hbm, 232, rfl⟩
abbrev main_v165 : Ref sig .tc := ⟨.hbm, 233, rfl⟩
abbrev main_v166 : Ref sig .tc := ⟨.hbm, 234, rfl⟩
abbrev main_c_40 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_c_41 : Ref sig .tc := ⟨.hbm, 241, rfl⟩
abbrev main_v172 : Ref sig .tc := ⟨.hbm, 242, rfl⟩
abbrev main_v173 : Ref sig .tc := ⟨.hbm, 243, rfl⟩
abbrev main_c_42 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_c_43 : Ref sig .tc := ⟨.hbm, 250, rfl⟩
abbrev main_v179 : Ref sig .tc := ⟨.hbm, 251, rfl⟩
abbrev main_v180 : Ref sig .tc := ⟨.hbm, 252, rfl⟩
abbrev main_c_44 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_cst_45 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_cst_46 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_cst_47 : Ref sig .tc := ⟨.hbm, 271, rfl⟩
abbrev main_v196 : Ref sig .tc := ⟨.hbm, 272, rfl⟩
abbrev main_cst_48 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_cst_49 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_cst_50 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_cst_51 : Ref sig .tc := ⟨.hbm, 287, rfl⟩
abbrev main_v208 : Ref sig .tc := ⟨.hbm, 288, rfl⟩
abbrev main_cst_52 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_cst_53 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_call2_cst : Ref sig .tc := ⟨.hbm, 306, rfl⟩
abbrev main_call2_v0 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_call3_cst : Ref sig .tc := ⟨.hbm, 313, rfl⟩
abbrev main_call3_v0 : Ref sig .tc := ⟨.hbm, 314, rfl⟩
abbrev main_call3_cst_0 : Ref sig .tc := ⟨.hbm, 315, rfl⟩
abbrev main_call3_v1 : Ref sig .tc := ⟨.hbm, 316, rfl⟩
abbrev main_call3_v2 : Ref sig .tc := ⟨.hbm, 317, rfl⟩
abbrev main_call3_v3 : Ref sig .tc := ⟨.hbm, 318, rfl⟩
abbrev main_call3_v4 : Ref sig .tc := ⟨.hbm, 319, rfl⟩
abbrev main_call3_v5 : Ref sig .tc := ⟨.hbm, 320, rfl⟩
abbrev main_call3_v6 : Ref sig .tc := ⟨.hbm, 321, rfl⟩
abbrev main_call3_cst_1 : Ref sig .tc := ⟨.hbm, 322, rfl⟩
abbrev main_call3_v7 : Ref sig .tc := ⟨.hbm, 323, rfl⟩
abbrev main_call3_v8 : Ref sig .tc := ⟨.hbm, 324, rfl⟩
abbrev main_call3_v9 : Ref sig .tc := ⟨.hbm, 325, rfl⟩
abbrev main_call3_v10 : Ref sig .tc := ⟨.hbm, 326, rfl⟩
abbrev main_v229 : Ref sig .tc := ⟨.hbm, 327, rfl⟩
abbrev main_v230 : Ref sig .tc := ⟨.hbm, 328, rfl⟩
abbrev main_call4_c : Ref sig .tc := ⟨.hbm, 329, rfl⟩
abbrev main_call4_v0 : Ref sig .tc := ⟨.hbm, 330, rfl⟩
abbrev main_call4_v1 : Ref sig .tc := ⟨.hbm, 331, rfl⟩
abbrev main_call4_c_0 : Ref sig .tc := ⟨.hbm, 332, rfl⟩
abbrev main_call4_v2 : Ref sig .tc := ⟨.hbm, 333, rfl⟩
abbrev main_call4_v3 : Ref sig .tc := ⟨.hbm, 334, rfl⟩
abbrev main_call4_v4 : Ref sig .tc := ⟨.hbm, 335, rfl⟩
abbrev main_call4_v5 : Ref sig .tc := ⟨.hbm, 336, rfl⟩
abbrev main_call4_c_1 : Ref sig .tc := ⟨.hbm, 337, rfl⟩
abbrev main_call4_c_2 : Ref sig .tc := ⟨.hbm, 338, rfl⟩
abbrev main_call4_v6 : Ref sig .tc := ⟨.hbm, 339, rfl⟩
abbrev main_call4_v7 : Ref sig .tc := ⟨.hbm, 340, rfl⟩
abbrev main_call4_v8 : Ref sig .tc := ⟨.hbm, 341, rfl⟩
abbrev main_call4_v9 : Ref sig .tc := ⟨.hbm, 342, rfl⟩
abbrev main_call4_v10 : Ref sig .tc := ⟨.hbm, 343, rfl⟩
abbrev main_call4_v11 : Ref sig .tc := ⟨.hbm, 344, rfl⟩
abbrev main_call4_c_3 : Ref sig .tc := ⟨.hbm, 345, rfl⟩
abbrev main_call4_v12 : Ref sig .tc := ⟨.hbm, 346, rfl⟩
abbrev main_call4_v13 : Ref sig .tc := ⟨.hbm, 347, rfl⟩
abbrev main_call4_cst : Ref sig .tc := ⟨.hbm, 348, rfl⟩
abbrev main_call4_v14 : Ref sig .tc := ⟨.hbm, 349, rfl⟩
abbrev main_v231 : Ref sig .tc := ⟨.hbm, 350, rfl⟩
abbrev main_cst_54 : Ref sig .tc := ⟨.hbm, 351, rfl⟩
abbrev main_v232 : Ref sig .tc := ⟨.hbm, 352, rfl⟩
abbrev main_cst_55 : Ref sig .tc := ⟨.hbm, 353, rfl⟩
abbrev main_v233 : Ref sig .tc := ⟨.hbm, 354, rfl⟩
abbrev main_v234 : Ref sig .tc := ⟨.hbm, 355, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S100000_S500000_d0 : Shape.Concatenates [S400000, S100000] S500000 0
  bcast_S_S100000 : S_.BroadcastsInDim S100000 (![] : Fin 0 → Fin S100000.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S100000x256 : S_.BroadcastsInDim S100000x256 (![] : Fin 0 → Fin S100000x256.rank)
  bcast_S_S64x256 : S_.BroadcastsInDim S64x256 (![] : Fin 0 → Fin S64x256.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  concatenates_S300000_S100000_S400000_d0 : Shape.Concatenates [S300000, S100000] S400000 0
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  concatenates_S64x256_S64x256_S64x256_S64x256_S64x256_S64x1280_d1 : Shape.Concatenates [S64x256, S64x256, S64x256, S64x256, S64x256] S64x1280 1
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S64x1_S64x2_0_1 : S64x1.BroadcastsInDim S64x2 (![0, 1] : Fin 2 → Fin S64x2.rank)
  bcast_S_S64x1 : S_.BroadcastsInDim S64x1 (![] : Fin 0 → Fin S64x1.rank)
  shapeCasts_S64x1_S64x1x1 : S64x1.ShapeCasts S64x1x1
  bcast_S_S64x1x1 : S_.BroadcastsInDim S64x1x1 (![] : Fin 0 → Fin S64x1x1.rank)
  bcast_S1_S1x1x1_2 : S1.BroadcastsInDim S1x1x1 (![2] : Fin 1 → Fin S1x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  reducesTo_S64x1_S_d0_1 : S64x1.ReducesTo [0, 1] S_
  dot_S64x768_S768x256_S64x256_1_0_0_1_n_n_wf : DotDims.WF S64x768 S768x256 S64x256 [1] [0] [0] [1] [] []
  dot_S100000x768_S768x256_S100000x256_1_0_0_1_n_n_wf : DotDims.WF S100000x768 S768x256 S100000x256 [1] [0] [0] [1] [] []
  scatter_S100000_S500000x1_S500000_n_0_0_1_wf : ScatterDims.WF S100000 S500000x1 S500000 [] [0] [0] 1
  dot_S100000x256_S256x256_S100000x256_1_0_0_1_n_n_wf : DotDims.WF S100000x256 S256x256 S100000x256 [1] [0] [0] [1] [] []
  gather_S100000x256_S500000x1_S500000x256_1_0_n_n_0_1_1256_wf : GatherDims.WF S100000x256 S500000x1 S500000x256 [1] [0] [] [0] [] 1 ![1, 256]
  gather_S100000_S500000x1_S500000_n_0_n_n_0_1_1_wf : GatherDims.WF S100000 S500000x1 S500000 [] [0] [] [0] [] 1 ![1]
  scatter_S100000x256_S500000x1_S500000x256_1_0_0_1_wf : ScatterDims.WF S100000x256 S500000x1 S500000x256 [1] [0] [0] 1
  scatter_S64x256_S100000x1_S100000x256_1_0_0_1_wf : ScatterDims.WF S64x256 S100000x1 S100000x256 [1] [0] [0] 1
  scatter_S64_S100000x1_S100000_n_0_0_1_wf : ScatterDims.WF S64 S100000x1 S100000 [] [0] [0] 1
  scatter_S100000_S400000x1_S400000_n_0_0_1_wf : ScatterDims.WF S100000 S400000x1 S400000 [] [0] [0] 1
  gather_S100000x256_S400000x1_S400000x256_1_0_n_n_0_1_1256_wf : GatherDims.WF S100000x256 S400000x1 S400000x256 [1] [0] [] [0] [] 1 ![1, 256]
  gather_S100000_S400000x1_S400000_n_0_n_n_0_1_1_wf : GatherDims.WF S100000 S400000x1 S400000 [] [0] [] [0] [] 1 ![1]
  scatter_S100000x256_S400000x1_S400000x256_1_0_0_1_wf : ScatterDims.WF S100000x256 S400000x1 S400000x256 [1] [0] [0] 1
  scatter_S512x256_S100000x1_S100000x256_1_0_0_1_wf : ScatterDims.WF S512x256 S100000x1 S100000x256 [1] [0] [0] 1
  scatter_S512_S100000x1_S100000_n_0_0_1_wf : ScatterDims.WF S512 S100000x1 S100000 [] [0] [0] 1
  scatter_S64x256_S512x1_S512x256_1_0_0_1_wf : ScatterDims.WF S64x256 S512x1 S512x256 [1] [0] [0] 1
  scatter_S64_S512x1_S512_n_0_0_1_wf : ScatterDims.WF S64 S512x1 S512 [] [0] [0] 1
  dot_S64x1280_S1280x256_S64x256_1_0_0_1_n_n_wf : DotDims.WF S64x1280 S1280x256 S64x256 [1] [0] [0] [1] [] []
  dot_S64x256_S256x2_S64x2_1_0_0_1_n_n_wf : DotDims.WF S64x256 S256x2 S64x2 [1] [0] [0] [1] [] []
  gather_S64x2_S64x1x1_S64x1_n_1_0_0_1_2_11_wf : GatherDims.WF S64x2 S64x1x1 S64x1 [] [1] [0] [1] [0] 2 ![1, 1]

variable [Facts₀]

def dot_S64x768_S768x256_S64x256_1_0_0_1_n_n : DotDims S64x768 S768x256 S64x256 where
  lhsContracting := [1]
  rhsContracting := [0]
  lhsNonContracting := [0]
  rhsNonContracting := [1]
  lhsBatch := []
  rhsBatch := []
  wf := dot_S64x768_S768x256_S64x256_1_0_0_1_n_n_wf
def dot_S100000x768_S768x256_S100000x256_1_0_0_1_n_n : DotDims S100000x768 S768x256 S100000x256 where
  lhsContracting := [1]
  rhsContracting := [0]
  lhsNonContracting := [0]
  rhsNonContracting := [1]
  lhsBatch := []
  rhsBatch := []
  wf := dot_S100000x768_S768x256_S100000x256_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def scatter_S64x256_S100000x1_S100000x256_1_0_0_1 : ScatterDims S64x256 S100000x1 S100000x256 where
  updateWindowDims := [1]
  insertedWindowDims := [0]
  scatterDimsToOperandDims := [0]
  indexVectorDim := 1
  wf := scatter_S64x256_S100000x1_S100000x256_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def scatter_S512x256_S100000x1_S100000x256_1_0_0_1 : ScatterDims S512x256 S100000x1 S100000x256 where
  updateWindowDims := [1]
  insertedWindowDims := [0]
  scatterDimsToOperandDims := [0]
  indexVectorDim := 1
  wf := scatter_S512x256_S100000x1_S100000x256_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S64x256_S512x1_S512x256_1_0_0_1 : ScatterDims S64x256 S512x1 S512x256 where
  updateWindowDims := [1]
  insertedWindowDims := [0]
  scatterDimsToOperandDims := [0]
  indexVectorDim := 1
  wf := scatter_S64x256_S512x1_S512x256_1_0_0_1_wf
def scatter_S64_S512x1_S512_n_0_0_1 : ScatterDims S64 S512x1 S512 where
  updateWindowDims := []
  insertedWindowDims := [0]
  scatterDimsToOperandDims := [0]
  indexVectorDim := 1
  wf := scatter_S64_S512x1_S512_n_0_0_1_wf
def dot_S64x1280_S1280x256_S64x256_1_0_0_1_n_n : DotDims S64x1280 S1280x256 S64x256 where
  lhsContracting := [1]
  rhsContracting := [0]
  lhsNonContracting := [0]
  rhsNonContracting := [1]
  lhsBatch := []
  rhsBatch := []
  wf := dot_S64x1280_S1280x256_S64x256_1_0_0_1_n_n_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf
def gather_S64x2_S64x1x1_S64x1_n_1_0_0_1_2_11 : GatherDims S64x2 S64x1x1 S64x1 where
  offsetDims := []
  collapsedSliceDims := [1]
  operandBatchingDims := [0]
  startIndicesBatchingDims := [0]
  startIndexMap := [1]
  indexVectorDim := 2
  sliceSizes := ![1, 1]
  wf := gather_S64x2_S64x1x1_S64x1_n_1_0_0_1_2_11_wf

class Facts : Prop extends Facts₀ where

variable [Facts]
-- ==== Proof.KDefs.lean ====
/-
  The four pallas calls of the kernel program are one body at two sizes: load a 4000-row tile of the left factor and
  the whole right factor, multiply them on the matrix unit into a zero accumulator, store the 4000 x 256 product tile.
  This module fixes, for each call, the block every window holds at a grid point, the tile the body stores, and the
  pipeline's proof data built from them; the body's run and the launch are proved over these definitions.
-/
import proofs.«154056_j23527830847606_2_alg».proof.Proof.Gen.Kernel.Launch
import proofs.«154056_j23527830847606_2_alg».proof.Proof.Gen.Kernel.Skeleton
import proofs.«154056_j23527830847606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
variable (V : (c : Dev nD) → (b : Ref sig .tc) → Buf (Elt F) ((c : Thread nD τ).loc b))

/-- The whole-buffer rectangles the body loads and stores through. -/
abbrev rx0 : Rect S4000x768 := Rect.unit (s := S4000x768) ![0, 0] S4000x768.size inb_S4000x768_S4000x768_0_0
abbrev rw0 : Rect S768x256 := Rect.unit (s := S768x256) ![0, 0] S768x256.size inb_S768x256_S768x256_0_0
abbrev rw1 : Rect S256x256 := Rect.unit (s := S256x256) ![0, 0] S256x256.size inb_S256x256_S256x256_0_0
abbrev ro : Rect S4000x256 := Rect.unit (s := S4000x256) ![0, 0] S4000x256.size inb_S4000x256_S4000x256_0_0

/-! ## Pallas call 0: a row tile of the left factor (window 0) times the whole right factor (window 1) into the
    same row tile of the product (window 2) -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The product tile the body stores: one whole-block store of the matrix product of the two loaded blocks. -/
def out0_2 (x0 : Vec F S4000x768 .f32) (x1 : Vec F S768x256 .f32) : Vec F S4000x256 .f32 :=
  View.canon [⟨ro, k0_pay1 (View.ld x0 rx0) (View.ld x1 rw0)⟩]

/-- The pipeline's proof data: the arrays as the region finds them; after the body the two input buffers hold
    their blocks and the output buffer the product tile. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Pallas call 1: a row tile of the left factor (window 0) times the whole right factor (window 1) into the
    same row tile of the product (window 2) -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The product tile the body stores: one whole-block store of the matrix product of the two loaded blocks. -/
def out1_2 (x0 : Vec F S4000x256 .f32) (x1 : Vec F S256x256 .f32) : Vec F S4000x256 .f32 :=
  View.canon [⟨ro, k1_pay1 (View.ld x0 ro) (View.ld x1 rw1)⟩]

/-- The pipeline's proof data: the arrays as the region finds them; after the body the two input buffers hold
    their blocks and the output buffer the product tile. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Pallas call 2: a row tile of the left factor (window 0) times the whole right factor (window 1) into the
    same row tile of the product (window 2) -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The product tile the body stores: one whole-block store of the matrix product of the two loaded blocks. -/
def out2_2 (x0 : Vec F S4000x768 .f32) (x1 : Vec F S768x256 .f32) : Vec F S4000x256 .f32 :=
  View.canon [⟨ro, k2_pay1 (View.ld x0 rx0) (View.ld x1 rw0)⟩]

/-- The pipeline's proof data: the arrays as the region finds them; after the body the two input buffers hold
    their blocks and the output buffer the product tile. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## Pallas call 3: a row tile of the left factor (window 0) times the whole right factor (window 1) into the
    same row tile of the product (window 2) -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The product tile the body stores: one whole-block store of the matrix product of the two loaded blocks. -/
def out3_2 (x0 : Vec F S4000x256 .f32) (x1 : Vec F S256x256 .f32) : Vec F S4000x256 .f32 :=
  View.canon [⟨ro, k3_pay1 (View.ld x0 ro) (View.ld x1 rw1)⟩]

/-- The pipeline's proof data: the arrays as the region finds them; after the body the two input buffers hold
    their blocks and the output buffer the product tile. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

end Regions

end Cert.Kernel.Hand

end
-- ==== Proof.KBody0.lean ====
/-
  Pallas call 0 of the kernel program: the body's run on whole staging buffers and the body obligation of its
  pipeline. The body loads the left factor's row tile and the whole right factor, multiplies them into a zero
  accumulator and stores the product tile whole; the output buffer's earlier contents are read once and never used.
-/
import proofs.«154056_j23527830847606_2_alg».proof.Proof.KDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The single whole-block store covers the product tile's buffer. -/
theorem cover0_2 (p0 : Vec F S4000x256 .f32) (y : S4000x256.Idx) :
    ∃ pc ∈ ([⟨ro, p0⟩] : List (View.Piece (Elt F) S4000x256 .f32)), y ∈ pc.1.set :=
  View.cover_of_tiled [⟨ro, p0⟩] S4000x256.size (by rfl) y

set_option maxHeartbeats 1000000 in
/-- The body on whole staging buffers: with the two factors' buffers at read contents `x0`, `x1` and the product's
    buffer at anything, it runs to the continuation holding the factors' buffers as they were and the product's at
    the tile `out0_2 x0 x1`. -/
theorem sound_kernel0 (c : Dev nD) (E : Set ℕ) (i : grid0.Coords)
    (arg1 : Memref sig .tc .vmem S4000x768 .f32) (harg1 : arg1.IsWhole)
    (arg2 : Memref sig .tc .vmem S768x256 .f32) (harg2 : arg2.IsWhole)
    (arg3 : Memref sig .tc .vmem S4000x256 .f32) (harg3 : arg3.IsWhole)
    (x0 : Vec F S4000x768 .f32) (x1 : Vec F S768x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The left factor's current staging buffer holds its row tile at every grid point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The right factor's staging buffer holds the whole factor at every grid point: it is fetched at the first point
    only, and where it is not fetched its block index has not moved. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- What the body is called with at grid point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the two factors' buffers hold their blocks, so the body's run applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KBody1.lean ====
/-
  Pallas call 1 of the kernel program: the body's run on whole staging buffers and the body obligation of its
  pipeline. The body loads the left factor's row tile and the whole right factor, multiplies them into a zero
  accumulator and stores the product tile whole; the output buffer's earlier contents are read once and never used.
-/
import proofs.«154056_j23527830847606_2_alg».proof.Proof.KDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The single whole-block store covers the product tile's buffer. -/
theorem cover1_2 (p0 : Vec F S4000x256 .f32) (y : S4000x256.Idx) :
    ∃ pc ∈ ([⟨ro, p0⟩] : List (View.Piece (Elt F) S4000x256 .f32)), y ∈ pc.1.set :=
  View.cover_of_tiled [⟨ro, p0⟩] S4000x256.size (by rfl) y

set_option maxHeartbeats 1000000 in
/-- The body on whole staging buffers: with the two factors' buffers at read contents `x0`, `x1` and the product's
    buffer at anything, it runs to the continuation holding the factors' buffers as they were and the product's at
    the tile `out1_2 x0 x1`. -/
theorem sound_kernel1 (c : Dev nD) (E : Set ℕ) (i : grid1.Coords)
    (arg1 : Memref sig .tc .vmem S4000x256 .f32) (harg1 : arg1.IsWhole)
    (arg2 : Memref sig .tc .vmem S256x256 .f32) (harg2 : arg2.IsWhole)
    (arg3 : Memref sig .tc .vmem S4000x256 .f32) (harg3 : arg3.IsWhole)
    (x0 : Vec F S4000x256 .f32) (x1 : Vec F S256x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The left factor's current staging buffer holds its row tile at every grid point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The right factor's staging buffer holds the whole factor at every grid point: it is fetched at the first point
    only, and where it is not fetched its block index has not moved. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at grid point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: the two factors' buffers hold their blocks, so the body's run applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KBody2.lean ====
/-
  Pallas call 2 of the kernel program: the body's run on whole staging buffers and the body obligation of its
  pipeline. The body loads the left factor's row tile and the whole right factor, multiplies them into a zero
  accumulator and stores the product tile whole; the output buffer's earlier contents are read once and never used.
-/
import proofs.«154056_j23527830847606_2_alg».proof.Proof.KDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The single whole-block store covers the product tile's buffer. -/
theorem cover2_2 (p0 : Vec F S4000x256 .f32) (y : S4000x256.Idx) :
    ∃ pc ∈ ([⟨ro, p0⟩] : List (View.Piece (Elt F) S4000x256 .f32)), y ∈ pc.1.set :=
  View.cover_of_tiled [⟨ro, p0⟩] S4000x256.size (by rfl) y

set_option maxHeartbeats 1000000 in
/-- The body on whole staging buffers: with the two factors' buffers at read contents `x0`, `x1` and the product's
    buffer at anything, it runs to the continuation holding the factors' buffers as they were and the product's at
    the tile `out2_2 x0 x1`. -/
theorem sound_kernel2 (c : Dev nD) (E : Set ℕ) (i : grid2.Coords)
    (arg1 : Memref sig .tc .vmem S4000x768 .f32) (harg1 : arg1.IsWhole)
    (arg2 : Memref sig .tc .vmem S768x256 .f32) (harg2 : arg2.IsWhole)
    (arg3 : Memref sig .tc .vmem S4000x256 .f32) (harg3 : arg3.IsWhole)
    (x0 : Vec F S4000x768 .f32) (x1 : Vec F S768x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The left factor's current staging buffer holds its row tile at every grid point. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The right factor's staging buffer holds the whole factor at every grid point: it is fetched at the first point
    only, and where it is not fetched its block index has not moved. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- What the body is called with at grid point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the two factors' buffers hold their blocks, so the body's run applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.KBody3.lean ====
/-
  Pallas call 3 of the kernel program: the body's run on whole staging buffers and the body obligation of its
  pipeline. The body loads the left factor's row tile and the whole right factor, multiplies them into a zero
  accumulator and stores the product tile whole; the output buffer's earlier contents are read once and never used.
-/
import proofs.«154056_j23527830847606_2_alg».proof.Proof.KDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The single whole-block store covers the product tile's buffer. -/
theorem cover3_2 (p0 : Vec F S4000x256 .f32) (y : S4000x256.Idx) :
    ∃ pc ∈ ([⟨ro, p0⟩] : List (View.Piece (Elt F) S4000x256 .f32)), y ∈ pc.1.set :=
  View.cover_of_tiled [⟨ro, p0⟩] S4000x256.size (by rfl) y

set_option maxHeartbeats 1000000 in
/-- The body on whole staging buffers: with the two factors' buffers at read contents `x0`, `x1` and the product's
    buffer at anything, it runs to the continuation holding the factors' buffers as they were and the product's at
    the tile `out3_2 x0 x1`. -/
theorem sound_kernel3 (c : Dev nD) (E : Set ℕ) (i : grid3.Coords)
    (arg1 : Memref sig .tc .vmem S4000x256 .f32) (harg1 : arg1.IsWhole)
    (arg2 : Memref sig .tc .vmem S256x256 .f32) (harg2 : arg2.IsWhole)
    (arg3 : Memref sig .tc .vmem S4000x256 .f32) (harg3 : arg3.IsWhole)
    (x0 : Vec F S4000x256 .f32) (x1 : Vec F S256x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The left factor's current staging buffer holds its row tile at every grid point. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- The right factor's staging buffer holds the whole factor at every grid point: it is fetched at the first point
    only, and where it is not fetched its block index has not moved. -/
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-- What the body is called with at grid point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any grid point: the two factors' buffers hold their blocks, so the body's run applies; the
    invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation3 (c : Dev nD) : BodyObligation (dat3 (F := F) V c) (defs₀ (F := F)) Variants.none () Set.univ := fun t => by
  rw [bigSep_W3, bigSep_W3]
  exact sound_body3 V c t

end Regions

end Cert.Kernel.Hand

end
-- ==== Proof.KRun.lean ====
/-
  The launch of the kernel program: its four pallas calls as segments of @main between the stretches of host
  operations, and @main's run from any launch memory with every final buffer named. The contents each call leaves
  in its product array are defined one call after the other, each from the contents the calls before it left; the
  run then holds every unscoped buffer at the last valuation of the fold through @main.
-/
import proofs.«154056_j23527830847606_2_alg».proof.Proof.KDefs
import proofs.«154056_j23527830847606_2_alg».proof.Proof.KBody0
import proofs.«154056_j23527830847606_2_alg».proof.Proof.KBody1
import proofs.«154056_j23527830847606_2_alg».proof.Proof.KBody2
import proofs.«154056_j23527830847606_2_alg».proof.Proof.KBody3
import proofs.«154056_j23527830847606_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the four calls leave in their product arrays -/

/-- The valuations before a call depend on the earlier calls' products only: two families of products that agree
    at the first call's array give the same contents before the second call, -/
theorem V4_congr (o o' : Outs (F := F)) (h : ∀ c, o 2 main_v5 c = o' 2 main_v5 c) (c : Dev nD) :
    V4 m o c = V4 m o' c := by
  show StableHlo.after hostOps1_1 (StableHlo.after hostOps1 (Function.update (V1 m c) main_v5 (o 2 main_v5 c))) = _
  rw [h c]

/-- at the first two calls' arrays the same contents before the third, -/
theorem V6_congr (o o' : Outs (F := F)) (h2 : ∀ c, o 2 main_v5 c = o' 2 main_v5 c)
    (h5 : ∀ c, o 5 main_v40 c = o' 5 main_v40 c) (c : Dev nD) : V6 m o c = V6 m o' c := by
  show StableHlo.after hostOps2 (Function.update (V4 m o c) main_v40 (o 5 main_v40 c)) = _
  rw [h5 c, V4_congr m o o' h2 c]

/-- and at the first three calls' arrays the same contents before the fourth. -/
theorem V9_congr (o o' : Outs (F := F)) (h2 : ∀ c, o 2 main_v5 c = o' 2 main_v5 c)
    (h5 : ∀ c, o 5 main_v40 c = o' 5 main_v40 c) (h7 : ∀ c, o 7 main_v69 c = o' 7 main_v69 c) (c : Dev nD) :
    V9 m o c = V9 m o' c := by
  show StableHlo.after hostOps3_1 (StableHlo.after hostOps3 (Function.update (V6 m o c) main_v69 (o 7 main_v69 c))) = _
  rw [h7 c, V6_congr m o o' h2 h5 c]

/-- The first call's product array when its pipeline is done, from the contents the first host stretch leaves. -/
def arr0 (c : Dev nD) : Buf (Elt F) ((c : Thread nD τ).loc main_v5) :=
  (dat0 (fun c b => V1 m c b) c).arrAt 2 cfg0.N
/-- The products so far: every buffer as launched but the first call's array. -/
def outs1 : Outs (F := F) := fun _ => Function.update (fun r c => m ((c : Thread nD τ).loc r)) main_v5 (arr0 m)
/-- The second call's product array, from the contents before it given the first call's. -/
def arr1 (c : Dev nD) : Buf (Elt F) ((c : Thread nD τ).loc main_v40) :=
  (dat1 (fun c b => V4 m (outs1 m) c b) c).arrAt 2 cfg1.N
def outs2 : Outs (F := F) := fun J => Function.update (outs1 m J) main_v40 (arr1 m)
/-- The third call's product array. -/
def arr2 (c : Dev nD) : Buf (Elt F) ((c : Thread nD τ).loc main_v69) :=
  (dat2 (fun c b => V6 m (outs2 m) c b) c).arrAt 2 cfg2.N
def outs3 : Outs (F := F) := fun J => Function.update (outs2 m J) main_v69 (arr2 m)
/-- The fourth call's product array. -/
def arr3 (c : Dev nD) : Buf (Elt F) ((c : Thread nD τ).loc main_v104) :=
  (dat3 (fun c b => V9 m (outs3 m) c b) c).arrAt 2 cfg3.N
/-- What the four calls leave, at every point of @main. -/
def outs : Outs (F := F) := fun J => Function.update (outs3 m J) main_v104 (arr3 m)

theorem outs_v5 (J : ℕ) (c : Dev nD) : outs m J main_v5 c = arr0 m c := by
  unfold outs outs3 outs2 outs1
  rw [Function.update_of_ne (by decide), Function.update_of_ne (by decide), Function.update_of_ne (by decide),
    Function.update_self]
theorem outs_v40 (J : ℕ) (c : Dev nD) : outs m J main_v40 c = arr1 m c := by
  unfold outs outs3 outs2
  rw [Function.update_of_ne (by decide), Function.update_of_ne (by decide), Function.update_self]
theorem outs_v69 (J : ℕ) (c : Dev nD) : outs m J main_v69 c = arr2 m c := by
  unfold outs outs3
  rw [Function.update_of_ne (by decide), Function.update_self]
theorem outs_v104 (J : ℕ) (c : Dev nD) : outs m J main_v104 c = arr3 m c := by
  unfold outs
  rw [Function.update_self]
theorem outs1_v5 (J : ℕ) (c : Dev nD) : outs1 m J main_v5 c = arr0 m c := by
  unfold outs1
  rw [Function.update_self]
theorem outs2_v5 (J : ℕ) (c : Dev nD) : outs2 m J main_v5 c = arr0 m c := by
  unfold outs2 outs1
  rw [Function.update_of_ne (by decide), Function.update_self]
theorem outs2_v40 (J : ℕ) (c : Dev nD) : outs2 m J main_v40 c = arr1 m c := by
  unfold outs2
  rw [Function.update_self]
theorem outs3_v5 (J : ℕ) (c : Dev nD) : outs3 m J main_v5 c = arr0 m c := by
  unfold outs3 outs2 outs1
  rw [Function.update_of_ne (by decide), Function.update_of_ne (by decide), Function.update_self]
theorem outs3_v40 (J : ℕ) (c : Dev nD) : outs3 m J main_v40 c = arr1 m c := by
  unfold outs3 outs2
  rw [Function.update_of_ne (by decide), Function.update_self]
theorem outs3_v69 (J : ℕ) (c : Dev nD) : outs3 m J main_v69 c = arr2 m c := by
  unfold outs3
  rw [Function.update_self]

/-- The contents before each call read at the final family of products are those its array was defined from. -/
theorem V4_outs (c : Dev nD) : V4 m (outs m) c = V4 m (outs1 m) c :=
  V4_congr m _ _ (fun c => (outs_v5 m 2 c).trans (outs1_v5 m 2 c).symm) c
theorem V6_outs (c : Dev nD) : V6 m (outs m) c = V6 m (outs2 m) c :=
  V6_congr m _ _ (fun c => (outs_v5 m 2 c).trans (outs2_v5 m 2 c).symm)
    (fun c => (outs_v40 m 5 c).trans (outs2_v40 m 5 c).symm) c
theorem V9_outs (c : Dev nD) : V9 m (outs m) c = V9 m (outs3 m) c :=
  V9_congr m _ _ (fun c => (outs_v5 m 2 c).trans (outs3_v5 m 2 c).symm)
    (fun c => (outs_v40 m 5 c).trans (outs3_v40 m 5 c).symm)
    (fun c => (outs_v69 m 7 c).trans (outs3_v69 m 7 c).symm) c

/-- Each call's array at the final family is what its pipeline leaves from the contents before it. -/
theorem outs_eq0 (c : Dev nD) : outs m 2 main_v5 c = (dat0 (fun c b => V1 m c b) c).arrAt 2 cfg0.N :=
  outs_v5 m 2 c
theorem outs_eq1 (c : Dev nD) : outs m 5 main_v40 c = (dat1 (fun c b => V4 m (outs m) c b) c).arrAt 2 cfg1.N := by
  have h : (fun (c : Dev nD) (b : Ref sig .tc) => V4 m (outs m) c b) = fun (c : Dev nD) (b : Ref sig .tc) => V4 m (outs1 m) c b :=
    funext fun c => by rw [V4_outs]
  rw [outs_v40, h]; rfl
theorem outs_eq2 (c : Dev nD) : outs m 7 main_v69 c = (dat2 (fun c b => V6 m (outs m) c b) c).arrAt 2 cfg2.N := by
  have h : (fun (c : Dev nD) (b : Ref sig .tc) => V6 m (outs m) c b) = fun (c : Dev nD) (b : Ref sig .tc) => V6 m (outs2 m) c b :=
    funext fun c => by rw [V6_outs]
  rw [outs_v69, h]; rfl
theorem outs_eq3 (c : Dev nD) : outs m 10 main_v104 c = (dat3 (fun c b => V9 m (outs m) c b) c).arrAt 2 cfg3.N := by
  have h : (fun (c : Dev nD) (b : Ref sig .tc) => V9 m (outs m) c b) = fun (c : Dev nD) (b : Ref sig .tc) => V9 m (outs3 m) c b :=
    funext fun c => by rw [V9_outs]
  rw [outs_v104, h]; rfl

/-! ## The proof data family and the thread state -/

/-- Every pipeline's proof data, each at the contents its call is entered from. -/
def pdats : (p : Fin 4) → (c : Dev nD) → Dat τ (Elt F) Unit ℕ (UR sig nD τ) ℕ (cfgs p) c
  | ⟨0, _⟩ => fun c => dat0 (fun c b => V1 m c b) c
  | ⟨1, _⟩ => fun c => dat1 (fun c b => V4 m (outs m) c b) c
  | ⟨2, _⟩ => fun c => dat2 (fun c b => V6 m (outs m) c b) c
  | ⟨3, _⟩ => fun c => dat3 (fun c b => V9 m (outs m) c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- The same beside every stretch of @main. -/
abbrev E : Fin 5 → Dev nD → sProp 𝕄 := fun _ c => R c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### Call 0 -/

/-- When call 0's pipeline is done each of its arrays holds the exit valuation's contents: the product array what the
    write-backs leave, the two factors what they held (no write-back touches an input window's array). -/
theorem hF0 (c : Dev nD) : ∀ w : Fin cfg0.W, (pdats m 0 c).arrAt w cfg0.N = V2 m (outs m) c (Pipeline.arrRef spec0 w)
  | 0 => ((pdats m 0 c).arrAt_in 0 rfl _).trans ((A_eq0 (fun c b => V1 m c b) c 0).trans (V2_of m (outs m) c (Pipeline.arrRef spec0 0) (by decide)).symm)
  | 1 => ((pdats m 0 c).arrAt_in 1 rfl _).trans ((A_eq0 (fun c b => V1 m c b) c 1).trans (V2_of m (outs m) c (Pipeline.arrRef spec0 1) (by decide)).symm)
  | 2 => (outs_eq0 m c).symm.trans (by
      show outs m 2 main_v5 c = Function.update (V1 m c) main_v5 (outs m 2 main_v5 c) main_v5
      rw [Function.update_self])
  | ⟨_ + 3, h⟩ => absurd h (Nat.not_lt.2 (Nat.le_add_left _ _))
/-- Every other buffer holds what it held when the call was entered. -/
theorem hrest0 (c : Dev nD) : ∀ b : Ref sig .tc, b ∉ Finset.univ.image (Pipeline.arrRef spec0) → V2 m (outs m) c b = V1 m c b :=
  fun b hb => V2_of m (outs m) c b fun h => hb (Finset.mem_image.mpr ⟨2, Finset.mem_univ _, (List.mem_singleton.mp h).symm⟩)

set_option backward.isDefEq.respectTransparency.types false in
/-- Call 0 over the thread state: entered from every unscoped buffer at the contents before it, left at those
    contents updated at its product array. Its arrays are split out of the unscoped buffers and put back at the
    exit contents; the generator register goes into the pipeline's invariant and comes back; nothing is owed; the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Call 1 -/

/-- When call 1's pipeline is done each of its arrays holds the exit valuation's contents: the product array what the
    write-backs leave, the two factors what they held (no write-back touches an input window's array). -/
theorem hF1 (c : Dev nD) : ∀ w : Fin cfg1.W, (pdats m 1 c).arrAt w cfg1.N = V5 m (outs m) c (Pipeline.arrRef spec1 w)
  | 0 => ((pdats m 1 c).arrAt_in 0 rfl _).trans ((A_eq1 (fun c b => V4 m (outs m) c b) c 0).trans (V5_of m (outs m) c (Pipeline.arrRef spec1 0) (by decide)).symm)
  | 1 => ((pdats m 1 c).arrAt_in 1 rfl _).trans ((A_eq1 (fun c b => V4 m (outs m) c b) c 1).trans (V5_of m (outs m) c (Pipeline.arrRef spec1 1) (by decide)).symm)
  | 2 => (outs_eq1 m c).symm.trans (by
      show outs m 5 main_v40 c = Function.update (V4 m (outs m) c) main_v40 (outs m 5 main_v40 c) main_v40
      rw [Function.update_self])
  | ⟨_ + 3, h⟩ => absurd h (Nat.not_lt.2 (Nat.le_add_left _ _))
/-- Every other buffer holds what it held when the call was entered. -/
theorem hrest1 (c : Dev nD) : ∀ b : Ref sig .tc, b ∉ Finset.univ.image (Pipeline.arrRef spec1) → V5 m (outs m) c b = V4 m (outs m) c b :=
  fun b hb => V5_of m (outs m) c b fun h => hb (Finset.mem_image.mpr ⟨2, Finset.mem_univ _, (List.mem_singleton.mp h).symm⟩)

set_option backward.isDefEq.respectTransparency.types false in
/-- Call 1 over the thread state: entered from every unscoped buffer at the contents before it, left at those
    contents updated at its product array. Its arrays are split out of the unscoped buffers and put back at the
    exit contents; the generator register goes into the pipeline's invariant and comes back; nothing is owed; the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V4 m (outs m) c b) c).loose
  hwaits := Pipeline.hwaits_of_owed_zero _ _ _ _ L lv 1 fun _ _ => rfl
  pre c := iprop(StableHlo.held (c : Thread nD τ) (Pipeline.ucRefs τ sig) (V4 m (outs m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V4 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V4 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V4 m (outs m) c b) (fun b => V5 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Call 2 -/

/-- When call 2's pipeline is done each of its arrays holds the exit valuation's contents: the product array what the
    write-backs leave, the two factors what they held (no write-back touches an input window's array). -/
theorem hF2 (c : Dev nD) : ∀ w : Fin cfg2.W, (pdats m 2 c).arrAt w cfg2.N = V7 m (outs m) c (Pipeline.arrRef spec2 w)
  | 0 => ((pdats m 2 c).arrAt_in 0 rfl _).trans ((A_eq2 (fun c b => V6 m (outs m) c b) c 0).trans (V7_of m (outs m) c (Pipeline.arrRef spec2 0) (by decide)).symm)
  | 1 => ((pdats m 2 c).arrAt_in 1 rfl _).trans ((A_eq2 (fun c b => V6 m (outs m) c b) c 1).trans (V7_of m (outs m) c (Pipeline.arrRef spec2 1) (by decide)).symm)
  | 2 => (outs_eq2 m c).symm.trans (by
      show outs m 7 main_v69 c = Function.update (V6 m (outs m) c) main_v69 (outs m 7 main_v69 c) main_v69
      rw [Function.update_self])
  | ⟨_ + 3, h⟩ => absurd h (Nat.not_lt.2 (Nat.le_add_left _ _))
/-- Every other buffer holds what it held when the call was entered. -/
theorem hrest2 (c : Dev nD) : ∀ b : Ref sig .tc, b ∉ Finset.univ.image (Pipeline.arrRef spec2) → V7 m (outs m) c b = V6 m (outs m) c b :=
  fun b hb => V7_of m (outs m) c b fun h => hb (Finset.mem_image.mpr ⟨2, Finset.mem_univ _, (List.mem_singleton.mp h).symm⟩)

set_option backward.isDefEq.respectTransparency.types false in
/-- Call 2 over the thread state: entered from every unscoped buffer at the contents before it, left at those
    contents updated at its product array. Its arrays are split out of the unscoped buffers and put back at the
    exit contents; the generator register goes into the pipeline's invariant and comes back; nothing is owed; the
    kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V6 m (outs m) c b) c).loose
  hwaits := Pipeline.hwaits_of_owed_zero _ _ _ _ L lv 2 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V6 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V6 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V6 m (outs m) c b) (fun b => V7 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Call 3 -/

/-- When call 3's pipeline is done each of its arrays holds the exit valuation's contents: the product array what the
    write-backs leave, the two factors what they held (no write-back touches an input window's array). -/
theorem hF3 (c : Dev nD) : ∀ w : Fin cfg3.W, (pdats m 3 c).arrAt w cfg3.N = V10 m (outs m) c (Pipeline.arrRef spec3 w)
  | 0 => ((pdats m 3 c).arrAt_in 0 rfl _).trans ((A_eq3 (fun c b => V9 m (outs m) c b) c 0).trans (V10_of m (outs m) c (Pipeline.arrRef spec3 0) (by decide)).symm)
  | 1 => ((pdats m 3 c).arrAt_in 1 rfl _).trans ((A_eq3 (fun c b => V9 m (outs m) c b) c 1).trans (V10_of m (outs m) c (Pipeline.arrRef spec3 1) (by decide)).symm)
  | 2 => (outs_eq3 m c).symm.trans (by
      show outs m 10 main_v104 c = Function.update (V9 m (outs m) c) main_v104 (outs m 10 main_v104 c) main_v104
      rw [Function.update_self])
  | ⟨_ + 3, h⟩ => absurd h (Nat.not_lt.2 (Nat.le_add_left _ _))
/-- Every other buffer holds what it held when the call was entered. -/
theorem hrest3 (c : Dev nD) : ∀ b : Ref sig .tc, b ∉ Finset.univ.image (Pipeline.arrRef spec3) → V10 m (outs m) c b = V9 m (outs m) c b :=
  fun b hb => V10_of m (outs m) c b fun h => hb (Finset.mem_image.mpr ⟨2, Finset.mem_univ _, (List.mem_singleton.mp h).symm⟩)

set_option backward.isDefEq.respectTransparency.types false in
/-- Call 3 over the thread state: entered from every unscoped buffer at the contents before it, left at those
    contents updated at its product array. Its arrays are split out of the unscoped buffers and put back at the
    exit contents; the generator register goes into the pipeline's invariant and comes back; nothing is owed; the
    kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V9 m (outs m) c b) c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V9 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V9 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V9 m (outs m) c b) (fun b => V10 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main's run -/

set_option backward.isDefEq.respectTransparency.types false in
/-- @main from any launch memory with zero counters: every weakly fair execution terminates and every final memory
    holds each unscoped buffer at the last valuation of the fold through @main, the four calls' products being
    `outs`. The host stretches are the generated segments, the calls the records above; the thread states chain by
    definition; the launch makes the first thread state on each core by itself; the last is read against the final
    memory buffer by buffer. -/
theorem run_outs (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = V17 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m))
    (fun c Q => by
      rewrite [main_chain c, Pipeline.Seg.run_eq_chain,
        show (segs m (outs m) 𝒱₀ L lv E () (pdats m) (reg0 m) (reg1 m) (reg2 m) (reg3 m) c).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          StableHlo.seq hostOps3_1,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V17 m (outs m) c b)
    (hfin := fun c s' => by
      iintro ⟨Hh, HSI⟩
      unfold StableHlo.held
      imodintro
      iapply (pointsTo_read_all (Pipeline.ucRefs τ sig) (fun b => ((c : Thread nD τ).1, b)) (V17 m (outs m) c) s')
      isplitl [Hh] <;> iassumption)
    (hQ := fun s h c => h c)

/-- THE RUN, with the calls' products named: there are contents `outs` of the four product arrays — each what its
    call's pipeline leaves from the contents before the call, themselves read at `outs` — such that every weakly
    fair execution of @main terminates with every unscoped buffer at the last valuation over `outs`. -/
theorem run_main (ρ : Dev nD → PrngReg) : ∃ outs : Outs (F := F),
    (∀ c, outs 2 main_v5 c = (dat0 (fun c b => V1 m c b) c).arrAt 2 cfg0.N) ∧
    (∀ c, outs 5 main_v40 c = (dat1 (fun c b => V4 m outs c b) c).arrAt 2 cfg1.N) ∧
    (∀ c, outs 7 main_v69 c = (dat2 (fun c b => V6 m outs c b) c).arrAt 2 cfg2.N) ∧
    (∀ c, outs 10 main_v104 c = (dat3 (fun c b => V9 m outs c b) c).arrAt 2 cfg3.N) ∧
    θ_run defs (onTc (τ := τ) (main (F := F))) ⟨m, fun _ => 0, ρ⟩ (fun r => ∀ c : Dev nD, ∀ b ∈ Pipeline.ucRefs τ sig,
      r.2.mem ((c : Thread nD τ).1, b) = V17 m outs c b) :=
  ⟨outs m, outs_eq0 m, outs_eq1 m, outs_eq2 m, outs_eq3 m, run_outs m ρ⟩

/-- THE FRAME: every final memory holds each argument array as launched — no host operation writes one and no call
    may change one, so the last valuation at an argument walks back to the launch memory. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
by
  refine (θ_run defs _ _).mono ?_ (run_outs m ρ)
  intro r hr c
  exact ⟨
      (hr c _ (mem_uc main_arg0 (by decide))).trans (V17_main_arg0 m (outs m) c),
      (hr c _ (mem_uc main_arg1 (by decide))).trans (V17_main_arg1 m (outs m) c),
      (hr c _ (mem_uc main_arg2 (by decide))).trans (V17_main_arg2 m (outs m) c),
      (hr c _ (mem_uc main_arg3 (by decide))).trans (V17_main_arg3 m (outs m) c),
      (hr c _ (mem_uc main_arg4 (by decide))).trans (V17_main_arg4 m (outs m) c),
      (hr c _ (mem_uc main_arg5 (by decide))).trans (V17_main_arg5 m (outs m) c),
      (hr c _ (mem_uc main_arg6 (by decide))).trans (V17_main_arg6 m (outs m) c),
      (hr c _ (mem_uc main_arg7 (by decide))).trans (V17_main_arg7 m (outs m) c),
      (hr c _ (mem_uc main_arg8 (by decide))).trans (V17_main_arg8 m (outs m) c),
      (hr c _ (mem_uc main_arg9 (by decide))).trans (V17_main_arg9 m (outs m) c),
      (hr c _ (mem_uc main_arg10 (by decide))).trans (V17_main_arg10 m (outs m) c),
      (hr c _ (mem_uc main_arg11 (by decide))).trans (V17_main_arg11 m (outs m) c),
      (hr c _ (mem_uc main_arg12 (by decide))).trans (V17_main_arg12 m (outs m) c),
      (hr c _ (mem_uc main_arg13 (by decide))).trans (V17_main_arg13 m (outs m) c),
      (hr c _ (mem_uc main_arg14 (by decide))).trans (V17_main_arg14 m (outs m) c),
      (hr c _ (mem_uc main_arg15 (by decide))).trans (V17_main_arg15 m (outs m) c),
      (hr c _ (mem_uc main_arg16 (by decide))).trans (V17_main_arg16 m (outs m) c),
      (hr c _ (mem_uc main_arg17 (by decide))).trans (V17_main_arg17 m (outs m) c),
      (hr c _ (mem_uc main_arg18 (by decide))).trans (V17_main_arg18 m (outs m) c),
      (hr c _ (mem_uc main_arg19 (by decide))).trans (V17_main_arg19 m (outs m) c),
      (hr c _ (mem_uc main_arg20 (by decide))).trans (V17_main_arg20 m (outs m) c),
      (hr c _ (mem_uc main_arg21 (by decide))).trans (V17_main_arg21 m (outs m) c)⟩

end Cert.Kernel.Hand

end
-- ==== Proof.KIDefs.lean ====
/-
  The four pallas calls of the kernel program are one body at two sizes: load a 4000-row tile of the left factor and
  the whole right factor, multiply them on the matrix unit into a zero accumulator, store the 4000 x 256 product tile.
  This module fixes, for each call, the block every window holds at a grid point, the tile the body stores, and the
  pipeline's proof data built from them; the body's run and the launch are proved over these definitions.
-/
import proofs.«154056_j23527830847606_2_alg».proof.Proof.Gen.KernelIdeal.Launch
import proofs.«154056_j23527830847606_2_alg».proof.Proof.Gen.KernelIdeal.Skeleton
import proofs.«154056_j23527830847606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
variable (V : (c : Dev nD) → (b : Ref sig .tc) → Buf (Elt F) ((c : Thread nD τ).loc b))

/-- The whole-buffer rectangles the body loads and stores through. -/
abbrev rx0 : Rect S4000x768 := Rect.unit (s := S4000x768) ![0, 0] S4000x768.size inb_S4000x768_S4000x768_0_0
abbrev rw0 : Rect S768x256 := Rect.unit (s := S768x256) ![0, 0] S768x256.size inb_S768x256_S768x256_0_0
abbrev rw1 : Rect S256x256 := Rect.unit (s := S256x256) ![0, 0] S256x256.size inb_S256x256_S256x256_0_0
abbrev ro : Rect S4000x256 := Rect.unit (s := S4000x256) ![0, 0] S4000x256.size inb_S4000x256_S4000x256_0_0

/-! ## Pallas call 0: a row tile of the left factor (window 0) times the whole right factor (window 1) into the
    same row tile of the product (window 2) -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The product tile the body stores: one whole-block store of the matrix product of the two loaded blocks. -/
def out0_2 (x0 : Vec F S4000x768 .f32) (x1 : Vec F S768x256 .f32) : Vec F S4000x256 .f32 :=
  View.canon [⟨ro, k0_pay1 (View.ld x0 rx0) (View.ld x1 rw0)⟩]

/-- The pipeline's proof data: the arrays as the region finds them; after the body the two input buffers hold
    their blocks and the output buffer the product tile. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Pallas call 1: a row tile of the left factor (window 0) times the whole right factor (window 1) into the
    same row tile of the product (window 2) -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The product tile the body stores: one whole-block store of the matrix product of the two loaded blocks. -/
def out1_2 (x0 : Vec F S4000x256 .f32) (x1 : Vec F S256x256 .f32) : Vec F S4000x256 .f32 :=
  View.canon [⟨ro, k1_pay1 (View.ld x0 ro) (View.ld x1 rw1)⟩]

/-- The pipeline's proof data: the arrays as the region finds them; after the body the two input buffers hold
    their blocks and the output buffer the product tile. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Pallas call 2: a row tile of the left factor (window 0) times the whole right factor (window 1) into the
    same row tile of the product (window 2) -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The product tile the body stores: one whole-block store of the matrix product of the two loaded blocks. -/
def out2_2 (x0 : Vec F S4000x768 .f32) (x1 : Vec F S768x256 .f32) : Vec F S4000x256 .f32 :=
  View.canon [⟨ro, k2_pay1 (View.ld x0 rx0) (View.ld x1 rw0)⟩]

/-- The pipeline's proof data: the arrays as the region finds them; after the body the two input buffers hold
    their blocks and the output buffer the product tile. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## Pallas call 3: a row tile of the left factor (window 0) times the whole right factor (window 1) into the
    same row tile of the product (window 2) -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The product tile the body stores: one whole-block store of the matrix product of the two loaded blocks. -/
def out3_2 (x0 : Vec F S4000x256 .f32) (x1 : Vec F S256x256 .f32) : Vec F S4000x256 .f32 :=
  View.canon [⟨ro, k3_pay1 (View.ld x0 ro) (View.ld x1 rw1)⟩]

/-- The pipeline's proof data: the arrays as the region finds them; after the body the two input buffers hold
    their blocks and the output buffer the product tile. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

end Regions

end Cert.KernelIdeal.Hand

end
-- ==== Proof.KIBody0.lean ====
/-
  Pallas call 0 of the kernel program: the body's run on whole staging buffers and the body obligation of its
  pipeline. The body loads the left factor's row tile and the whole right factor, multiplies them into a zero
  accumulator and stores the product tile whole; the output buffer's earlier contents are read once and never used.
-/
import proofs.«154056_j23527830847606_2_alg».proof.Proof.KIDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The single whole-block store covers the product tile's buffer. -/
theorem cover0_2 (p0 : Vec F S4000x256 .f32) (y : S4000x256.Idx) :
    ∃ pc ∈ ([⟨ro, p0⟩] : List (View.Piece (Elt F) S4000x256 .f32)), y ∈ pc.1.set :=
  View.cover_of_tiled [⟨ro, p0⟩] S4000x256.size (by rfl) y

set_option maxHeartbeats 1000000 in
/-- The body on whole staging buffers: with the two factors' buffers at read contents `x0`, `x1` and the product's
    buffer at anything, it runs to the continuation holding the factors' buffers as they were and the product's at
    the tile `out0_2 x0 x1`. -/
theorem sound_kernel0 (c : Dev nD) (E : Set ℕ) (i : grid0.Coords)
    (arg1 : Memref sig .tc .vmem S4000x768 .f32) (harg1 : arg1.IsWhole)
    (arg2 : Memref sig .tc .vmem S768x256 .f32) (harg2 : arg2.IsWhole)
    (arg3 : Memref sig .tc .vmem S4000x256 .f32) (harg3 : arg3.IsWhole)
    (x0 : Vec F S4000x768 .f32) (x1 : Vec F S768x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The left factor's current staging buffer holds its row tile at every grid point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The right factor's staging buffer holds the whole factor at every grid point: it is fetched at the first point
    only, and where it is not fetched its block index has not moved. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- What the body is called with at grid point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the two factors' buffers hold their blocks, so the body's run applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KIBody1.lean ====
/-
  Pallas call 1 of the kernel program: the body's run on whole staging buffers and the body obligation of its
  pipeline. The body loads the left factor's row tile and the whole right factor, multiplies them into a zero
  accumulator and stores the product tile whole; the output buffer's earlier contents are read once and never used.
-/
import proofs.«154056_j23527830847606_2_alg».proof.Proof.KIDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The single whole-block store covers the product tile's buffer. -/
theorem cover1_2 (p0 : Vec F S4000x256 .f32) (y : S4000x256.Idx) :
    ∃ pc ∈ ([⟨ro, p0⟩] : List (View.Piece (Elt F) S4000x256 .f32)), y ∈ pc.1.set :=
  View.cover_of_tiled [⟨ro, p0⟩] S4000x256.size (by rfl) y

set_option maxHeartbeats 1000000 in
/-- The body on whole staging buffers: with the two factors' buffers at read contents `x0`, `x1` and the product's
    buffer at anything, it runs to the continuation holding the factors' buffers as they were and the product's at
    the tile `out1_2 x0 x1`. -/
theorem sound_kernel1 (c : Dev nD) (E : Set ℕ) (i : grid1.Coords)
    (arg1 : Memref sig .tc .vmem S4000x256 .f32) (harg1 : arg1.IsWhole)
    (arg2 : Memref sig .tc .vmem S256x256 .f32) (harg2 : arg2.IsWhole)
    (arg3 : Memref sig .tc .vmem S4000x256 .f32) (harg3 : arg3.IsWhole)
    (x0 : Vec F S4000x256 .f32) (x1 : Vec F S256x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The left factor's current staging buffer holds its row tile at every grid point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The right factor's staging buffer holds the whole factor at every grid point: it is fetched at the first point
    only, and where it is not fetched its block index has not moved. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at grid point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: the two factors' buffers hold their blocks, so the body's run applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIBody2.lean ====
/-
  Pallas call 2 of the kernel program: the body's run on whole staging buffers and the body obligation of its
  pipeline. The body loads the left factor's row tile and the whole right factor, multiplies them into a zero
  accumulator and stores the product tile whole; the output buffer's earlier contents are read once and never used.
-/
import proofs.«154056_j23527830847606_2_alg».proof.Proof.KIDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The single whole-block store covers the product tile's buffer. -/
theorem cover2_2 (p0 : Vec F S4000x256 .f32) (y : S4000x256.Idx) :
    ∃ pc ∈ ([⟨ro, p0⟩] : List (View.Piece (Elt F) S4000x256 .f32)), y ∈ pc.1.set :=
  View.cover_of_tiled [⟨ro, p0⟩] S4000x256.size (by rfl) y

set_option maxHeartbeats 1000000 in
/-- The body on whole staging buffers: with the two factors' buffers at read contents `x0`, `x1` and the product's
    buffer at anything, it runs to the continuation holding the factors' buffers as they were and the product's at
    the tile `out2_2 x0 x1`. -/
theorem sound_kernel2 (c : Dev nD) (E : Set ℕ) (i : grid2.Coords)
    (arg1 : Memref sig .tc .vmem S4000x768 .f32) (harg1 : arg1.IsWhole)
    (arg2 : Memref sig .tc .vmem S768x256 .f32) (harg2 : arg2.IsWhole)
    (arg3 : Memref sig .tc .vmem S4000x256 .f32) (harg3 : arg3.IsWhole)
    (x0 : Vec F S4000x768 .f32) (x1 : Vec F S768x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The left factor's current staging buffer holds its row tile at every grid point. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The right factor's staging buffer holds the whole factor at every grid point: it is fetched at the first point
    only, and where it is not fetched its block index has not moved. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- What the body is called with at grid point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the two factors' buffers hold their blocks, so the body's run applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KIBody3.lean ====
/-
  Pallas call 3 of the kernel program: the body's run on whole staging buffers and the body obligation of its
  pipeline. The body loads the left factor's row tile and the whole right factor, multiplies them into a zero
  accumulator and stores the product tile whole; the output buffer's earlier contents are read once and never used.
-/
import proofs.«154056_j23527830847606_2_alg».proof.Proof.KIDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The single whole-block store covers the product tile's buffer. -/
theorem cover3_2 (p0 : Vec F S4000x256 .f32) (y : S4000x256.Idx) :
    ∃ pc ∈ ([⟨ro, p0⟩] : List (View.Piece (Elt F) S4000x256 .f32)), y ∈ pc.1.set :=
  View.cover_of_tiled [⟨ro, p0⟩] S4000x256.size (by rfl) y

set_option maxHeartbeats 1000000 in
/-- The body on whole staging buffers: with the two factors' buffers at read contents `x0`, `x1` and the product's
    buffer at anything, it runs to the continuation holding the factors' buffers as they were and the product's at
    the tile `out3_2 x0 x1`. -/
theorem sound_kernel3 (c : Dev nD) (E : Set ℕ) (i : grid3.Coords)
    (arg1 : Memref sig .tc .vmem S4000x256 .f32) (harg1 : arg1.IsWhole)
    (arg2 : Memref sig .tc .vmem S256x256 .f32) (harg2 : arg2.IsWhole)
    (arg3 : Memref sig .tc .vmem S4000x256 .f32) (harg3 : arg3.IsWhole)
    (x0 : Vec F S4000x256 .f32) (x1 : Vec F S256x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The left factor's current staging buffer holds its row tile at every grid point. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- The right factor's staging buffer holds the whole factor at every grid point: it is fetched at the first point
    only, and where it is not fetched its block index has not moved. -/
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-- What the body is called with at grid point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any grid point: the two factors' buffers hold their blocks, so the body's run applies; the
    invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Hand

end
-- ==== Proof.KIRun.lean ====
/-
  The launch of the kernel program: its four pallas calls as segments of @main between the stretches of host
  operations, and @main's run from any launch memory with every final buffer named. The contents each call leaves
  in its product array are defined one call after the other, each from the contents the calls before it left; the
  run then holds every unscoped buffer at the last valuation of the fold through @main.
-/
import proofs.«154056_j23527830847606_2_alg».proof.Proof.KIDefs
import proofs.«154056_j23527830847606_2_alg».proof.Proof.KIBody0
import proofs.«154056_j23527830847606_2_alg».proof.Proof.KIBody1
import proofs.«154056_j23527830847606_2_alg».proof.Proof.KIBody2
import proofs.«154056_j23527830847606_2_alg».proof.Proof.KIBody3
import proofs.«154056_j23527830847606_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the four calls leave in their product arrays -/

/-- The valuations before a call depend on the earlier calls' products only: two families of products that agree
    at the first call's array give the same contents before the second call, -/
theorem V4_congr (o o' : Outs (F := F)) (h : ∀ c, o 2 main_v5 c = o' 2 main_v5 c) (c : Dev nD) :
    V4 m o c = V4 m o' c := by
  show StableHlo.after hostOps1_1 (StableHlo.after hostOps1 (Function.update (V1 m c) main_v5 (o 2 main_v5 c))) = _
  rw [h c]

/-- at the first two calls' arrays the same contents before the third, -/
theorem V6_congr (o o' : Outs (F := F)) (h2 : ∀ c, o 2 main_v5 c = o' 2 main_v5 c)
    (h5 : ∀ c, o 5 main_v40 c = o' 5 main_v40 c) (c : Dev nD) : V6 m o c = V6 m o' c := by
  show StableHlo.after hostOps2 (Function.update (V4 m o c) main_v40 (o 5 main_v40 c)) = _
  rw [h5 c, V4_congr m o o' h2 c]

/-- and at the first three calls' arrays the same contents before the fourth. -/
theorem V9_congr (o o' : Outs (F := F)) (h2 : ∀ c, o 2 main_v5 c = o' 2 main_v5 c)
    (h5 : ∀ c, o 5 main_v40 c = o' 5 main_v40 c) (h7 : ∀ c, o 7 main_v69 c = o' 7 main_v69 c) (c : Dev nD) :
    V9 m o c = V9 m o' c := by
  show StableHlo.after hostOps3_1 (StableHlo.after hostOps3 (Function.update (V6 m o c) main_v69 (o 7 main_v69 c))) = _
  rw [h7 c, V6_congr m o o' h2 h5 c]

/-- The first call's product array when its pipeline is done, from the contents the first host stretch leaves. -/
def arr0 (c : Dev nD) : Buf (Elt F) ((c : Thread nD τ).loc main_v5) :=
  (dat0 (fun c b => V1 m c b) c).arrAt 2 cfg0.N
/-- The products so far: every buffer as launched but the first call's array. -/
def outs1 : Outs (F := F) := fun _ => Function.update (fun r c => m ((c : Thread nD τ).loc r)) main_v5 (arr0 m)
/-- The second call's product array, from the contents before it given the first call's. -/
def arr1 (c : Dev nD) : Buf (Elt F) ((c : Thread nD τ).loc main_v40) :=
  (dat1 (fun c b => V4 m (outs1 m) c b) c).arrAt 2 cfg1.N
def outs2 : Outs (F := F) := fun J => Function.update (outs1 m J) main_v40 (arr1 m)
/-- The third call's product array. -/
def arr2 (c : Dev nD) : Buf (Elt F) ((c : Thread nD τ).loc main_v69) :=
  (dat2 (fun c b => V6 m (outs2 m) c b) c).arrAt 2 cfg2.N
def outs3 : Outs (F := F) := fun J => Function.update (outs2 m J) main_v69 (arr2 m)
/-- The fourth call's product array. -/
def arr3 (c : Dev nD) : Buf (Elt F) ((c : Thread nD τ).loc main_v104) :=
  (dat3 (fun c b => V9 m (outs3 m) c b) c).arrAt 2 cfg3.N
/-- What the four calls leave, at every point of @main. -/
def outs : Outs (F := F) := fun J => Function.update (outs3 m J) main_v104 (arr3 m)

theorem outs_v5 (J : ℕ) (c : Dev nD) : outs m J main_v5 c = arr0 m c := by
  unfold outs outs3 outs2 outs1
  rw [Function.update_of_ne (by decide), Function.update_of_ne (by decide), Function.update_of_ne (by decide),
    Function.update_self]
theorem outs_v40 (J : ℕ) (c : Dev nD) : outs m J main_v40 c = arr1 m c := by
  unfold outs outs3 outs2
  rw [Function.update_of_ne (by decide), Function.update_of_ne (by decide), Function.update_self]
theorem outs_v69 (J : ℕ) (c : Dev nD) : outs m J main_v69 c = arr2 m c := by
  unfold outs outs3
  rw [Function.update_of_ne (by decide), Function.update_self]
theorem outs_v104 (J : ℕ) (c : Dev nD) : outs m J main_v104 c = arr3 m c := by
  unfold outs
  rw [Function.update_self]
theorem outs1_v5 (J : ℕ) (c : Dev nD) : outs1 m J main_v5 c = arr0 m c := by
  unfold outs1
  rw [Function.update_self]
theorem outs2_v5 (J : ℕ) (c : Dev nD) : outs2 m J main_v5 c = arr0 m c := by
  unfold outs2 outs1
  rw [Function.update_of_ne (by decide), Function.update_self]
theorem outs2_v40 (J : ℕ) (c : Dev nD) : outs2 m J main_v40 c = arr1 m c := by
  unfold outs2
  rw [Function.update_self]
theorem outs3_v5 (J : ℕ) (c : Dev nD) : outs3 m J main_v5 c = arr0 m c := by
  unfold outs3 outs2 outs1
  rw [Function.update_of_ne (by decide), Function.update_of_ne (by decide), Function.update_self]
theorem outs3_v40 (J : ℕ) (c : Dev nD) : outs3 m J main_v40 c = arr1 m c := by
  unfold outs3 outs2
  rw [Function.update_of_ne (by decide), Function.update_self]
theorem outs3_v69 (J : ℕ) (c : Dev nD) : outs3 m J main_v69 c = arr2 m c := by
  unfold outs3
  rw [Function.update_self]

/-- The contents before each call read at the final family of products are those its array was defined from. -/
theorem V4_outs (c : Dev nD) : V4 m (outs m) c = V4 m (outs1 m) c :=
  V4_congr m _ _ (fun c => (outs_v5 m 2 c).trans (outs1_v5 m 2 c).symm) c
theorem V6_outs (c : Dev nD) : V6 m (outs m) c = V6 m (outs2 m) c :=
  V6_congr m _ _ (fun c => (outs_v5 m 2 c).trans (outs2_v5 m 2 c).symm)
    (fun c => (outs_v40 m 5 c).trans (outs2_v40 m 5 c).symm) c
theorem V9_outs (c : Dev nD) : V9 m (outs m) c = V9 m (outs3 m) c :=
  V9_congr m _ _ (fun c => (outs_v5 m 2 c).trans (outs3_v5 m 2 c).symm)
    (fun c => (outs_v40 m 5 c).trans (outs3_v40 m 5 c).symm)
    (fun c => (outs_v69 m 7 c).trans (outs3_v69 m 7 c).symm) c

/-- Each call's array at the final family is what its pipeline leaves from the contents before it. -/
theorem outs_eq0 (c : Dev nD) : outs m 2 main_v5 c = (dat0 (fun c b => V1 m c b) c).arrAt 2 cfg0.N :=
  outs_v5 m 2 c
theorem outs_eq1 (c : Dev nD) : outs m 5 main_v40 c = (dat1 (fun c b => V4 m (outs m) c b) c).arrAt 2 cfg1.N := by
  have h : (fun (c : Dev nD) (b : Ref sig .tc) => V4 m (outs m) c b) = fun (c : Dev nD) (b : Ref sig .tc) => V4 m (outs1 m) c b :=
    funext fun c => by rw [V4_outs]
  rw [outs_v40, h]; rfl
theorem outs_eq2 (c : Dev nD) : outs m 7 main_v69 c = (dat2 (fun c b => V6 m (outs m) c b) c).arrAt 2 cfg2.N := by
  have h : (fun (c : Dev nD) (b : Ref sig .tc) => V6 m (outs m) c b) = fun (c : Dev nD) (b : Ref sig .tc) => V6 m (outs2 m) c b :=
    funext fun c => by rw [V6_outs]
  rw [outs_v69, h]; rfl
theorem outs_eq3 (c : Dev nD) : outs m 10 main_v104 c = (dat3 (fun c b => V9 m (outs m) c b) c).arrAt 2 cfg3.N := by
  have h : (fun (c : Dev nD) (b : Ref sig .tc) => V9 m (outs m) c b) = fun (c : Dev nD) (b : Ref sig .tc) => V9 m (outs3 m) c b :=
    funext fun c => by rw [V9_outs]
  rw [outs_v104, h]; rfl

/-! ## The proof data family and the thread state -/

/-- Every pipeline's proof data, each at the contents its call is entered from. -/
def pdats : (p : Fin 4) → (c : Dev nD) → Dat τ (Elt F) Unit ℕ (UR sig nD τ) ℕ (cfgs p) c
  | ⟨0, _⟩ => fun c => dat0 (fun c b => V1 m c b) c
  | ⟨1, _⟩ => fun c => dat1 (fun c b => V4 m (outs m) c b) c
  | ⟨2, _⟩ => fun c => dat2 (fun c b => V6 m (outs m) c b) c
  | ⟨3, _⟩ => fun c => dat3 (fun c b => V9 m (outs m) c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- The same beside every stretch of @main. -/
abbrev E : Fin 5 → Dev nD → sProp 𝕄 := fun _ c => R c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### Call 0 -/

/-- When call 0's pipeline is done each of its arrays holds the exit valuation's contents: the product array what the
    write-backs leave, the two factors what they held (no write-back touches an input window's array). -/
theorem hF0 (c : Dev nD) : ∀ w : Fin cfg0.W, (pdats m 0 c).arrAt w cfg0.N = V2 m (outs m) c (Pipeline.arrRef spec0 w)
  | 0 => ((pdats m 0 c).arrAt_in 0 rfl _).trans ((A_eq0 (fun c b => V1 m c b) c 0).trans (V2_of m (outs m) c (Pipeline.arrRef spec0 0) (by decide)).symm)
  | 1 => ((pdats m 0 c).arrAt_in 1 rfl _).trans ((A_eq0 (fun c b => V1 m c b) c 1).trans (V2_of m (outs m) c (Pipeline.arrRef spec0 1) (by decide)).symm)
  | 2 => (outs_eq0 m c).symm.trans (by
      show outs m 2 main_v5 c = Function.update (V1 m c) main_v5 (outs m 2 main_v5 c) main_v5
      rw [Function.update_self])
  | ⟨_ + 3, h⟩ => absurd h (Nat.not_lt.2 (Nat.le_add_left _ _))
/-- Every other buffer holds what it held when the call was entered. -/
theorem hrest0 (c : Dev nD) : ∀ b : Ref sig .tc, b ∉ Finset.univ.image (Pipeline.arrRef spec0) → V2 m (outs m) c b = V1 m c b :=
  fun b hb => V2_of m (outs m) c b fun h => hb (Finset.mem_image.mpr ⟨2, Finset.mem_univ _, (List.mem_singleton.mp h).symm⟩)

set_option backward.isDefEq.respectTransparency.types false in
/-- Call 0 over the thread state: entered from every unscoped buffer at the contents before it, left at those
    contents updated at its product array. Its arrays are split out of the unscoped buffers and put back at the
    exit contents; the generator register goes into the pipeline's invariant and comes back; nothing is owed; the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Call 1 -/

/-- When call 1's pipeline is done each of its arrays holds the exit valuation's contents: the product array what the
    write-backs leave, the two factors what they held (no write-back touches an input window's array). -/
theorem hF1 (c : Dev nD) : ∀ w : Fin cfg1.W, (pdats m 1 c).arrAt w cfg1.N = V5 m (outs m) c (Pipeline.arrRef spec1 w)
  | 0 => ((pdats m 1 c).arrAt_in 0 rfl _).trans ((A_eq1 (fun c b => V4 m (outs m) c b) c 0).trans (V5_of m (outs m) c (Pipeline.arrRef spec1 0) (by decide)).symm)
  | 1 => ((pdats m 1 c).arrAt_in 1 rfl _).trans ((A_eq1 (fun c b => V4 m (outs m) c b) c 1).trans (V5_of m (outs m) c (Pipeline.arrRef spec1 1) (by decide)).symm)
  | 2 => (outs_eq1 m c).symm.trans (by
      show outs m 5 main_v40 c = Function.update (V4 m (outs m) c) main_v40 (outs m 5 main_v40 c) main_v40
      rw [Function.update_self])
  | ⟨_ + 3, h⟩ => absurd h (Nat.not_lt.2 (Nat.le_add_left _ _))
/-- Every other buffer holds what it held when the call was entered. -/
theorem hrest1 (c : Dev nD) : ∀ b : Ref sig .tc, b ∉ Finset.univ.image (Pipeline.arrRef spec1) → V5 m (outs m) c b = V4 m (outs m) c b :=
  fun b hb => V5_of m (outs m) c b fun h => hb (Finset.mem_image.mpr ⟨2, Finset.mem_univ _, (List.mem_singleton.mp h).symm⟩)

set_option backward.isDefEq.respectTransparency.types false in
/-- Call 1 over the thread state: entered from every unscoped buffer at the contents before it, left at those
    contents updated at its product array. Its arrays are split out of the unscoped buffers and put back at the
    exit contents; the generator register goes into the pipeline's invariant and comes back; nothing is owed; the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V4 m (outs m) c b) c).loose
  hwaits := Pipeline.hwaits_of_owed_zero _ _ _ _ L lv 1 fun _ _ => rfl
  pre c := iprop(StableHlo.held (c : Thread nD τ) (Pipeline.ucRefs τ sig) (V4 m (outs m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V4 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V4 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V4 m (outs m) c b) (fun b => V5 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Call 2 -/

/-- When call 2's pipeline is done each of its arrays holds the exit valuation's contents: the product array what the
    write-backs leave, the two factors what they held (no write-back touches an input window's array). -/
theorem hF2 (c : Dev nD) : ∀ w : Fin cfg2.W, (pdats m 2 c).arrAt w cfg2.N = V7 m (outs m) c (Pipeline.arrRef spec2 w)
  | 0 => ((pdats m 2 c).arrAt_in 0 rfl _).trans ((A_eq2 (fun c b => V6 m (outs m) c b) c 0).trans (V7_of m (outs m) c (Pipeline.arrRef spec2 0) (by decide)).symm)
  | 1 => ((pdats m 2 c).arrAt_in 1 rfl _).trans ((A_eq2 (fun c b => V6 m (outs m) c b) c 1).trans (V7_of m (outs m) c (Pipeline.arrRef spec2 1) (by decide)).symm)
  | 2 => (outs_eq2 m c).symm.trans (by
      show outs m 7 main_v69 c = Function.update (V6 m (outs m) c) main_v69 (outs m 7 main_v69 c) main_v69
      rw [Function.update_self])
  | ⟨_ + 3, h⟩ => absurd h (Nat.not_lt.2 (Nat.le_add_left _ _))
/-- Every other buffer holds what it held when the call was entered. -/
theorem hrest2 (c : Dev nD) : ∀ b : Ref sig .tc, b ∉ Finset.univ.image (Pipeline.arrRef spec2) → V7 m (outs m) c b = V6 m (outs m) c b :=
  fun b hb => V7_of m (outs m) c b fun h => hb (Finset.mem_image.mpr ⟨2, Finset.mem_univ _, (List.mem_singleton.mp h).symm⟩)

set_option backward.isDefEq.respectTransparency.types false in
/-- Call 2 over the thread state: entered from every unscoped buffer at the contents before it, left at those
    contents updated at its product array. Its arrays are split out of the unscoped buffers and put back at the
    exit contents; the generator register goes into the pipeline's invariant and comes back; nothing is owed; the
    kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V6 m (outs m) c b) c).loose
  hwaits := Pipeline.hwaits_of_owed_zero _ _ _ _ L lv 2 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V6 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V6 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V6 m (outs m) c b) (fun b => V7 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Call 3 -/

/-- When call 3's pipeline is done each of its arrays holds the exit valuation's contents: the product array what the
    write-backs leave, the two factors what they held (no write-back touches an input window's array). -/
theorem hF3 (c : Dev nD) : ∀ w : Fin cfg3.W, (pdats m 3 c).arrAt w cfg3.N = V10 m (outs m) c (Pipeline.arrRef spec3 w)
  | 0 => ((pdats m 3 c).arrAt_in 0 rfl _).trans ((A_eq3 (fun c b => V9 m (outs m) c b) c 0).trans (V10_of m (outs m) c (Pipeline.arrRef spec3 0) (by decide)).symm)
  | 1 => ((pdats m 3 c).arrAt_in 1 rfl _).trans ((A_eq3 (fun c b => V9 m (outs m) c b) c 1).trans (V10_of m (outs m) c (Pipeline.arrRef spec3 1) (by decide)).symm)
  | 2 => (outs_eq3 m c).symm.trans (by
      show outs m 10 main_v104 c = Function.update (V9 m (outs m) c) main_v104 (outs m 10 main_v104 c) main_v104
      rw [Function.update_self])
  | ⟨_ + 3, h⟩ => absurd h (Nat.not_lt.2 (Nat.le_add_left _ _))
/-- Every other buffer holds what it held when the call was entered. -/
theorem hrest3 (c : Dev nD) : ∀ b : Ref sig .tc, b ∉ Finset.univ.image (Pipeline.arrRef spec3) → V10 m (outs m) c b = V9 m (outs m) c b :=
  fun b hb => V10_of m (outs m) c b fun h => hb (Finset.mem_image.mpr ⟨2, Finset.mem_univ _, (List.mem_singleton.mp h).symm⟩)

set_option backward.isDefEq.respectTransparency.types false in
/-- Call 3 over the thread state: entered from every unscoped buffer at the contents before it, left at those
    contents updated at its product array. Its arrays are split out of the unscoped buffers and put back at the
    exit contents; the generator register goes into the pipeline's invariant and comes back; nothing is owed; the
    kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V9 m (outs m) c b) c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V9 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V9 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V9 m (outs m) c b) (fun b => V10 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main's run -/

set_option backward.isDefEq.respectTransparency.types false in
/-- @main from any launch memory with zero counters: every weakly fair execution terminates and every final memory
    holds each unscoped buffer at the last valuation of the fold through @main, the four calls' products being
    `outs`. The host stretches are the generated segments, the calls the records above; the thread states chain by
    definition; the launch makes the first thread state on each core by itself; the last is read against the final
    memory buffer by buffer. -/
theorem run_outs (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = V17 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m))
    (fun c Q => by
      rewrite [main_chain c, Pipeline.Seg.run_eq_chain,
        show (segs m (outs m) 𝒱₀ L lv E () (pdats m) (reg0 m) (reg1 m) (reg2 m) (reg3 m) c).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          StableHlo.seq hostOps3_1,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V17 m (outs m) c b)
    (hfin := fun c s' => by
      iintro ⟨Hh, HSI⟩
      unfold StableHlo.held
      imodintro
      iapply (pointsTo_read_all (Pipeline.ucRefs τ sig) (fun b => ((c : Thread nD τ).1, b)) (V17 m (outs m) c) s')
      isplitl [Hh] <;> iassumption)
    (hQ := fun s h c => h c)

/-- THE RUN, with the calls' products named: there are contents `outs` of the four product arrays — each what its
    call's pipeline leaves from the contents before the call, themselves read at `outs` — such that every weakly
    fair execution of @main terminates with every unscoped buffer at the last valuation over `outs`. -/
theorem run_main (ρ : Dev nD → PrngReg) : ∃ outs : Outs (F := F),
    (∀ c, outs 2 main_v5 c = (dat0 (fun c b => V1 m c b) c).arrAt 2 cfg0.N) ∧
    (∀ c, outs 5 main_v40 c = (dat1 (fun c b => V4 m outs c b) c).arrAt 2 cfg1.N) ∧
    (∀ c, outs 7 main_v69 c = (dat2 (fun c b => V6 m outs c b) c).arrAt 2 cfg2.N) ∧
    (∀ c, outs 10 main_v104 c = (dat3 (fun c b => V9 m outs c b) c).arrAt 2 cfg3.N) ∧
    θ_run defs (onTc (τ := τ) (main (F := F))) ⟨m, fun _ => 0, ρ⟩ (fun r => ∀ c : Dev nD, ∀ b ∈ Pipeline.ucRefs τ sig,
      r.2.mem ((c : Thread nD τ).1, b) = V17 m outs c b) :=
  ⟨outs m, outs_eq0 m, outs_eq1 m, outs_eq2 m, outs_eq3 m, run_outs m ρ⟩

/-- THE FRAME: every final memory holds each argument array as launched — no host operation writes one and no call
    may change one, so the last valuation at an argument walks back to the launch memory. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
by
  refine (θ_run defs _ _).mono ?_ (run_outs m ρ)
  intro r hr c
  exact ⟨
      (hr c _ (mem_uc main_arg0 (by decide))).trans (V17_main_arg0 m (outs m) c),
      (hr c _ (mem_uc main_arg1 (by decide))).trans (V17_main_arg1 m (outs m) c),
      (hr c _ (mem_uc main_arg2 (by decide))).trans (V17_main_arg2 m (outs m) c),
      (hr c _ (mem_uc main_arg3 (by decide))).trans (V17_main_arg3 m (outs m) c),
      (hr c _ (mem_uc main_arg4 (by decide))).trans (V17_main_arg4 m (outs m) c),
      (hr c _ (mem_uc main_arg5 (by decide))).trans (V17_main_arg5 m (outs m) c),
      (hr c _ (mem_uc main_arg6 (by decide))).trans (V17_main_arg6 m (outs m) c),
      (hr c _ (mem_uc main_arg7 (by decide))).trans (V17_main_arg7 m (outs m) c),
      (hr c _ (mem_uc main_arg8 (by decide))).trans (V17_main_arg8 m (outs m) c),
      (hr c _ (mem_uc main_arg9 (by decide))).trans (V17_main_arg9 m (outs m) c),
      (hr c _ (mem_uc main_arg10 (by decide))).trans (V17_main_arg10 m (outs m) c),
      (hr c _ (mem_uc main_arg11 (by decide))).trans (V17_main_arg11 m (outs m) c),
      (hr c _ (mem_uc main_arg12 (by decide))).trans (V17_main_arg12 m (outs m) c),
      (hr c _ (mem_uc main_arg13 (by decide))).trans (V17_main_arg13 m (outs m) c),
      (hr c _ (mem_uc main_arg14 (by decide))).trans (V17_main_arg14 m (outs m) c),
      (hr c _ (mem_uc main_arg15 (by decide))).trans (V17_main_arg15 m (outs m) c),
      (hr c _ (mem_uc main_arg16 (by decide))).trans (V17_main_arg16 m (outs m) c),
      (hr c _ (mem_uc main_arg17 (by decide))).trans (V17_main_arg17 m (outs m) c),
      (hr c _ (mem_uc main_arg18 (by decide))).trans (V17_main_arg18 m (outs m) c),
      (hr c _ (mem_uc main_arg19 (by decide))).trans (V17_main_arg19 m (outs m) c),
      (hr c _ (mem_uc main_arg20 (by decide))).trans (V17_main_arg20 m (outs m) c),
      (hr c _ (mem_uc main_arg21 (by decide))).trans (V17_main_arg21 m (outs m) c)⟩

end Cert.KernelIdeal.Hand

end
-- ==== Proof.KIRunPost.lean ====
/-
  The kernel program's run on the extended reals, posted in the shape of the kernel half of the algebraic claim: after
  every weakly fair execution of @main the two result arrays hold the last valuation's contents over the four calls'
  products, and every argument array holds what it held at launch.
-/
import proofs.«154056_j23527830847606_2_alg».proof.Proof.KIRun
import Idealize.ShloMosaic.PureOps.Ideal

set_option maxRecDepth 16384

noncomputable section

namespace Cert.KernelIdeal.HandValue

open Cert.KernelIdeal.Gen Cert.KernelIdeal.Hand
open Idealize.ShloMosaic Idealize.ShloMosaic.TcCoe Idealize.SL.Sem

/-- @main of the kernel program from any launch memory with zero counters: every weakly fair execution terminates, the
    two results are the last valuation's contents at their references, the twenty-two arguments are as launched. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v154) = Cert.KernelIdeal.Gen.V17 m (Cert.KernelIdeal.Hand.outs m) c Cert.KernelIdeal.main_v154
      ∧ r.2.mem ((c.tc : Thread Cert.KernelIdeal.nD Cert.KernelIdeal.τ).loc Cert.KernelIdeal.main_v160) = Cert.KernelIdeal.Gen.V17 m (Cert.KernelIdeal.Hand.outs m) c Cert.KernelIdeal.main_v160
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)) := by
  refine (θ_run (Cert.KernelIdeal.defs (F := Ideal)) _ _).mono ?_ (run_outs m g)
  intro r hr c
  exact ⟨
    hr c _ (mem_uc Cert.KernelIdeal.main_v154 (by decide)),
    hr c _ (mem_uc Cert.KernelIdeal.main_v160 (by decide)),
    (hr c _ (mem_uc Cert.KernelIdeal.main_arg0 (by decide))).trans (V17_main_arg0 m (outs m) c),
    (hr c _ (mem_uc Cert.KernelIdeal.main_arg1 (by decide))).trans (V17_main_arg1 m (outs m) c),
    (hr c _ (mem_uc Cert.KernelIdeal.main_arg2 (by decide))).trans (V17_main_arg2 m (outs m) c),
    (hr c _ (mem_uc Cert.KernelIdeal.main_arg3 (by decide))).trans (V17_main_arg3 m (outs m) c),
    (hr c _ (mem_uc Cert.KernelIdeal.main_arg4 (by decide))).trans (V17_main_arg4 m (outs m) c),
    (hr c _ (mem_uc Cert.KernelIdeal.main_arg5 (by decide))).trans (V17_main_arg5 m (outs m) c),
    (hr c _ (mem_uc Cert.KernelIdeal.main_arg6 (by decide))).trans (V17_main_arg6 m (outs m) c),
    (hr c _ (mem_uc Cert.KernelIdeal.main_arg7 (by decide))).trans (V17_main_arg7 m (outs m) c),
    (hr c _ (mem_uc Cert.KernelIdeal.main_arg8 (by decide))).trans (V17_main_arg8 m (outs m) c),
    (hr c _ (mem_uc Cert.KernelIdeal.main_arg9 (by decide))).trans (V17_main_arg9 m (outs m) c),
    (hr c _ (mem_uc Cert.KernelIdeal.main_arg10 (by decide))).trans (V17_main_arg10 m (outs m) c),
    (hr c _ (mem_uc Cert.KernelIdeal.main_arg11 (by decide))).trans (V17_main_arg11 m (outs m) c),
    (hr c _ (mem_uc Cert.KernelIdeal.main_arg12 (by decide))).trans (V17_main_arg12 m (outs m) c),
    (hr c _ (mem_uc Cert.KernelIdeal.main_arg13 (by decide))).trans (V17_main_arg13 m (outs m) c),
    (hr c _ (mem_uc Cert.KernelIdeal.main_arg14 (by decide))).trans (V17_main_arg14 m (outs m) c),
    (hr c _ (mem_uc Cert.KernelIdeal.main_arg15 (by decide))).trans (V17_main_arg15 m (outs m) c),
    (hr c _ (mem_uc Cert.KernelIdeal.main_arg16 (by decide))).trans (V17_main_arg16 m (outs m) c),
    (hr c _ (mem_uc Cert.KernelIdeal.main_arg17 (by decide))).trans (V17_main_arg17 m (outs m) c),
    (hr c _ (mem_uc Cert.KernelIdeal.main_arg18 (by decide))).trans (V17_main_arg18 m (outs m) c),
    (hr c _ (mem_uc Cert.KernelIdeal.main_arg19 (by decide))).trans (V17_main_arg19 m (outs m) c),
    (hr c _ (mem_uc Cert.KernelIdeal.main_arg20 (by decide))).trans (V17_main_arg20 m (outs m) c),
    (hr c _ (mem_uc Cert.KernelIdeal.main_arg21 (by decide))).trans (V17_main_arg21 m (outs m) c)⟩

/-- The first two right-hand sides have the types of the claim's two witnesses. -/
example (m : (ℓ : Loc Cert.KernelIdeal.nD Cert.KernelIdeal.τ Cert.KernelIdeal.sig) → Buf (Elt Ideal) ℓ) :
    (c : Dev Cert.KernelIdeal.nD) → Buf (Elt Ideal) ((c.tc : Thread Cert.KernelIdeal.nD Cert.KernelIdeal.τ).loc Cert.KernelIdeal.main_v154) :=
  fun c => Cert.KernelIdeal.Gen.V17 m (Cert.KernelIdeal.Hand.outs m) c Cert.KernelIdeal.main_v154
example (m : (ℓ : Loc Cert.KernelIdeal.nD Cert.KernelIdeal.τ Cert.KernelIdeal.sig) → Buf (Elt Ideal) ℓ) :
    (c : Dev Cert.KernelIdeal.nD) → Buf (Elt Ideal) ((c.tc : Thread Cert.KernelIdeal.nD Cert.KernelIdeal.τ).loc Cert.KernelIdeal.main_v160) :=
  fun c => Cert.KernelIdeal.Gen.V17 m (Cert.KernelIdeal.Hand.outs m) c Cert.KernelIdeal.main_v160

end Cert.KernelIdeal.HandValue

end
-- ==== Proof.RefRunH.lean ====
/-
  The reference program's run.  None of @main's 334 host operations writes an argument array: the references they
  write are listed, in order, and no argument is among them, so every argument array ends as launched.  Each of the
  two results ends at the operations' composed term of the arguments: the fold of the operations over the launch
  contents, read at the result's reference, unfolds to that term, an equality by definition.
-/
import proofs.«154056_j23527830847606_2_alg».proof.Proof.RefRunQ

noncomputable section

namespace Cert.ReferenceIdeal.RunH

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The references @main's 334 operations write, in order: each operation's result. -/
abbrev ops_W : List (Ref sig .tc) :=
  [
    main_v0, main_v1, main_v2, main_v3, main_v4, main_v5, main_v6, main_v7, main_v8, main_cst, main_v9, main_c,
    main_v10, main_v11, main_c_0, main_v12, main_v13, main_v14, main_v15, main_cst_1, main_v16, main_v17,
    main_v18, main_v19, main_c_2, main_v20, main_v21, main_c_3, main_v22, main_v23, main_v24, main_v25,
    main_v26, main_c_4, main_v27, main_v28, main_c_5, main_v29, main_v30, main_v31, main_v32, main_v33,
    main_c_6, main_v34, main_v35, main_c_7, main_v36, main_v37, main_v38, main_v39, main_v40, main_v41,
    main_v42, main_v43, main_v44, main_cst_8, main_v45, main_v46, main_v47, main_call0_cst, main_call0_v0,
    main_v48, main_v49, main_v50, main_v51, main_cst_9, main_v52, main_c_10, main_v53, main_v54, main_c_11,
    main_v55, main_v56, main_v57, main_v58, main_cst_12, main_v59, main_v60, main_v61, main_v62, main_c_13,
    main_v63, main_v64, main_c_14, main_v65, main_v66, main_v67, main_v68, main_v69, main_c_15, main_v70,
    main_v71, main_c_16, main_v72, main_v73, main_v74, main_v75, main_v76, main_c_17, main_v77, main_v78,
    main_c_18, main_v79, main_v80, main_v81, main_v82, main_v83, main_v84, main_v85, main_v86, main_v87,
    main_cst_19, main_v88, main_v89, main_v90, main_cst_20, main_v91, main_v92, main_v93, main_cst_21,
    main_v94, main_cst_22, main_v95, main_v96, main_v97, main_cst_23, main_v98, main_v99, main_v100, main_v101,
    main_v102, main_v103, main_v104, main_v105, main_v106, main_v107, main_v108, main_v109, main_v110,
    main_cst_24, main_v111, main_c_25, main_v112, main_v113, main_c_26, main_v114, main_v115, main_v116,
    main_v117, main_cst_27, main_v118, main_v119, main_v120, main_v121, main_c_28, main_v122, main_v123,
    main_c_29, main_v124, main_v125, main_v126, main_v127, main_v128, main_c_30, main_v129, main_v130,
    main_c_31, main_v131, main_v132, main_v133, main_v134, main_v135, main_c_32, main_v136, main_v137,
    main_c_33, main_v138, main_v139, main_v140, main_v141, main_v142, main_v143, main_v144, main_v145,
    main_v146, main_cst_34, main_v147, main_v148, main_v149, main_call1_cst, main_call1_v0, main_v150,
    main_v151, main_v152, main_v153, main_cst_35, main_v154, main_c_36, main_v155, main_v156, main_c_37,
    main_v157, main_v158, main_v159, main_v160, main_cst_38, main_v161, main_v162, main_v163, main_v164,
    main_c_39, main_v165, main_v166, main_c_40, main_v167, main_v168, main_v169, main_v170, main_v171,
    main_c_41, main_v172, main_v173, main_c_42, main_v174, main_v175, main_v176, main_v177, main_v178,
    main_c_43, main_v179, main_v180, main_c_44, main_v181, main_v182, main_v183, main_v184, main_v185,
    main_v186, main_v187, main_v188, main_v189, main_cst_45, main_v190, main_v191, main_v192, main_cst_46,
    main_v193, main_v194, main_v195, main_cst_47, main_v196, main_cst_48, main_v197, main_v198, main_v199,
    main_cst_49, main_v200, main_v201, main_v202, main_v203, main_v204, main_cst_50, main_v205, main_v206,
    main_v207, main_cst_51, main_v208, main_cst_52, main_v209, main_v210, main_v211, main_cst_53, main_v212,
    main_v213, main_v214, main_v215, main_v216, main_v217, main_v218, main_v219, main_v220, main_v221,
    main_v222, main_v223, main_call2_cst, main_call2_v0, main_v224, main_v225, main_v226, main_v227, main_v228,
    main_call3_cst, main_call3_v0, main_call3_cst_0, main_call3_v1, main_call3_v2, main_call3_v3,
    main_call3_v4, main_call3_v5, main_call3_v6, main_call3_cst_1, main_call3_v7, main_call3_v8, main_call3_v9,
    main_call3_v10, main_v229, main_v230, main_call4_c, main_call4_v0, main_call4_v1, main_call4_c_0,
    main_call4_v2, main_call4_v3, main_call4_v4, main_call4_v5, main_call4_c_1, main_call4_c_2, main_call4_v6,
    main_call4_v7, main_call4_v8, main_call4_v9, main_call4_v10, main_call4_v11, main_call4_c_3,
    main_call4_v12, main_call4_v13, main_call4_cst, main_call4_v14, main_v231, main_cst_54, main_v232,
    main_cst_55, main_v233, main_v234 ]

/-- An operation whose one written buffer is a listed reference writes inside the list. -/
theorem wr {op : HloOp τ sig (Elt F)} {r : Ref sig .tc} (hw : op.writes = {Proc.devRef .tc r}) (hr : r ∈ ops_W) :
    op.writes ⊆ (ops_W.map (Proc.devRef (τ := τ) .tc)).toFinset := by
  rw [hw, Finset.singleton_subset_iff, List.mem_toFinset]
  exact List.mem_map_of_mem hr

set_option maxRecDepth 8192 in
set_option maxHeartbeats 8000000 in
/-- Every operation writes inside the list. -/
theorem ops_writes : (ops : List (HloOp τ sig (Elt F))).Forall fun op => op.writes ⊆ (ops_W.map (Proc.devRef (τ := τ) .tc)).toFinset :=
  ⟨
    wr (r := main_v0) rfl (by decide), wr (r := main_v1) rfl (by decide), wr (r := main_v2) rfl (by decide),
    wr (r := main_v3) rfl (by decide), wr (r := main_v4) rfl (by decide), wr (r := main_v5) rfl (by decide),
    wr (r := main_v6) rfl (by decide), wr (r := main_v7) rfl (by decide), wr (r := main_v8) rfl (by decide),
    wr (r := main_cst) rfl (by decide), wr (r := main_v9) rfl (by decide), wr (r := main_c) rfl (by decide),
    wr (r := main_v10) rfl (by decide), wr (r := main_v11) rfl (by decide), wr (r := main_c_0) rfl (by decide),
    wr (r := main_v12) rfl (by decide), wr (r := main_v13) rfl (by decide), wr (r := main_v14) rfl (by decide),
    wr (r := main_v15) rfl (by decide), wr (r := main_cst_1) rfl (by decide), wr (r := main_v16) rfl (by decide),
    wr (r := main_v17) rfl (by decide), wr (r := main_v18) rfl (by decide), wr (r := main_v19) rfl (by decide),
    wr (r := main_c_2) rfl (by decide), wr (r := main_v20) rfl (by decide), wr (r := main_v21) rfl (by decide),
    wr (r := main_c_3) rfl (by decide), wr (r := main_v22) rfl (by decide), wr (r := main_v23) rfl (by decide),
    wr (r := main_v24) rfl (by decide), wr (r := main_v25) rfl (by decide), wr (r := main_v26) rfl (by decide),
    wr (r := main_c_4) rfl (by decide), wr (r := main_v27) rfl (by decide), wr (r := main_v28) rfl (by decide),
    wr (r := main_c_5) rfl (by decide), wr (r := main_v29) rfl (by decide), wr (r := main_v30) rfl (by decide),
    wr (r := main_v31) rfl (by decide), wr (r := main_v32) rfl (by decide), wr (r := main_v33) rfl (by decide),
    wr (r := main_c_6) rfl (by decide), wr (r := main_v34) rfl (by decide), wr (r := main_v35) rfl (by decide),
    wr (r := main_c_7) rfl (by decide), wr (r := main_v36) rfl (by decide), wr (r := main_v37) rfl (by decide),
    wr (r := main_v38) rfl (by decide), wr (r := main_v39) rfl (by decide), wr (r := main_v40) rfl (by decide),
    wr (r := main_v41) rfl (by decide), wr (r := main_v42) rfl (by decide), wr (r := main_v43) rfl (by decide),
    wr (r := main_v44) rfl (by decide), wr (r := main_cst_8) rfl (by decide), wr (r := main_v45) rfl (by decide),
    wr (r := main_v46) rfl (by decide), wr (r := main_v47) rfl (by decide), wr (r := main_call0_cst) rfl (by decide),
    wr (r := main_call0_v0) rfl (by decide), wr (r := main_v48) rfl (by decide), wr (r := main_v49) rfl (by decide),
    wr (r := main_v50) rfl (by decide), wr (r := main_v51) rfl (by decide), wr (r := main_cst_9) rfl (by decide),
    wr (r := main_v52) rfl (by decide), wr (r := main_c_10) rfl (by decide), wr (r := main_v53) rfl (by decide),
    wr (r := main_v54) rfl (by decide), wr (r := main_c_11) rfl (by decide), wr (r := main_v55) rfl (by decide),
    wr (r := main_v56) rfl (by decide), wr (r := main_v57) rfl (by decide), wr (r := main_v58) rfl (by decide),
    wr (r := main_cst_12) rfl (by decide), wr (r := main_v59) rfl (by decide), wr (r := main_v60) rfl (by decide),
    wr (r := main_v61) rfl (by decide), wr (r := main_v62) rfl (by decide), wr (r := main_c_13) rfl (by decide),
    wr (r := main_v63) rfl (by decide), wr (r := main_v64) rfl (by decide), wr (r := main_c_14) rfl (by decide),
    wr (r := main_v65) rfl (by decide), wr (r := main_v66) rfl (by decide), wr (r := main_v67) rfl (by decide),
    wr (r := main_v68) rfl (by decide), wr (r := main_v69) rfl (by decide), wr (r := main_c_15) rfl (by decide),
    wr (r := main_v70) rfl (by decide), wr (r := main_v71) rfl (by decide), wr (r := main_c_16) rfl (by decide),
    wr (r := main_v72) rfl (by decide), wr (r := main_v73) rfl (by decide), wr (r := main_v74) rfl (by decide),
    wr (r := main_v75) rfl (by decide), wr (r := main_v76) rfl (by decide), wr (r := main_c_17) rfl (by decide),
    wr (r := main_v77) rfl (by decide), wr (r := main_v78) rfl (by decide), wr (r := main_c_18) rfl (by decide),
    wr (r := main_v79) rfl (by decide), wr (r := main_v80) rfl (by decide), wr (r := main_v81) rfl (by decide),
    wr (r := main_v82) rfl (by decide), wr (r := main_v83) rfl (by decide), wr (r := main_v84) rfl (by decide),
    wr (r := main_v85) rfl (by decide), wr (r := main_v86) rfl (by decide), wr (r := main_v87) rfl (by decide),
    wr (r := main_cst_19) rfl (by decide), wr (r := main_v88) rfl (by decide), wr (r := main_v89) rfl (by decide),
    wr (r := main_v90) rfl (by decide), wr (r := main_cst_20) rfl (by decide), wr (r := main_v91) rfl (by decide),
    wr (r := main_v92) rfl (by decide), wr (r := main_v93) rfl (by decide), wr (r := main_cst_21) rfl (by decide),
    wr (r := main_v94) rfl (by decide), wr (r := main_cst_22) rfl (by decide), wr (r := main_v95) rfl (by decide),
    wr (r := main_v96) rfl (by decide), wr (r := main_v97) rfl (by decide), wr (r := main_cst_23) rfl (by decide),
    wr (r := main_v98) rfl (by decide), wr (r := main_v99) rfl (by decide), wr (r := main_v100) rfl (by decide),
    wr (r := main_v101) rfl (by decide), wr (r := main_v102) rfl (by decide), wr (r := main_v103) rfl (by decide),
    wr (r := main_v104) rfl (by decide), wr (r := main_v105) rfl (by decide), wr (r := main_v106) rfl (by decide),
    wr (r := main_v107) rfl (by decide), wr (r := main_v108) rfl (by decide), wr (r := main_v109) rfl (by decide),
    wr (r := main_v110) rfl (by decide), wr (r := main_cst_24) rfl (by decide), wr (r := main_v111) rfl (by decide),
    wr (r := main_c_25) rfl (by decide), wr (r := main_v112) rfl (by decide), wr (r := main_v113) rfl (by decide),
    wr (r := main_c_26) rfl (by decide), wr (r := main_v114) rfl (by decide), wr (r := main_v115) rfl (by decide),
    wr (r := main_v116) rfl (by decide), wr (r := main_v117) rfl (by decide), wr (r := main_cst_27) rfl (by decide),
    wr (r := main_v118) rfl (by decide), wr (r := main_v119) rfl (by decide), wr (r := main_v120) rfl (by decide),
    wr (r := main_v121) rfl (by decide), wr (r := main_c_28) rfl (by decide), wr (r := main_v122) rfl (by decide),
    wr (r := main_v123) rfl (by decide), wr (r := main_c_29) rfl (by decide), wr (r := main_v124) rfl (by decide),
    wr (r := main_v125) rfl (by decide), wr (r := main_v126) rfl (by decide), wr (r := main_v127) rfl (by decide),
    wr (r := main_v128) rfl (by decide), wr (r := main_c_30) rfl (by decide), wr (r := main_v129) rfl (by decide),
    wr (r := main_v130) rfl (by decide), wr (r := main_c_31) rfl (by decide), wr (r := main_v131) rfl (by decide),
    wr (r := main_v132) rfl (by decide), wr (r := main_v133) rfl (by decide), wr (r := main_v134) rfl (by decide),
    wr (r := main_v135) rfl (by decide), wr (r := main_c_32) rfl (by decide), wr (r := main_v136) rfl (by decide),
    wr (r := main_v137) rfl (by decide), wr (r := main_c_33) rfl (by decide), wr (r := main_v138) rfl (by decide),
    wr (r := main_v139) rfl (by decide), wr (r := main_v140) rfl (by decide), wr (r := main_v141) rfl (by decide),
    wr (r := main_v142) rfl (by decide), wr (r := main_v143) rfl (by decide), wr (r := main_v144) rfl (by decide),
    wr (r := main_v145) rfl (by decide), wr (r := main_v146) rfl (by decide), wr (r := main_cst_34) rfl (by decide),
    wr (r := main_v147) rfl (by decide), wr (r := main_v148) rfl (by decide), wr (r := main_v149) rfl (by decide),
    wr (r := main_call1_cst) rfl (by decide), wr (r := main_call1_v0) rfl (by decide),
    wr (r := main_v150) rfl (by decide), wr (r := main_v151) rfl (by decide), wr (r := main_v152) rfl (by decide),
    wr (r := main_v153) rfl (by decide), wr (r := main_cst_35) rfl (by decide), wr (r := main_v154) rfl (by decide),
    wr (r := main_c_36) rfl (by decide), wr (r := main_v155) rfl (by decide), wr (r := main_v156) rfl (by decide),
    wr (r := main_c_37) rfl (by decide), wr (r := main_v157) rfl (by decide), wr (r := main_v158) rfl (by decide),
    wr (r := main_v159) rfl (by decide), wr (r := main_v160) rfl (by decide), wr (r := main_cst_38) rfl (by decide),
    wr (r := main_v161) rfl (by decide), wr (r := main_v162) rfl (by decide), wr (r := main_v163) rfl (by decide),
    wr (r := main_v164) rfl (by decide), wr (r := main_c_39) rfl (by decide), wr (r := main_v165) rfl (by decide),
    wr (r := main_v166) rfl (by decide), wr (r := main_c_40) rfl (by decide), wr (r := main_v167) rfl (by decide),
    wr (r := main_v168) rfl (by decide), wr (r := main_v169) rfl (by decide), wr (r := main_v170) rfl (by decide),
    wr (r := main_v171) rfl (by decide), wr (r := main_c_41) rfl (by decide), wr (r := main_v172) rfl (by decide),
    wr (r := main_v173) rfl (by decide), wr (r := main_c_42) rfl (by decide), wr (r := main_v174) rfl (by decide),
    wr (r := main_v175) rfl (by decide), wr (r := main_v176) rfl (by decide), wr (r := main_v177) rfl (by decide),
    wr (r := main_v178) rfl (by decide), wr (r := main_c_43) rfl (by decide), wr (r := main_v179) rfl (by decide),
    wr (r := main_v180) rfl (by decide), wr (r := main_c_44) rfl (by decide), wr (r := main_v181) rfl (by decide),
    wr (r := main_v182) rfl (by decide), wr (r := main_v183) rfl (by decide), wr (r := main_v184) rfl (by decide),
    wr (r := main_v185) rfl (by decide), wr (r := main_v186) rfl (by decide), wr (r := main_v187) rfl (by decide),
    wr (r := main_v188) rfl (by decide), wr (r := main_v189) rfl (by decide), wr (r := main_cst_45) rfl (by decide),
    wr (r := main_v190) rfl (by decide), wr (r := main_v191) rfl (by decide), wr (r := main_v192) rfl (by decide),
    wr (r := main_cst_46) rfl (by decide), wr (r := main_v193) rfl (by decide), wr (r := main_v194) rfl (by decide),
    wr (r := main_v195) rfl (by decide), wr (r := main_cst_47) rfl (by decide), wr (r := main_v196) rfl (by decide),
    wr (r := main_cst_48) rfl (by decide), wr (r := main_v197) rfl (by decide), wr (r := main_v198) rfl (by decide),
    wr (r := main_v199) rfl (by decide), wr (r := main_cst_49) rfl (by decide), wr (r := main_v200) rfl (by decide),
    wr (r := main_v201) rfl (by decide), wr (r := main_v202) rfl (by decide), wr (r := main_v203) rfl (by decide),
    wr (r := main_v204) rfl (by decide), wr (r := main_cst_50) rfl (by decide), wr (r := main_v205) rfl (by decide),
    wr (r := main_v206) rfl (by decide), wr (r := main_v207) rfl (by decide), wr (r := main_cst_51) rfl (by decide),
    wr (r := main_v208) rfl (by decide), wr (r := main_cst_52) rfl (by decide), wr (r := main_v209) rfl (by decide),
    wr (r := main_v210) rfl (by decide), wr (r := main_v211) rfl (by decide), wr (r := main_cst_53) rfl (by decide),
    wr (r := main_v212) rfl (by decide), wr (r := main_v213) rfl (by decide), wr (r := main_v214) rfl (by decide),
    wr (r := main_v215) rfl (by decide), wr (r := main_v216) rfl (by decide), wr (r := main_v217) rfl (by decide),
    wr (r := main_v218) rfl (by decide), wr (r := main_v219) rfl (by decide), wr (r := main_v220) rfl (by decide),
    wr (r := main_v221) rfl (by decide), wr (r := main_v222) rfl (by decide), wr (r := main_v223) rfl (by decide),
    wr (r := main_call2_cst) rfl (by decide), wr (r := main_call2_v0) rfl (by decide),
    wr (r := main_v224) rfl (by decide), wr (r := main_v225) rfl (by decide), wr (r := main_v226) rfl (by decide),
    wr (r := main_v227) rfl (by decide), wr (r := main_v228) rfl (by decide),
    wr (r := main_call3_cst) rfl (by decide), wr (r := main_call3_v0) rfl (by decide),
    wr (r := main_call3_cst_0) rfl (by decide), wr (r := main_call3_v1) rfl (by decide),
    wr (r := main_call3_v2) rfl (by decide), wr (r := main_call3_v3) rfl (by decide),
    wr (r := main_call3_v4) rfl (by decide), wr (r := main_call3_v5) rfl (by decide),
    wr (r := main_call3_v6) rfl (by decide), wr (r := main_call3_cst_1) rfl (by decide),
    wr (r := main_call3_v7) rfl (by decide), wr (r := main_call3_v8) rfl (by decide),
    wr (r := main_call3_v9) rfl (by decide), wr (r := main_call3_v10) rfl (by decide),
    wr (r := main_v229) rfl (by decide), wr (r := main_v230) rfl (by decide), wr (r := main_call4_c) rfl (by decide),
    wr (r := main_call4_v0) rfl (by decide), wr (r := main_call4_v1) rfl (by decide),
    wr (r := main_call4_c_0) rfl (by decide), wr (r := main_call4_v2) rfl (by decide),
    wr (r := main_call4_v3) rfl (by decide), wr (r := main_call4_v4) rfl (by decide),
    wr (r := main_call4_v5) rfl (by decide), wr (r := main_call4_c_1) rfl (by decide),
    wr (r := main_call4_c_2) rfl (by decide), wr (r := main_call4_v6) rfl (by decide),
    wr (r := main_call4_v7) rfl (by decide), wr (r := main_call4_v8) rfl (by decide),
    wr (r := main_call4_v9) rfl (by decide), wr (r := main_call4_v10) rfl (by decide),
    wr (r := main_call4_v11) rfl (by decide), wr (r := main_call4_c_3) rfl (by decide),
    wr (r := main_call4_v12) rfl (by decide), wr (r := main_call4_v13) rfl (by decide),
    wr (r := main_call4_cst) rfl (by decide), wr (r := main_call4_v14) rfl (by decide),
    wr (r := main_v231) rfl (by decide), wr (r := main_cst_54) rfl (by decide), wr (r := main_v232) rfl (by decide),
    wr (r := main_cst_55) rfl (by decide), wr (r := main_v233) rfl (by decide), wr (r := main_v234) rfl (by decide) ⟩

open Lean Elab Tactic Meta in
/-- Closes `a = b` by `Eq.refl a`, the definitional equality of `a` and `b` being checked by the kernel when the
    theorem is added. -/
elab "kernel_rfl" : tactic => do
  let g ← getMainGoal
  let t ← instantiateMVars (← g.getType)
  match t.eq? with
  | some (_, lhs, _) => g.assign (← mkEqRefl lhs)
  | none => throwError "kernel_rfl: the goal is not an equation"

set_option maxRecDepth 8192 in
/-- The first result: the fold of the operations, read at its reference, is its composed term of the arguments. -/
theorem after_main_v228 (m : (ℓ : Loc nD τ sig) → Buf (Elt F) ℓ) (c : Dev nD) :
    after (ops (F := F)) (launchContents m c) (Proc.devRef .tc main_v228) = res_main_v228 m c := by
  kernel_rfl

set_option maxRecDepth 8192 in
/-- The second result likewise. -/
theorem after_main_v234 (m : (ℓ : Loc nD τ sig) → Buf (Elt F) ℓ) (c : Dev nD) :
    after (ops (F := F)) (launchContents m c) (Proc.devRef .tc main_v234) = res_main_v234 m c := by
  kernel_rfl

set_option maxRecDepth 8192 in
set_option maxHeartbeats 133600000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v228) = res_main_v228 m c
      ∧ r.2.mem ((c.tc : Thread nD τ).loc main_v234) = res_main_v234 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v228).trans (after_main_v228 m c),
      (h c main_v234).trans (after_main_v234 m c),
      (h c main_arg0).trans (after_of_writes_sub ops _ ops_writes (by decide)),
      (h c main_arg1).trans (after_of_writes_sub ops _ ops_writes (by decide)),
      (h c main_arg2).trans (after_of_writes_sub ops _ ops_writes (by decide)),
      (h c main_arg3).trans (after_of_writes_sub ops _ ops_writes (by decide)),
      (h c main_arg4).trans (after_of_writes_sub ops _ ops_writes (by decide)),
      (h c main_arg5).trans (after_of_writes_sub ops _ ops_writes (by decide)),
      (h c main_arg6).trans (after_of_writes_sub ops _ ops_writes (by decide)),
      (h c main_arg7).trans (after_of_writes_sub ops _ ops_writes (by decide)),
      (h c main_arg8).trans (after_of_writes_sub ops _ ops_writes (by decide)),
      (h c main_arg9).trans (after_of_writes_sub ops _ ops_writes (by decide)),
      (h c main_arg10).trans (after_of_writes_sub ops _ ops_writes (by decide)),
      (h c main_arg11).trans (after_of_writes_sub ops _ ops_writes (by decide)),
      (h c main_arg12).trans (after_of_writes_sub ops _ ops_writes (by decide)),
      (h c main_arg13).trans (after_of_writes_sub ops _ ops_writes (by decide)),
      (h c main_arg14).trans (after_of_writes_sub ops _ ops_writes (by decide)),
      (h c main_arg15).trans (after_of_writes_sub ops _ ops_writes (by decide)),
      (h c main_arg16).trans (after_of_writes_sub ops _ ops_writes (by decide)),
      (h c main_arg17).trans (after_of_writes_sub ops _ ops_writes (by decide)),
      (h c main_arg18).trans (after_of_writes_sub ops _ ops_writes (by decide)),
      (h c main_arg19).trans (after_of_writes_sub ops _ ops_writes (by decide)),
      (h c main_arg20).trans (after_of_writes_sub ops _ ops_writes (by decide)),
      (h c main_arg21).trans (after_of_writes_sub ops _ ops_writes (by decide))⟩)
    (run_seq scopedRefs_eq scopedSems_eq defs main (fun _ => ops) main_eq (fun _ => ops_sub) m ρ)

end Cert.ReferenceIdeal.RunH

end
-- ==== Proof.Spec.lean ====
/-
  The two programs' graph convolutions as array functions, each in its own program's names, so that a stage of
  either program is literally one of these functions applied to that program's earlier stages. The kernel program
  scales the node features by dinv before the gather and the aggregated sums by dinv after the scatter; the reference
  scales every message by dinv[s]·dinv[d]. That the two agree on real features is proved elsewhere.
-/
import proofs.«154056_j23527830847606_2_alg».proof.Proof.Gen.KernelIdeal
import proofs.«154056_j23527830847606_2_alg».proof.Proof.Gen.ReferenceIdeal
import Idealize.ShloMosaic.PureOps.Ideal

noncomputable section

open Idealize.ShloMosaic

namespace Cert.Spec.K
open Cert.KernelIdeal Cert.KernelIdeal.Facts₀ Cert.KernelIdeal.Facts

abbrev Fv (s : Shape) := FVec Ideal s .f32
abbrev Iv (s : Shape) := IVec s 32

/-- A per-node scalar repeated along the 256 features. -/
def spread (v : Fv S100000) : Fv S100000x256 :=
  broadcastInDim S100000x256 ![0, 1] bcast_S100000x1_S100000x256_0_1 (broadcastInDim S100000x1 ![0] bcast_S100000_S100000x1_0 v)
def zerosN : Fv S100000x256 := broadcastInDim S100000x256 ![] bcast_S_S100000x256 (constant (F := Ideal) S_ .f32 0x00000000#32)
/-- max(x, 0), entry by entry. -/
def reluN (x : Fv S100000x256) : Fv S100000x256 := maximumf x zerosN

/-- Sources and destinations of the R graph with a self-loop appended per node: row 0 (row 1) of the edge list
    followed by 0, 1, …, 99999. -/
def srcR (ei : Iv S2x400000) : Iv S500000 :=
  concatenate S500000 0 [⟨S400000, shapeCast _ (extractStridedSlice S1x400000 ![0, 0] ei slices_S2x400000_S1x400000_0_0) shapeCasts_S1x400000_S400000⟩, ⟨S100000, iotaInDim S100000 32 0⟩] concatenates_S400000_S100000_S500000_d0
def dstR (ei : Iv S2x400000) : Iv S500000 :=
  concatenate S500000 0 [⟨S400000, shapeCast _ (extractStridedSlice S1x400000 ![1, 0] ei slices_S2x400000_S1x400000_1_0) shapeCasts_S1x400000_S400000⟩, ⟨S100000, iotaInDim S100000 32 0⟩] concatenates_S400000_S100000_S500000_d0
/-- A negative node number counted from the end: x + 100000 where x < 0, else x. -/
def wrapR (x : Iv S500000) : Iv S500000 :=
  select (cmpi .slt x (broadcastInDim S500000 ![] bcast_S_S500000 (constantI S_ 32 0#32))) (addi x (broadcastInDim S500000 ![] bcast_S_S500000 (constantI S_ 32 100000#32))) x
/-- A list of node numbers as a one-column matrix of positions. -/
def colR (x : Iv S500000) : Iv S500000x1 := broadcastInDim S500000x1 ![0] bcast_S500000_S500000x1_0 x
/-- In-degree with self-loops: one added at each (wrapped) destination. -/
def degR (d : Iv S500000) : Fv S100000 :=
  Host.scatterAdd (F := Ideal) scatter_S100000_S500000x1_S500000_n_0_0_1 (broadcastInDim S100000 ![] bcast_S_S100000 (constant (F := Ideal) S_ .f32 0x00000000#32)) (colR (wrapR d)) (broadcastInDim S500000 ![] bcast_S_S500000 (constant (F := Ideal) S_ .f32 0x3F800000#32))
/-- deg^(-1/2). -/
def dinvR (d : Iv S500000) : Fv S100000 := Host.rsqrt (F := Ideal) (degR d)

/-- One normalized graph convolution as the kernel program computes it: the node features are scaled by dinv, the
    scaled rows h[s] are summed at their destinations, and the sums are scaled by dinv again. -/
def propR (h : Fv S100000x256) (s d : Iv S500000) : Fv S100000x256 :=
  mulf (Host.scatterAdd (F := Ideal) scatter_S100000x256_S500000x1_S500000x256_1_0_0_1 zerosN (colR d)
      (Host.gather gather_S100000x256_S500000x1_S500000x256_1_0_n_n_0_1_1256 (mulf h (spread (dinvR d))) (colR (wrapR s))))
    (spread (dinvR d))

/-- Sources and destinations of the C graph with a self-loop appended per node: row 0 (row 1) of the edge list
    followed by 0, 1, …, 99999. -/
def srcC (ei : Iv S2x300000) : Iv S400000 :=
  concatenate S400000 0 [⟨S300000, shapeCast _ (extractStridedSlice S1x300000 ![0, 0] ei slices_S2x300000_S1x300000_0_0) shapeCasts_S1x300000_S300000⟩, ⟨S100000, iotaInDim S100000 32 0⟩] concatenates_S300000_S100000_S400000_d0
def dstC (ei : Iv S2x300000) : Iv S400000 :=
  concatenate S400000 0 [⟨S300000, shapeCast _ (extractStridedSlice S1x300000 ![1, 0] ei slices_S2x300000_S1x300000_1_0) shapeCasts_S1x300000_S300000⟩, ⟨S100000, iotaInDim S100000 32 0⟩] concatenates_S300000_S100000_S400000_d0
/-- A negative node number counted from the end: x + 100000 where x < 0, else x. -/
def wrapC (x : Iv S400000) : Iv S400000 :=
  select (cmpi .slt x (broadcastInDim S400000 ![] bcast_S_S400000 (constantI S_ 32 0#32))) (addi x (broadcastInDim S400000 ![] bcast_S_S400000 (constantI S_ 32 100000#32))) x
/-- A list of node numbers as a one-column matrix of positions. -/
def colC (x : Iv S400000) : Iv S400000x1 := broadcastInDim S400000x1 ![0] bcast_S400000_S400000x1_0 x
/-- In-degree with self-loops: one added at each (wrapped) destination. -/
def degC (d : Iv S400000) : Fv S100000 :=
  Host.scatterAdd (F := Ideal) scatter_S100000_S400000x1_S400000_n_0_0_1 (broadcastInDim S100000 ![] bcast_S_S100000 (constant (F := Ideal) S_ .f32 0x00000000#32)) (colC (wrapC d)) (broadcastInDim S400000 ![] bcast_S_S400000 (constant (F := Ideal) S_ .f32 0x3F800000#32))
/-- deg^(-1/2). -/
def dinvC (d : Iv S400000) : Fv S100000 := Host.rsqrt (F := Ideal) (degC d)

/-- One normalized graph convolution as the kernel program computes it: the node features are scaled by dinv, the
    scaled rows h[s] are summed at their destinations, and the sums are scaled by dinv again. -/
def propC (h : Fv S100000x256) (s d : Iv S400000) : Fv S100000x256 :=
  mulf (Host.scatterAdd (F := Ideal) scatter_S100000x256_S400000x1_S400000x256_1_0_0_1 zerosN (colC d)
      (Host.gather gather_S100000x256_S400000x1_S400000x256_1_0_n_n_0_1_1256 (mulf h (spread (dinvC d))) (colC (wrapC s))))
    (spread (dinvC d))

end Cert.Spec.K

namespace Cert.Spec.R
open Cert.ReferenceIdeal Cert.ReferenceIdeal.Facts₀ Cert.ReferenceIdeal.Facts

abbrev Fv (s : Shape) := FVec Ideal s .f32
abbrev Iv (s : Shape) := IVec s 32

def zerosN : Fv S100000x256 := broadcastInDim S100000x256 ![] bcast_S_S100000x256 (constant (F := Ideal) S_ .f32 0x00000000#32)
/-- max(x, 0), entry by entry. -/
def reluN (x : Fv S100000x256) : Fv S100000x256 := maximumf x zerosN

/-- Sources and destinations of the R graph with a self-loop appended per node: row 0 (row 1) of the edge list
    followed by 0, 1, …, 99999. -/
def srcR (ei : Iv S2x400000) : Iv S500000 :=
  concatenate S500000 0 [⟨S400000, shapeCast _ (extractStridedSlice S1x400000 ![0, 0] ei slices_S2x400000_S1x400000_0_0) shapeCasts_S1x400000_S400000⟩, ⟨S100000, iotaInDim S100000 32 0⟩] concatenates_S400000_S100000_S500000_d0
def dstR (ei : Iv S2x400000) : Iv S500000 :=
  concatenate S500000 0 [⟨S400000, shapeCast _ (extractStridedSlice S1x400000 ![1, 0] ei slices_S2x400000_S1x400000_1_0) shapeCasts_S1x400000_S400000⟩, ⟨S100000, iotaInDim S100000 32 0⟩] concatenates_S400000_S100000_S500000_d0
/-- A negative node number counted from the end: x + 100000 where x < 0, else x. -/
def wrapR (x : Iv S500000) : Iv S500000 :=
  select (cmpi .slt x (broadcastInDim S500000 ![] bcast_S_S500000 (constantI S_ 32 0#32))) (addi x (broadcastInDim S500000 ![] bcast_S_S500000 (constantI S_ 32 100000#32))) x
/-- A list of node numbers as a one-column matrix of positions. -/
def colR (x : Iv S500000) : Iv S500000x1 := broadcastInDim S500000x1 ![0] bcast_S500000_S500000x1_0 x
/-- In-degree with self-loops: one added at each (wrapped) destination. -/
def degR (d : Iv S500000) : Fv S100000 :=
  Host.scatterAdd (F := Ideal) scatter_S100000_S500000x1_S500000_n_0_0_1 (broadcastInDim S100000 ![] bcast_S_S100000 (constant (F := Ideal) S_ .f32 0x00000000#32)) (colR (wrapR d)) (broadcastInDim S500000 ![] bcast_S_S500000 (constant (F := Ideal) S_ .f32 0x3F800000#32))
/-- deg^(-1/2). -/
def dinvR (d : Iv S500000) : Fv S100000 := Host.rsqrt (F := Ideal) (degR d)

/-- One normalized graph convolution as the reference computes it: every message h[s] is scaled by
    dinv[s]·dinv[d] and the messages are summed at their destinations. -/
def convR (h : Fv S100000x256) (s d : Iv S500000) : Fv S100000x256 :=
  Host.scatterAdd (F := Ideal) scatter_S100000x256_S500000x1_S500000x256_1_0_0_1 zerosN (colR d)
    (mulf (Host.gather gather_S100000x256_S500000x1_S500000x256_1_0_n_n_0_1_1256 h (colR (wrapR s)))
      (broadcastInDim S500000x256 ![0, 1] bcast_S500000x1_S500000x256_0_1 (broadcastInDim S500000x1 ![0] bcast_S500000_S500000x1_0
        (mulf (Host.gather gather_S100000_S500000x1_S500000_n_0_n_n_0_1_1 (dinvR d) (colR (wrapR s)))
              (Host.gather gather_S100000_S500000x1_S500000_n_0_n_n_0_1_1 (dinvR d) (colR (wrapR d)))))))

/-- Sources and destinations of the C graph with a self-loop appended per node: row 0 (row 1) of the edge list
    followed by 0, 1, …, 99999. -/
def srcC (ei : Iv S2x300000) : Iv S400000 :=
  concatenate S400000 0 [⟨S300000, shapeCast _ (extractStridedSlice S1x300000 ![0, 0] ei slices_S2x300000_S1x300000_0_0) shapeCasts_S1x300000_S300000⟩, ⟨S100000, iotaInDim S100000 32 0⟩] concatenates_S300000_S100000_S400000_d0
def dstC (ei : Iv S2x300000) : Iv S400000 :=
  concatenate S400000 0 [⟨S300000, shapeCast _ (extractStridedSlice S1x300000 ![1, 0] ei slices_S2x300000_S1x300000_1_0) shapeCasts_S1x300000_S300000⟩, ⟨S100000, iotaInDim S100000 32 0⟩] concatenates_S300000_S100000_S400000_d0
/-- A negative node number counted from the end: x + 100000 where x < 0, else x. -/
def wrapC (x : Iv S400000) : Iv S400000 :=
  select (cmpi .slt x (broadcastInDim S400000 ![] bcast_S_S400000 (constantI S_ 32 0#32))) (addi x (broadcastInDim S400000 ![] bcast_S_S400000 (constantI S_ 32 100000#32))) x
/-- A list of node numbers as a one-column matrix of positions. -/
def colC (x : Iv S400000) : Iv S400000x1 := broadcastInDim S400000x1 ![0] bcast_S400000_S400000x1_0 x
/-- In-degree with self-loops: one added at each (wrapped) destination. -/
def degC (d : Iv S400000) : Fv S100000 :=
  Host.scatterAdd (F := Ideal) scatter_S100000_S400000x1_S400000_n_0_0_1 (broadcastInDim S100000 ![] bcast_S_S100000 (constant (F := Ideal) S_ .f32 0x00000000#32)) (colC (wrapC d)) (broadcastInDim S400000 ![] bcast_S_S400000 (constant (F := Ideal) S_ .f32 0x3F800000#32))
/-- deg^(-1/2). -/
def dinvC (d : Iv S400000) : Fv S100000 := Host.rsqrt (F := Ideal) (degC d)

/-- One normalized graph convolution as the reference computes it: every message h[s] is scaled by
    dinv[s]·dinv[d] and the messages are summed at their destinations. -/
def convC (h : Fv S100000x256) (s d : Iv S400000) : Fv S100000x256 :=
  Host.scatterAdd (F := Ideal) scatter_S100000x256_S400000x1_S400000x256_1_0_0_1 zerosN (colC d)
    (mulf (Host.gather gather_S100000x256_S400000x1_S400000x256_1_0_n_n_0_1_1256 h (colC (wrapC s)))
      (broadcastInDim S400000x256 ![0, 1] bcast_S400000x1_S400000x256_0_1 (broadcastInDim S400000x1 ![0] bcast_S400000_S400000x1_0
        (mulf (Host.gather gather_S100000_S400000x1_S400000_n_0_n_n_0_1_1 (dinvC d) (colC (wrapC s)))
              (Host.gather gather_S100000_S400000x1_S400000_n_0_n_n_0_1_1 (dinvC d) (colC (wrapC d)))))))

end Cert.Spec.R

end
-- ==== Proof.SpecTailR.lean ====
/-
  The reference program's last stages as array functions of the two node-feature tensors and the remaining
  arguments, in the reference's own names: the three mean pools (sum of rows per segment divided by the segment's
  count, the count clamped below by 1), the three feature products, the concatenation of the five 256-wide blocks,
  the two dense layers with a relu between them, and the mean negative log-likelihood of the labels.
-/
import proofs.«154056_j23527830847606_2_alg».proof.Proof.Spec

noncomputable section

open Idealize.ShloMosaic

namespace Cert.Spec.R
open Cert.ReferenceIdeal Cert.ReferenceIdeal.Facts₀ Cert.ReferenceIdeal.Facts

/-- The predictions from the two graph encoders' outputs r (R graph) and cm (C graph): r is mean-pooled over the 64
    items by a17; cm is mean-pooled into 512 graphs by a19 and those into the 64 items by a20; the blocks
    [a0·a5, pooled r, pooled cm, a1·a6, a2·a7] are put side by side; then (· a12 + a13), max(·, 0), (· a14 + a15). -/
def tailR (r cm : FVec Ideal S100000x256 .f32) (a0 a1 a2 : FVec Ideal S64x768 .f32) (a5 a6 a7 : FVec Ideal S768x256 .f32)
    (a12 : FVec Ideal S1280x256 .f32) (a13 : FVec Ideal S256 .f32) (a14 : FVec Ideal S256x2 .f32) (a15 : FVec Ideal S2 .f32)
    (a17 a19 : IVec S100000 32) (a20 : IVec S512 32) : FVec Ideal S64x2 .f32 :=
  addf (Host.dotGeneral (F := Ideal) dot_S64x256_S256x2_S64x2_1_0_0_1_n_n none (maximumf (addf (Host.dotGeneral (F := Ideal) dot_S64x1280_S1280x256_S64x256_1_0_0_1_n_n none (concatenate S64x1280 1 [⟨S64x256, (Host.dotGeneral (F := Ideal) dot_S64x768_S768x256_S64x256_1_0_0_1_n_n none a0 a5)⟩, ⟨S64x256, (Host.divf (F := Ideal) (Host.scatterAdd (F := Ideal) scatter_S64x256_S100000x1_S100000x256_1_0_0_1 (broadcastInDim S64x256 ![] bcast_S_S64x256 (constant (F := Ideal) S_ .f32 0x00000000#32)) (broadcastInDim S100000x1 ![0] bcast_S100000_S100000x1_0 a17) r) (broadcastInDim S64x256 ![0, 1] bcast_S64x1_S64x256_0_1 (broadcastInDim S64x1 ![0] bcast_S64_S64x1_0 (maximumf (Host.scatterAdd (F := Ideal) scatter_S64_S100000x1_S100000_n_0_0_1 (broadcastInDim S64 ![] bcast_S_S64 (constant (F := Ideal) S_ .f32 0x00000000#32)) (broadcastInDim S100000x1 ![0] bcast_S100000_S100000x1_0 a17) (broadcastInDim S100000 ![] bcast_S_S100000 (constant (F := Ideal) S_ .f32 0x3F800000#32))) (broadcastInDim S64 ![] bcast_S_S64 (constant (F := Ideal) S_ .f32 0x3F800000#32))))))⟩, ⟨S64x256, (Host.divf (F := Ideal) (Host.scatterAdd (F := Ideal) scatter_S64x256_S512x1_S512x256_1_0_0_1 (broadcastInDim S64x256 ![] bcast_S_S64x256 (constant (F := Ideal) S_ .f32 0x00000000#32)) (broadcastInDim S512x1 ![0] bcast_S512_S512x1_0 a20) (Host.divf (F := Ideal) (Host.scatterAdd (F := Ideal) scatter_S512x256_S100000x1_S100000x256_1_0_0_1 (broadcastInDim S512x256 ![] bcast_S_S512x256 (constant (F := Ideal) S_ .f32 0x00000000#32)) (broadcastInDim S100000x1 ![0] bcast_S100000_S100000x1_0 a19) cm) (broadcastInDim S512x256 ![0, 1] bcast_S512x1_S512x256_0_1 (broadcastInDim S512x1 ![0] bcast_S512_S512x1_0 (maximumf (Host.scatterAdd (F := Ideal) scatter_S512_S100000x1_S100000_n_0_0_1 (broadcastInDim S512 ![] bcast_S_S512 (constant (F := Ideal) S_ .f32 0x00000000#32)) (broadcastInDim S100000x1 ![0] bcast_S100000_S100000x1_0 a19) (broadcastInDim S100000 ![] bcast_S_S100000 (constant (F := Ideal) S_ .f32 0x3F800000#32))) (broadcastInDim S512 ![] bcast_S_S512 (constant (F := Ideal) S_ .f32 0x3F800000#32))))))) (broadcastInDim S64x256 ![0, 1] bcast_S64x1_S64x256_0_1 (broadcastInDim S64x1 ![0] bcast_S64_S64x1_0 (maximumf (Host.scatterAdd (F := Ideal) scatter_S64_S512x1_S512_n_0_0_1 (broadcastInDim S64 ![] bcast_S_S64 (constant (F := Ideal) S_ .f32 0x00000000#32)) (broadcastInDim S512x1 ![0] bcast_S512_S512x1_0 a20) (broadcastInDim S512 ![] bcast_S_S512 (constant (F := Ideal) S_ .f32 0x3F800000#32))) (broadcastInDim S64 ![] bcast_S_S64 (constant (F := Ideal) S_ .f32 0x3F800000#32))))))⟩, ⟨S64x256, (Host.dotGeneral (F := Ideal) dot_S64x768_S768x256_S64x256_1_0_0_1_n_n none a1 a6)⟩, ⟨S64x256, (Host.dotGeneral (F := Ideal) dot_S64x768_S768x256_S64x256_1_0_0_1_n_n none a2 a7)⟩] concatenates_S64x256_S64x256_S64x256_S64x256_S64x256_S64x1280_d1) a12) (broadcastInDim S64x256 ![0, 1] bcast_S1x256_S64x256_0_1 (broadcastInDim S1x256 ![1] bcast_S256_S1x256_1 a13))) (broadcastInDim S64x256 ![] bcast_S_S64x256 (constant (F := Ideal) S_ .f32 0x00000000#32))) a14) (broadcastInDim S64x2 ![0, 1] bcast_S1x2_S64x2_0_1 (broadcastInDim S1x2 ![1] bcast_S2_S1x2_1 a15))

/-- The loss from the predictions: with lse(p) = max p + log Σ exp(p − max p) over each item's two entries, the
    entry of p − lse(p) at the item's label (a negative label counted from the end; an entry outside 0..1 reads as
    not-a-number), summed over the 64 items, divided by 64, negated. -/
def lossR (preds : FVec Ideal S64x2 .f32) (a21 : IVec S64 32) : FVec Ideal S_ .f32 :=
  Host.negf (F := Ideal) (Host.divf (F := Ideal) (Host.reduceAdd (F := Ideal) (select (Host.reduce IntOp.andi (andi (cmpi .sge (shapeCast _ (select (cmpi .slt (broadcastInDim S64x1 ![0] bcast_S64_S64x1_0 a21) (broadcastInDim S64x1 ![] bcast_S_S64x1 (constantI S_ 32 0#32))) (addi (broadcastInDim S64x1 ![0] bcast_S64_S64x1_0 a21) (broadcastInDim S64x1 ![] bcast_S_S64x1 (constantI S_ 32 2#32))) (broadcastInDim S64x1 ![0] bcast_S64_S64x1_0 a21)) shapeCasts_S64x1_S64x1x1) (broadcastInDim S64x1x1 ![] bcast_S_S64x1x1 (constantI S_ 32 0#32))) (cmpi .sle (shapeCast _ (select (cmpi .slt (broadcastInDim S64x1 ![0] bcast_S64_S64x1_0 a21) (broadcastInDim S64x1 ![] bcast_S_S64x1 (constantI S_ 32 0#32))) (addi (broadcastInDim S64x1 ![0] bcast_S64_S64x1_0 a21) (broadcastInDim S64x1 ![] bcast_S_S64x1 (constantI S_ 32 2#32))) (broadcastInDim S64x1 ![0] bcast_S64_S64x1_0 a21)) shapeCasts_S64x1_S64x1x1) (broadcastInDim S64x1x1 ![0, 1, 2] bcast_S1x1x1_S64x1x1_0_1_2 (broadcastInDim S1x1x1 ![2] bcast_S1_S1x1x1_2 (constantI S1 32 1#32))))) (constantI S_ 1 1#1) reducesTo_S64x1x1_S64x1_d2 h_S_) (Host.gather gather_S64x2_S64x1x1_S64x1_n_1_0_0_1_2_11 (subf (subf preds (broadcastInDim S64x2 ![0, 1] bcast_S64x1_S64x2_0_1 (broadcastInDim S64x1 ![0] bcast_S64_S64x1_0 (maximumf (broadcastInDim S64 ![] bcast_S_S64 (constant (F := Ideal) S_ .f32 0xFF800000#32)) (Host.reduce (FloatOps.maximumf (F := Ideal) (φ := .f32)) preds (constant (F := Ideal) S_ .f32 0xFF800000#32) reducesTo_S64x2_S64_d1 h_S_))))) (broadcastInDim S64x2 ![0, 1] bcast_S64x1_S64x2_0_1 (Host.log (F := Ideal) (broadcastInDim S64x1 ![0] bcast_S64_S64x1_0 (Host.reduceAdd (F := Ideal) (Host.exp (F := Ideal) (subf preds (broadcastInDim S64x2 ![0, 1] bcast_S64x1_S64x2_0_1 (broadcastInDim S64x1 ![0] bcast_S64_S64x1_0 (maximumf (broadcastInDim S64 ![] bcast_S_S64 (constant (F := Ideal) S_ .f32 0xFF800000#32)) (Host.reduce (FloatOps.maximumf (F := Ideal) (φ := .f32)) preds (constant (F := Ideal) S_ .f32 0xFF800000#32) reducesTo_S64x2_S64_d1 h_S_)))))) (constant (F := Ideal) S_ .f32 0x00000000#32) reducesTo_S64x2_S64_d1 h_S_))))) (shapeCast _ (select (cmpi .slt (broadcastInDim S64x1 ![0] bcast_S64_S64x1_0 a21) (broadcastInDim S64x1 ![] bcast_S_S64x1 (constantI S_ 32 0#32))) (addi (broadcastInDim S64x1 ![0] bcast_S64_S64x1_0 a21) (broadcastInDim S64x1 ![] bcast_S_S64x1 (constantI S_ 32 2#32))) (broadcastInDim S64x1 ![0] bcast_S64_S64x1_0 a21)) shapeCasts_S64x1_S64x1x1)) (broadcastInDim S64x1 ![] bcast_S_S64x1 (constant (F := Ideal) S_ .f32 0x7FC00000#32))) (constant (F := Ideal) S_ .f32 0x00000000#32) reducesTo_S64x1_S_d0_1 h_S_) (constant (F := Ideal) S_ .f32 0x42800000#32))

end Cert.Spec.R

end
-- ==== Proof.RefValue.lean ====
/-
  The reference program's two results as the array functions of its arguments: the predictions are the last stages
  applied to the two graph encoders' outputs (two normalized graph convolutions with a relu between them, on each
  graph), and the loss is the mean negative log-likelihood of the labels under those predictions.  Both sides are the
  same operations in the same order, so each equation holds by unfolding the names.
-/
import proofs.«154056_j23527830847606_2_alg».proof.Proof.RefRunQ
import proofs.«154056_j23527830847606_2_alg».proof.Proof.Spec
import proofs.«154056_j23527830847606_2_alg».proof.Proof.SpecTailR

noncomputable section

namespace Cert.ReferenceIdeal.HandValue

open Cert.ReferenceIdeal Cert.ReferenceIdeal.Gen Cert.ReferenceIdeal.Facts₀ Cert.ReferenceIdeal.Facts Idealize.ShloMosaic Idealize.ShloMosaic.TcCoe Idealize.SL.Sem Idealize.ShloMosaic.StableHlo

/-- The predictions: the last stages applied to the R-graph and C-graph encoders' outputs. -/
theorem ref_preds (m : (ℓ : Loc nD τ sig) → Buf (Elt Ideal) ℓ) (c : Dev nD) :
    Cert.ReferenceIdeal.Value.res_main_v228 (F := Ideal) m c
      = Cert.Spec.R.tailR
          (Cert.Spec.R.convR (Host.dotGeneral (F := Ideal) (φ₁ := .f32) (φ₂ := .f32) dot_S100000x256_S256x256_S100000x256_1_0_0_1_n_n none (Cert.Spec.R.reluN (Cert.Spec.R.convR (Host.dotGeneral (F := Ideal) (φ₁ := .f32) (φ₂ := .f32) dot_S100000x256_S256x256_S100000x256_1_0_0_1_n_n none (Host.dotGeneral (F := Ideal) (φ₁ := .f32) (φ₂ := .f32) dot_S100000x768_S768x256_S100000x256_1_0_0_1_n_n none (m ((c.tc : Thread nD τ).loc main_arg3)) (m ((c.tc : Thread nD τ).loc main_arg5))) (m ((c.tc : Thread nD τ).loc main_arg8))) (Cert.Spec.R.srcR (m ((c.tc : Thread nD τ).loc main_arg16))) (Cert.Spec.R.dstR (m ((c.tc : Thread nD τ).loc main_arg16))))) (m ((c.tc : Thread nD τ).loc main_arg9))) (Cert.Spec.R.srcR (m ((c.tc : Thread nD τ).loc main_arg16))) (Cert.Spec.R.dstR (m ((c.tc : Thread nD τ).loc main_arg16))))
          (Cert.Spec.R.convC (Host.dotGeneral (F := Ideal) (φ₁ := .f32) (φ₂ := .f32) dot_S100000x256_S256x256_S100000x256_1_0_0_1_n_n none (Cert.Spec.R.reluN (Cert.Spec.R.convC (Host.dotGeneral (F := Ideal) (φ₁ := .f32) (φ₂ := .f32) dot_S100000x256_S256x256_S100000x256_1_0_0_1_n_n none (Host.dotGeneral (F := Ideal) (φ₁ := .f32) (φ₂ := .f32) dot_S100000x768_S768x256_S100000x256_1_0_0_1_n_n none (m ((c.tc : Thread nD τ).loc main_arg4)) (m ((c.tc : Thread nD τ).loc main_arg5))) (m ((c.tc : Thread nD τ).loc main_arg10))) (Cert.Spec.R.srcC (m ((c.tc : Thread nD τ).loc main_arg18))) (Cert.Spec.R.dstC (m ((c.tc : Thread nD τ).loc main_arg18))))) (m ((c.tc : Thread nD τ).loc main_arg11))) (Cert.Spec.R.srcC (m ((c.tc : Thread nD τ).loc main_arg18))) (Cert.Spec.R.dstC (m ((c.tc : Thread nD τ).loc main_arg18))))
          (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg17)) (m ((c.tc : Thread nD τ).loc main_arg19)) (m ((c.tc : Thread nD τ).loc main_arg20)) := by
  unfold Cert.ReferenceIdeal.Value.res_main_v228 Cert.Spec.R.tailR Cert.Spec.R.convR Cert.Spec.R.convC Cert.Spec.R.reluN Cert.Spec.R.zerosN
    Cert.Spec.R.dinvR Cert.Spec.R.degR Cert.Spec.R.colR Cert.Spec.R.wrapR Cert.Spec.R.srcR Cert.Spec.R.dstR
    Cert.Spec.R.dinvC Cert.Spec.R.degC Cert.Spec.R.colC Cert.Spec.R.wrapC Cert.Spec.R.srcC Cert.Spec.R.dstC
  rfl

/-- The loss: the mean negative log-likelihood of the labels under the predictions. -/
theorem ref_loss (m : (ℓ : Loc nD τ sig) → Buf (Elt Ideal) ℓ) (c : Dev nD) :
    Cert.ReferenceIdeal.Value.res_main_v234 (F := Ideal) m c
      = Cert.Spec.R.lossR (Cert.ReferenceIdeal.Value.res_main_v228 (F := Ideal) m c) (m ((c.tc : Thread nD τ).loc main_arg21)) := by
  unfold Cert.ReferenceIdeal.Value.res_main_v234 Cert.Spec.R.lossR Cert.ReferenceIdeal.Value.res_main_v228
  rfl

end Cert.ReferenceIdeal.HandValue

end
-- ==== Proof.SpecTailK.lean ====
/-
  The kernel program's stages after its two graph convolutions, in its own names: the mean of the node rows over the
  64 news items (rows summed at their item, counts summed beside them, the sums divided by max(count, 1)), the same
  mean taken twice for the comment graph (nodes into 512 graphs, graphs into 64 items), the three small products, the
  five blocks side by side, and the two dense layers; then the loss: log-softmax along the two classes, the entry at
  the label, the mean over the 64 items, negated. Each definition is literally the program's own operations on
  abstract inputs.
-/
import proofs.«154056_j23527830847606_2_alg».proof.Proof.Spec

noncomputable section

open Idealize.ShloMosaic

namespace Cert.Spec.K
open Cert.KernelIdeal Cert.KernelIdeal.Facts₀ Cert.KernelIdeal.Facts

/-- Mean of the 100000 node rows over the 64 items named by `b`: the rows summed at their item, divided by
    max(number of rows of the item, 1). -/
def poolN (r : Fv S100000x256) (b : Iv S100000) : Fv S64x256 :=
  Host.divf (F := Ideal)
    (Host.scatterAdd (F := Ideal) scatter_S64x256_S100000x1_S100000x256_1_0_0_1
      (broadcastInDim S64x256 ![] bcast_S_S64x256 (constant (F := Ideal) S_ .f32 0x00000000#32))
      (broadcastInDim S100000x1 ![0] bcast_S100000_S100000x1_0 b) r)
    (broadcastInDim S64x256 ![0, 1] bcast_S64x1_S64x256_0_1 (broadcastInDim S64x1 ![0] bcast_S64_S64x1_0
      (maximumf
        (Host.scatterAdd (F := Ideal) scatter_S64_S100000x1_S100000_n_0_0_1
          (broadcastInDim S64 ![] bcast_S_S64 (constant (F := Ideal) S_ .f32 0x00000000#32))
          (broadcastInDim S100000x1 ![0] bcast_S100000_S100000x1_0 b)
          (broadcastInDim S100000 ![] bcast_S_S100000 (constant (F := Ideal) S_ .f32 0x3F800000#32)))
        (broadcastInDim S64 ![] bcast_S_S64 (constant (F := Ideal) S_ .f32 0x3F800000#32)))))

/-- Mean of the 100000 node rows over the 512 graphs named by `b`. -/
def poolG (r : Fv S100000x256) (b : Iv S100000) : Fv S512x256 :=
  Host.divf (F := Ideal)
    (Host.scatterAdd (F := Ideal) scatter_S512x256_S100000x1_S100000x256_1_0_0_1
      (broadcastInDim S512x256 ![] bcast_S_S512x256 (constant (F := Ideal) S_ .f32 0x00000000#32))
      (broadcastInDim S100000x1 ![0] bcast_S100000_S100000x1_0 b) r)
    (broadcastInDim S512x256 ![0, 1] bcast_S512x1_S512x256_0_1 (broadcastInDim S512x1 ![0] bcast_S512_S512x1_0
      (maximumf
        (Host.scatterAdd (F := Ideal) scatter_S512_S100000x1_S100000_n_0_0_1
          (broadcastInDim S512 ![] bcast_S_S512 (constant (F := Ideal) S_ .f32 0x00000000#32))
          (broadcastInDim S100000x1 ![0] bcast_S100000_S100000x1_0 b)
          (broadcastInDim S100000 ![] bcast_S_S100000 (constant (F := Ideal) S_ .f32 0x3F800000#32)))
        (broadcastInDim S512 ![] bcast_S_S512 (constant (F := Ideal) S_ .f32 0x3F800000#32)))))

/-- Mean of the 512 graph rows over the 64 items named by `b`. -/
def poolI (g : Fv S512x256) (b : Iv S512) : Fv S64x256 :=
  Host.divf (F := Ideal)
    (Host.scatterAdd (F := Ideal) scatter_S64x256_S512x1_S512x256_1_0_0_1
      (broadcastInDim S64x256 ![] bcast_S_S64x256 (constant (F := Ideal) S_ .f32 0x00000000#32))
      (broadcastInDim S512x1 ![0] bcast_S512_S512x1_0 b) g)
    (broadcastInDim S64x256 ![0, 1] bcast_S64x1_S64x256_0_1 (broadcastInDim S64x1 ![0] bcast_S64_S64x1_0
      (maximumf
        (Host.scatterAdd (F := Ideal) scatter_S64_S512x1_S512_n_0_0_1
          (broadcastInDim S64 ![] bcast_S_S64 (constant (F := Ideal) S_ .f32 0x00000000#32))
          (broadcastInDim S512x1 ![0] bcast_S512_S512x1_0 b)
          (broadcastInDim S512 ![] bcast_S_S512 (constant (F := Ideal) S_ .f32 0x3F800000#32)))
        (broadcastInDim S64 ![] bcast_S_S64 (constant (F := Ideal) S_ .f32 0x3F800000#32)))))

/-- A [64,768] x [768,256] product. -/
def dotT (x : Fv S64x768) (w : Fv S768x256) : Fv S64x256 :=
  Host.dotGeneral (F := Ideal) dot_S64x768_S768x256_S64x256_1_0_0_1_n_n (some .fp32) x w

/-- The five [64,256] blocks side by side, times the [1280,256] weight, plus the bias row. -/
def hiddenK (t n cm u p : Fv S64x256) (w : Fv S1280x256) (b : Fv S256) : Fv S64x256 :=
  addf
    (Host.dotGeneral (F := Ideal) dot_S64x1280_S1280x256_S64x256_1_0_0_1_n_n (some .fp32)
      (concatenate S64x1280 1 [⟨S64x256, t⟩, ⟨S64x256, n⟩, ⟨S64x256, cm⟩, ⟨S64x256, u⟩, ⟨S64x256, p⟩] concatenates_S64x256_S64x256_S64x256_S64x256_S64x256_S64x1280_d1) w)
    (broadcastInDim S64x256 ![0, 1] bcast_S1x256_S64x256_0_1 (broadcastInDim S1x256 ![1] bcast_S256_S1x256_1 b))

/-- max(x, 0), entry by entry, on a [64,256] array. -/
def reluH (x : Fv S64x256) : Fv S64x256 :=
  maximumf x (broadcastInDim S64x256 ![] bcast_S_S64x256 (constant (F := Ideal) S_ .f32 0x00000000#32))

/-- The output layer: times the [256,2] weight, plus the bias row. -/
def outK (h : Fv S64x256) (w : Fv S256x2) (b : Fv S2) : Fv S64x2 :=
  addf (Host.dotGeneral (F := Ideal) dot_S64x256_S256x2_S64x2_1_0_0_1_n_n (some .fp32) h w)
    (broadcastInDim S64x2 ![0, 1] bcast_S1x2_S64x2_0_1 (broadcastInDim S1x2 ![1] bcast_S2_S1x2_1 b))

/-- Everything after the two second-layer graph convolutions `r` (R graph) and `cm` (C graph): the predictions. -/
def tailK (r cm : Fv S100000x256) (a0 a1 a2 : Fv S64x768) (a5 a6 a7 : Fv S768x256) (a12 : Fv S1280x256) (a13 : Fv S256)
    (a14 : Fv S256x2) (a15 : Fv S2) (a17 a19 : Iv S100000) (a20 : Iv S512) : Fv S64x2 :=
  outK (reluH (hiddenK (dotT a0 a5) (poolN r a17) (poolI (poolG cm a19) a20) (dotT a1 a6) (dotT a2 a7) a12 a13)) a14 a15

/-- A [768,256] x [256,256] product (a text weight folded into a first-layer weight). -/
abbrev foldW (wt : Fv S768x256) (wa : Fv S256x256) : Fv S768x256 :=
  Host.dotGeneral (F := Ideal) dot_S768x256_S256x256_S768x256_1_0_0_1_n_n (some .fp32) wt wa

/-- x minus its row maximum (the maximum taken from -inf). -/
def shiftK (x : Fv S64x2) : Fv S64x2 :=
  subf x (broadcastInDim S64x2 ![0, 1] bcast_S64x1_S64x2_0_1 (broadcastInDim S64x1 ![0] bcast_S64_S64x1_0
    (maximumf (broadcastInDim S64 ![] bcast_S_S64 (constant (F := Ideal) S_ .f32 0xFF800000#32))
      (Host.reduce FloatOps.maximumf x (constant (F := Ideal) S_ .f32 0xFF800000#32) reducesTo_S64x2_S64_d1 h_S_))))

/-- log-softmax along the two classes: the shifted row minus the log of the sum of its exponentials. -/
def logSoftmaxK (x : Fv S64x2) : Fv S64x2 :=
  subf (shiftK x) (broadcastInDim S64x2 ![0, 1] bcast_S64x1_S64x2_0_1 (Host.log (broadcastInDim S64x1 ![0] bcast_S64_S64x1_0
    (Host.reduceAdd (Host.exp (shiftK x)) (constant (F := Ideal) S_ .f32 0x00000000#32) reducesTo_S64x2_S64_d1 h_S_))))

/-- The label column as positions: a negative label counted from the end (+2), as a [64,1,1] array. -/
def labelPosK (l : Iv S64x1) : Iv S64x1x1 :=
  shapeCast S64x1x1
    (select (cmpi .slt l (broadcastInDim S64x1 ![] bcast_S_S64x1 (constantI S_ 32 0#32)))
      (addi l (broadcastInDim S64x1 ![] bcast_S_S64x1 (constantI S_ 32 2#32))) l)
    shapeCasts_S64x1_S64x1x1

/-- The entry of each row at its label; not-a-number where the label is outside [0, 1]. -/
def takeK (x : Fv S64x2) (l : Iv S64x1) : Fv S64x1 :=
  select
    (Host.reduce IntOp.andi
      (andi (cmpi .sge (labelPosK l) (broadcastInDim S64x1x1 ![] bcast_S_S64x1x1 (constantI S_ 32 0#32)))
        (cmpi .sle (labelPosK l) (broadcastInDim S64x1x1 ![0, 1, 2] bcast_S1x1x1_S64x1x1_0_1_2 (broadcastInDim S1x1x1 ![2] bcast_S1_S1x1x1_2 (constantI S1 32 1#32)))))
      (constantI S_ 1 1#1) reducesTo_S64x1x1_S64x1_d2 h_S_)
    (Host.gather gather_S64x2_S64x1x1_S64x1_n_1_0_0_1_2_11 x (labelPosK l))
    (broadcastInDim S64x1 ![] bcast_S_S64x1 (constant (F := Ideal) S_ .f32 0x7FC00000#32))

/-- Minus the mean of the 64 entries. -/
def negMeanK (x : Fv S64x1) : Fv S_ :=
  Host.negf (F := Ideal) (Host.divf (F := Ideal) (Host.reduceAdd x (constant (F := Ideal) S_ .f32 0x00000000#32) reducesTo_S64x1_S_d0_1 h_S_)
    (constant (F := Ideal) S_ .f32 0x42800000#32))

/-- The loss: minus the mean over the 64 items of the log-softmax entry at the label. -/
def lossK (preds : Fv S64x2) (a21 : Iv S64) : Fv S_ :=
  negMeanK (takeK (logSoftmaxK preds) (broadcastInDim S64x1 ![0] bcast_S64_S64x1_0 a21))

end Cert.Spec.K

end
-- ==== Proof.KIValue.lean ====
/-
  The kernel program's host stages as array functions. Between its four matrix-product calls the program runs
  seventeen stretches of whole-array operations; the contents of the buffers after each stretch are a fold of the
  stretch's operations over the contents before it. For every stretch this module reads the buffers that matter
  off that fold as one of the program's own stage functions (the graph convolution, the pooling means, the dense
  layers, the loss) applied to the buffers before the stretch, and then chains the stretches: a buffer no operation
  of a stretch writes keeps its contents, and a product call changes only its own output array, whose contents are
  left arbitrary here.
-/
import proofs.«154056_j23527830847606_2_alg».proof.Proof.Gen.KernelIdeal.Regions
import proofs.«154056_j23527830847606_2_alg».proof.Proof.Spec
import proofs.«154056_j23527830847606_2_alg».proof.Proof.SpecTailK
import Idealize.ShloMosaic.Lib.StableHlo.Run

set_option maxRecDepth 16384

noncomputable section

namespace Cert.KernelIdeal.HandValue

open Cert.KernelIdeal Cert.KernelIdeal.Gen Cert.KernelIdeal.Facts₀ Cert.KernelIdeal.Facts
open Idealize.ShloMosaic Idealize.ShloMosaic.TcCoe Idealize.ShloMosaic.StableHlo
open Cert.Spec.K

/-! ## A five-operand operation's result with each operand read at its own buffer -/

section Nary5
variable {Val : EltTy → Type} {x a b d e y : Ref sig .tc}

/-- The result of an operation over a literal family of five buffers, each operand's contents at its own buffer. -/
theorem nary5_result
    (f : ((k : Fin 5) → ((![x, a, b, d, e] : Fin 5 → Ref sig .tc) k).ty.Contents Val) → y.ty.Contents Val) (hxs hy)
    (G : Valuation τ sig Val) :
    (StableHlo.nary (τ := τ) ![x, a, b, d, e] y f hxs hy).result G (Proc.devRef .tc y)
      = f (Fin.cons (G (Proc.devRef .tc x)) (Fin.cons (G (Proc.devRef .tc a)) (Fin.cons (G (Proc.devRef .tc b))
          (Fin.cons (G (Proc.devRef .tc d)) (Fin.cons (G (Proc.devRef .tc e)) (fun i => i.elim0)))))) := by
  rw [StableHlo.nary_result]; congr 1; funext k; fin_cases k <;> rfl

/-- The same, stated for rewriting at any buffer expression. -/
theorem nary5_result'
    (f : ((k : Fin 5) → ((![x, a, b, d, e] : Fin 5 → Ref sig .tc) k).ty.Contents Val) → y.ty.Contents Val) (hxs hy)
    (G : Valuation τ sig Val) :
    (StableHlo.nary (τ := τ) ![x, a, b, d, e] y f hxs hy).result G (no_index (Proc.devRef .tc y))
      = f (Fin.cons (G (Proc.devRef .tc x)) (Fin.cons (G (Proc.devRef .tc a)) (Fin.cons (G (Proc.devRef .tc b))
          (Fin.cons (G (Proc.devRef .tc d)) (Fin.cons (G (Proc.devRef .tc e)) (fun i => i.elim0)))))) :=
  nary5_result f hxs hy G

end Nary5

/-- The fold of a literal list of operations read at one buffer, in one pass: each operation's result at its own
    buffer is its function's value, at any other buffer what was there before. -/
macro "fold_results" : tactic =>
  `(tactic| (simp (disch := decide) only [StableHlo.after_cons, StableHlo.after_nil,
      nary5_result', StableHlo.nullary_result', StableHlo.unary_result', StableHlo.binary_result', StableHlo.ternary_result',
      StableHlo.reshape_result',
      StableHlo.nullary_result_ne', StableHlo.unary_result_ne', StableHlo.binary_result_ne', StableHlo.ternary_result_ne',
      StableHlo.reshape_result_ne', StableHlo.nary_result_ne']))

/-- The label list as a one-column matrix. -/
abbrev labelCol (l : Iv S64) : Iv S64x1 := broadcastInDim S64x1 ![0] Cert.KernelIdeal.Facts₀.bcast_S64_S64x1_0 l

set_option maxHeartbeats 4000000

/-! ## One stretch at a time, from arbitrary contents `V` before it -/

section Stretch
variable (V : Valuation τ sig (Elt Ideal))

theorem h0_v0 :
    (StableHlo.after (Gen.hostOps0 (F := Ideal)) V main_v0 : Fv S768x256) = foldW (V main_arg5) (V main_arg8) := by
  dsimp only [Gen.hostOps0]; fold_results <;> rfl

theorem h0_v1 :
    (StableHlo.after (Gen.hostOps0 (F := Ideal)) V main_v1 : Fv S768x256) = foldW (V main_arg5) (V main_arg10) := by
  dsimp only [Gen.hostOps0]; fold_results <;> rfl

theorem h0_v2 :
    (StableHlo.after (Gen.hostOps0 (F := Ideal)) V main_v2 : Fv S64x256) = dotT (V main_arg0) (V main_arg5) := by
  dsimp only [Gen.hostOps0]; fold_results <;> rfl

theorem h0_v3 :
    (StableHlo.after (Gen.hostOps0 (F := Ideal)) V main_v3 : Fv S64x256) = dotT (V main_arg1) (V main_arg6) := by
  dsimp only [Gen.hostOps0]; fold_results <;> rfl

theorem h0_v4 :
    (StableHlo.after (Gen.hostOps0 (F := Ideal)) V main_v4 : Fv S64x256) = dotT (V main_arg2) (V main_arg7) := by
  dsimp only [Gen.hostOps0]; fold_results <;> rfl

theorem h1_v11 :
    (StableHlo.after (Gen.hostOps1 (F := Ideal)) V main_v11 : Iv S500000) = srcR (V main_arg16) := by
  dsimp only [Gen.hostOps1]; fold_results <;> rfl

theorem h1_v12 :
    (StableHlo.after (Gen.hostOps1 (F := Ideal)) V main_v12 : Iv S500000) = dstR (V main_arg16) := by
  dsimp only [Gen.hostOps1]; fold_results <;> rfl

theorem h1_v22 :
    (StableHlo.after (Gen.hostOps1 (F := Ideal)) V main_v22 : Fv S100000) = dinvR (dstR (V main_arg16)) := by
  dsimp only [Gen.hostOps1]; fold_results <;> rfl

theorem h1_v38 :
    (StableHlo.after (Gen.hostOps1 (F := Ideal)) V main_v38 : Fv S100000x256) = propR (V main_v5) (srcR (V main_arg16)) (dstR (V main_arg16)) := by
  dsimp only [Gen.hostOps1]; fold_results <;> rfl

theorem h11_v39 :
    (StableHlo.after (Gen.hostOps1_1 (F := Ideal)) V main_v39 : Fv S100000x256) = reluN (V main_v38) := by
  dsimp only [Gen.hostOps1_1]; fold_results <;> rfl

theorem h2_v68 (h22 : (V main_v22 : Fv S100000) = dinvR (V main_v12)) :
    (StableHlo.after (Gen.hostOps2 (F := Ideal)) V main_v68 : Fv S64x256) = poolN (propR (V main_v40) (V main_v11) (V main_v12)) (V main_arg17) := by
  dsimp only [Gen.hostOps2]; fold_results; rw [h22]; rfl

theorem h3_v75 :
    (StableHlo.after (Gen.hostOps3 (F := Ideal)) V main_v75 : Iv S400000) = srcC (V main_arg18) := by
  dsimp only [Gen.hostOps3]; fold_results <;> rfl

theorem h3_v76 :
    (StableHlo.after (Gen.hostOps3 (F := Ideal)) V main_v76 : Iv S400000) = dstC (V main_arg18) := by
  dsimp only [Gen.hostOps3]; fold_results <;> rfl

theorem h3_v86 :
    (StableHlo.after (Gen.hostOps3 (F := Ideal)) V main_v86 : Fv S100000) = dinvC (dstC (V main_arg18)) := by
  dsimp only [Gen.hostOps3]; fold_results <;> rfl

theorem h3_v102 :
    (StableHlo.after (Gen.hostOps3 (F := Ideal)) V main_v102 : Fv S100000x256) = propC (V main_v69) (srcC (V main_arg18)) (dstC (V main_arg18)) := by
  dsimp only [Gen.hostOps3]; fold_results <;> rfl

theorem h31_v103 :
    (StableHlo.after (Gen.hostOps3_1 (F := Ideal)) V main_v103 : Fv S100000x256) = reluN (V main_v102) := by
  dsimp only [Gen.hostOps3_1]; fold_results <;> rfl

/-- Operations run one list after another are the concatenated list run at once. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The last long stretch cut before its five-operand concatenate: its first 51 operations, then the last five. -/
theorem hostOps4_split :
    StableHlo.after (Gen.hostOps4 (F := Ideal)) V
      = StableHlo.after (List.drop 51 (Gen.hostOps4 (F := Ideal))) (StableHlo.after (List.take 51 (Gen.hostOps4 (F := Ideal))) V) := by
  rw [← after_append, List.take_append_drop]

theorem h4a_v144 (h86 : (V main_v86 : Fv S100000) = dinvC (V main_v76)) :
    (StableHlo.after (List.take 51 (Gen.hostOps4 (F := Ideal))) V main_v144 : Fv S64x256)
      = poolI (poolG (propC (V main_v104) (V main_v75) (V main_v76)) (V main_arg19)) (V main_arg20) := by
  dsimp only [Gen.hostOps4, List.take]; fold_results; rw [h86]; rfl
theorem h4a_v2 :
    StableHlo.after (List.take 51 (Gen.hostOps4 (F := Ideal))) V main_v2 = V main_v2 := by
  dsimp only [Gen.hostOps4, List.take]; fold_results <;> rfl
theorem h4a_v68 :
    StableHlo.after (List.take 51 (Gen.hostOps4 (F := Ideal))) V main_v68 = V main_v68 := by
  dsimp only [Gen.hostOps4, List.take]; fold_results <;> rfl
theorem h4a_v3 :
    StableHlo.after (List.take 51 (Gen.hostOps4 (F := Ideal))) V main_v3 = V main_v3 := by
  dsimp only [Gen.hostOps4, List.take]; fold_results <;> rfl
theorem h4a_v4 :
    StableHlo.after (List.take 51 (Gen.hostOps4 (F := Ideal))) V main_v4 = V main_v4 := by
  dsimp only [Gen.hostOps4, List.take]; fold_results <;> rfl
theorem h4a_arg12 :
    StableHlo.after (List.take 51 (Gen.hostOps4 (F := Ideal))) V main_arg12 = V main_arg12 := by
  dsimp only [Gen.hostOps4, List.take]; fold_results <;> rfl
theorem h4a_arg13 :
    StableHlo.after (List.take 51 (Gen.hostOps4 (F := Ideal))) V main_arg13 = V main_arg13 := by
  dsimp only [Gen.hostOps4, List.take]; fold_results <;> rfl
theorem h4b_v149 :
    (StableHlo.after (List.drop 51 (Gen.hostOps4 (F := Ideal))) V main_v149 : Fv S64x256)
      = hiddenK (V main_v2) (V main_v68) (V main_v144) (V main_v3) (V main_v4) (V main_arg12) (V main_arg13) := by
  dsimp only [Gen.hostOps4, List.drop]; fold_results; rfl
theorem h4_v149 (h86 : (V main_v86 : Fv S100000) = dinvC (V main_v76)) :
    (StableHlo.after (Gen.hostOps4 (F := Ideal)) V main_v149 : Fv S64x256) = hiddenK (V main_v2) (V main_v68) (poolI (poolG (propC (V main_v104) (V main_v75) (V main_v76)) (V main_arg19)) (V main_arg20)) (V main_v3) (V main_v4) (V main_arg12) (V main_arg13) := by
  refine (congrFun (hostOps4_split V) _).trans ?_
  refine (h4b_v149 _).trans ?_
  rw [h4a_v144 V h86, h4a_v2 V, h4a_v68 V, h4a_v3 V, h4a_v4 V, h4a_arg12 V, h4a_arg13 V]

theorem h41_v150 :
    (StableHlo.after (Gen.hostOps4_1 (F := Ideal)) V main_v150 : Fv S64x256) = reluH (V main_v149) := by
  dsimp only [Gen.hostOps4_1]; fold_results <;> rfl

theorem h42_v154 :
    (StableHlo.after (Gen.hostOps4_2 (F := Ideal)) V main_v154 : Fv S64x2) = outK (V main_v150) (V main_arg14) (V main_arg15) := by
  dsimp only [Gen.hostOps4_2]; fold_results <;> rfl

theorem h43_v155 :
    (StableHlo.after (Gen.hostOps4_3 (F := Ideal)) V main_v155 : Fv S64x2) = logSoftmaxK (V main_v154) := by
  dsimp only [Gen.hostOps4_3]; fold_results <;> rfl

theorem h44_v156 :
    (StableHlo.after (Gen.hostOps4_4 (F := Ideal)) V main_v156 : Iv S64x1) = labelCol (V main_arg21) := by
  dsimp only [Gen.hostOps4_4]; fold_results <;> rfl

theorem h45_v157 :
    (StableHlo.after (Gen.hostOps4_5 (F := Ideal)) V main_v157 : Fv S64x1) = takeK (V main_v155) (V main_v156) := by
  dsimp only [Gen.hostOps4_5]; fold_results <;> rfl

theorem h46_v160 :
    (StableHlo.after (Gen.hostOps4_6 (F := Ideal)) V main_v160 : Fv S_) = negMeanK (V main_v157) := by
  dsimp only [Gen.hostOps4_6]; fold_results <;> rfl

end Stretch

/-! ## The chain of stretches from the launch contents -/

section Chain
variable (m : (ℓ : Loc nD τ sig) → Buf (Elt Ideal) ℓ) (outs : Gen.Outs (F := Ideal)) (c : Dev nD)

/-- Argument 0's launch contents on core `c`. -/
abbrev A0 : Fv S64x768 := m ((c.tc : Thread nD τ).loc main_arg0)
/-- Argument 1's launch contents on core `c`. -/
abbrev A1 : Fv S64x768 := m ((c.tc : Thread nD τ).loc main_arg1)
/-- Argument 2's launch contents on core `c`. -/
abbrev A2 : Fv S64x768 := m ((c.tc : Thread nD τ).loc main_arg2)
/-- Argument 3's launch contents on core `c`. -/
abbrev A3 : Fv S100000x768 := m ((c.tc : Thread nD τ).loc main_arg3)
/-- Argument 4's launch contents on core `c`. -/
abbrev A4 : Fv S100000x768 := m ((c.tc : Thread nD τ).loc main_arg4)
/-- Argument 5's launch contents on core `c`. -/
abbrev A5 : Fv S768x256 := m ((c.tc : Thread nD τ).loc main_arg5)
/-- Argument 6's launch contents on core `c`. -/
abbrev A6 : Fv S768x256 := m ((c.tc : Thread nD τ).loc main_arg6)
/-- Argument 7's launch contents on core `c`. -/
abbrev A7 : Fv S768x256 := m ((c.tc : Thread nD τ).loc main_arg7)
/-- Argument 8's launch contents on core `c`. -/
abbrev A8 : Fv S256x256 := m ((c.tc : Thread nD τ).loc main_arg8)
/-- Argument 9's launch contents on core `c`. -/
abbrev A9 : Fv S256x256 := m ((c.tc : Thread nD τ).loc main_arg9)
/-- Argument 10's launch contents on core `c`. -/
abbrev A10 : Fv S256x256 := m ((c.tc : Thread nD τ).loc main_arg10)
/-- Argument 11's launch contents on core `c`. -/
abbrev A11 : Fv S256x256 := m ((c.tc : Thread nD τ).loc main_arg11)
/-- Argument 12's launch contents on core `c`. -/
abbrev A12 : Fv S1280x256 := m ((c.tc : Thread nD τ).loc main_arg12)
/-- Argument 13's launch contents on core `c`. -/
abbrev A13 : Fv S256 := m ((c.tc : Thread nD τ).loc main_arg13)
/-- Argument 14's launch contents on core `c`. -/
abbrev A14 : Fv S256x2 := m ((c.tc : Thread nD τ).loc main_arg14)
/-- Argument 15's launch contents on core `c`. -/
abbrev A15 : Fv S2 := m ((c.tc : Thread nD τ).loc main_arg15)
/-- Argument 16's launch contents on core `c`. -/
abbrev A16 : Iv S2x400000 := m ((c.tc : Thread nD τ).loc main_arg16)
/-- Argument 17's launch contents on core `c`. -/
abbrev A17 : Iv S100000 := m ((c.tc : Thread nD τ).loc main_arg17)
/-- Argument 18's launch contents on core `c`. -/
abbrev A18 : Iv S2x300000 := m ((c.tc : Thread nD τ).loc main_arg18)
/-- Argument 19's launch contents on core `c`. -/
abbrev A19 : Iv S100000 := m ((c.tc : Thread nD τ).loc main_arg19)
/-- Argument 20's launch contents on core `c`. -/
abbrev A20 : Iv S512 := m ((c.tc : Thread nD τ).loc main_arg20)
/-- Argument 21's launch contents on core `c`. -/
abbrev A21 : Iv S64 := m ((c.tc : Thread nD τ).loc main_arg21)

/-- What the four product calls leave in their output arrays. -/
abbrev O5 : Fv S100000x256 := outs 2 main_v5 c
abbrev O40 : Fv S100000x256 := outs 5 main_v40 c
abbrev O69 : Fv S100000x256 := outs 7 main_v69 c
abbrev O104 : Fv S100000x256 := outs 10 main_v104 c
/-- The two graphs' edge lists with self-loops. -/
abbrev sR : Iv S500000 := srcR (A16 m c)
abbrev dR : Iv S500000 := dstR (A16 m c)
abbrev sC : Iv S400000 := srcC (A18 m c)
abbrev dC : Iv S400000 := dstC (A18 m c)

/-! ### Before the first product call -/
theorem V1_main_arg3 : Gen.V1 m c main_arg3 = A3 m c := Gen.V1_of m c main_arg3 (by decide)
theorem V1_main_v0 : (Gen.V1 m c main_v0 : Fv S768x256) = foldW (A5 m c) (A8 m c) := h0_v0 (Gen.V0 m c)
theorem V1_main_v1 : (Gen.V1 m c main_v1 : Fv S768x256) = foldW (A5 m c) (A10 m c) := h0_v1 (Gen.V0 m c)
theorem V1_main_v2 : (Gen.V1 m c main_v2 : Fv S64x256) = dotT (A0 m c) (A5 m c) := h0_v2 (Gen.V0 m c)
theorem V1_main_v3 : (Gen.V1 m c main_v3 : Fv S64x256) = dotT (A1 m c) (A6 m c) := h0_v3 (Gen.V0 m c)
theorem V1_main_v4 : (Gen.V1 m c main_v4 : Fv S64x256) = dotT (A2 m c) (A7 m c) := h0_v4 (Gen.V0 m c)
/-! ### The first layer on the R graph -/
theorem c2_v5 : (Gen.V2 m outs c main_v5 : Fv S100000x256) = O5 outs c := Function.update_self _ _ _
theorem c2_a16 : Gen.V2 m outs c main_arg16 = A16 m c :=
  (Gen.V2_of m outs c main_arg16 (by decide)).trans <| (Gen.V1_of m c main_arg16 (by decide))
theorem V3_main_v11 : (Gen.V3 m outs c main_v11 : Iv S500000) = sR m c :=
  (h1_v11 (Gen.V2 m outs c)).trans (by rw [c2_a16])
theorem V3_main_v12 : (Gen.V3 m outs c main_v12 : Iv S500000) = dR m c :=
  (h1_v12 (Gen.V2 m outs c)).trans (by rw [c2_a16])
theorem V3_main_v22 : (Gen.V3 m outs c main_v22 : Fv S100000) = dinvR (dR m c) :=
  (h1_v22 (Gen.V2 m outs c)).trans (by rw [c2_a16])
theorem V3_main_v38 : (Gen.V3 m outs c main_v38 : Fv S100000x256) = propR (O5 outs c) (sR m c) (dR m c) :=
  (h1_v38 (Gen.V2 m outs c)).trans (by rw [c2_v5, c2_a16])
theorem V4_main_v39 : (Gen.V4 m outs c main_v39 : Fv S100000x256) = reluN (propR (O5 outs c) (sR m c) (dR m c)) :=
  (h11_v39 (Gen.V3 m outs c)).trans (by rw [V3_main_v38])
theorem V4_main_arg9 : Gen.V4 m outs c main_arg9 = A9 m c :=
  (Gen.V4_of m outs c main_arg9 (by decide)).trans <| (Gen.V3_of m outs c main_arg9 (by decide)).trans <| (Gen.V2_of m outs c main_arg9 (by decide)).trans <| (Gen.V1_of m c main_arg9 (by decide))
/-! ### The second layer on the R graph and its mean over the items -/
theorem V6_main_arg4 : Gen.V6 m outs c main_arg4 = A4 m c :=
  (Gen.V6_of m outs c main_arg4 (by decide)).trans <| (Gen.V5_of m outs c main_arg4 (by decide)).trans <| (Gen.V4_of m outs c main_arg4 (by decide)).trans <| (Gen.V3_of m outs c main_arg4 (by decide)).trans <| (Gen.V2_of m outs c main_arg4 (by decide)).trans <| (Gen.V1_of m c main_arg4 (by decide))
theorem V6_main_v1 : (Gen.V6 m outs c main_v1 : Fv S768x256) = foldW (A5 m c) (A10 m c) :=
  ((Gen.V6_of m outs c main_v1 (by decide)).trans <| (Gen.V5_of m outs c main_v1 (by decide)).trans <| (Gen.V4_of m outs c main_v1 (by decide)).trans <| (Gen.V3_of m outs c main_v1 (by decide)).trans <| (Gen.V2_of m outs c main_v1 (by decide))).trans (V1_main_v1 m c)
theorem c5_v40 : (Gen.V5 m outs c main_v40 : Fv S100000x256) = O40 outs c := Function.update_self _ _ _
theorem c5_v11 : (Gen.V5 m outs c main_v11 : Iv S500000) = sR m c :=
  ((Gen.V5_of m outs c main_v11 (by decide)).trans <| (Gen.V4_of m outs c main_v11 (by decide))).trans (V3_main_v11 m outs c)
theorem c5_v12 : (Gen.V5 m outs c main_v12 : Iv S500000) = dR m c :=
  ((Gen.V5_of m outs c main_v12 (by decide)).trans <| (Gen.V4_of m outs c main_v12 (by decide))).trans (V3_main_v12 m outs c)
theorem c5_v22 : (Gen.V5 m outs c main_v22 : Fv S100000) = dinvR (dR m c) :=
  ((Gen.V5_of m outs c main_v22 (by decide)).trans <| (Gen.V4_of m outs c main_v22 (by decide))).trans (V3_main_v22 m outs c)
theorem c5_a17 : Gen.V5 m outs c main_arg17 = A17 m c :=
  (Gen.V5_of m outs c main_arg17 (by decide)).trans <| (Gen.V4_of m outs c main_arg17 (by decide)).trans <| (Gen.V3_of m outs c main_arg17 (by decide)).trans <| (Gen.V2_of m outs c main_arg17 (by decide)).trans <| (Gen.V1_of m c main_arg17 (by decide))
theorem V6_main_v68 : (Gen.V6 m outs c main_v68 : Fv S64x256) = poolN (propR (O40 outs c) (sR m c) (dR m c)) (A17 m c) :=
  (h2_v68 (Gen.V5 m outs c) ((c5_v22 m outs c).trans (by rw [c5_v12]))).trans (by rw [c5_v40, c5_v11, c5_v12, c5_a17])
/-! ### The first layer on the C graph -/
theorem c7_v69 : (Gen.V7 m outs c main_v69 : Fv S100000x256) = O69 outs c := Function.update_self _ _ _
theorem c7_a18 : Gen.V7 m outs c main_arg18 = A18 m c :=
  (Gen.V7_of m outs c main_arg18 (by decide)).trans <| (Gen.V6_of m outs c main_arg18 (by decide)).trans <| (Gen.V5_of m outs c main_arg18 (by decide)).trans <| (Gen.V4_of m outs c main_arg18 (by decide)).trans <| (Gen.V3_of m outs c main_arg18 (by decide)).trans <| (Gen.V2_of m outs c main_arg18 (by decide)).trans <| (Gen.V1_of m c main_arg18 (by decide))
theorem V8_main_v75 : (Gen.V8 m outs c main_v75 : Iv S400000) = sC m c :=
  (h3_v75 (Gen.V7 m outs c)).trans (by rw [c7_a18])
theorem V8_main_v76 : (Gen.V8 m outs c main_v76 : Iv S400000) = dC m c :=
  (h3_v76 (Gen.V7 m outs c)).trans (by rw [c7_a18])
theorem V8_main_v86 : (Gen.V8 m outs c main_v86 : Fv S100000) = dinvC (dC m c) :=
  (h3_v86 (Gen.V7 m outs c)).trans (by rw [c7_a18])
theorem V8_main_v102 : (Gen.V8 m outs c main_v102 : Fv S100000x256) = propC (O69 outs c) (sC m c) (dC m c) :=
  (h3_v102 (Gen.V7 m outs c)).trans (by rw [c7_v69, c7_a18])
theorem V9_main_v103 : (Gen.V9 m outs c main_v103 : Fv S100000x256) = reluN (propC (O69 outs c) (sC m c) (dC m c)) :=
  (h31_v103 (Gen.V8 m outs c)).trans (by rw [V8_main_v102])
theorem V9_main_arg11 : Gen.V9 m outs c main_arg11 = A11 m c :=
  (Gen.V9_of m outs c main_arg11 (by decide)).trans <| (Gen.V8_of m outs c main_arg11 (by decide)).trans <| (Gen.V7_of m outs c main_arg11 (by decide)).trans <| (Gen.V6_of m outs c main_arg11 (by decide)).trans <| (Gen.V5_of m outs c main_arg11 (by decide)).trans <| (Gen.V4_of m outs c main_arg11 (by decide)).trans <| (Gen.V3_of m outs c main_arg11 (by decide)).trans <| (Gen.V2_of m outs c main_arg11 (by decide)).trans <| (Gen.V1_of m c main_arg11 (by decide))
/-! ### The second layer on the C graph, its two means, and the dense layers -/
theorem c10_v104 : (Gen.V10 m outs c main_v104 : Fv S100000x256) = O104 outs c := Function.update_self _ _ _
theorem c10_v75 : (Gen.V10 m outs c main_v75 : Iv S400000) = sC m c :=
  ((Gen.V10_of m outs c main_v75 (by decide)).trans <| (Gen.V9_of m outs c main_v75 (by decide))).trans (V8_main_v75 m outs c)
theorem c10_v76 : (Gen.V10 m outs c main_v76 : Iv S400000) = dC m c :=
  ((Gen.V10_of m outs c main_v76 (by decide)).trans <| (Gen.V9_of m outs c main_v76 (by decide))).trans (V8_main_v76 m outs c)
theorem c10_v86 : (Gen.V10 m outs c main_v86 : Fv S100000) = dinvC (dC m c) :=
  ((Gen.V10_of m outs c main_v86 (by decide)).trans <| (Gen.V9_of m outs c main_v86 (by decide))).trans (V8_main_v86 m outs c)
theorem c10_v2 : (Gen.V10 m outs c main_v2 : Fv S64x256) = dotT (A0 m c) (A5 m c) :=
  ((Gen.V10_of m outs c main_v2 (by decide)).trans <| (Gen.V9_of m outs c main_v2 (by decide)).trans <| (Gen.V8_of m outs c main_v2 (by decide)).trans <| (Gen.V7_of m outs c main_v2 (by decide)).trans <| (Gen.V6_of m outs c main_v2 (by decide)).trans <| (Gen.V5_of m outs c main_v2 (by decide)).trans <| (Gen.V4_of m outs c main_v2 (by decide)).trans <| (Gen.V3_of m outs c main_v2 (by decide)).trans <| (Gen.V2_of m outs c main_v2 (by decide))).trans (V1_main_v2 m c)
theorem c10_v3 : (Gen.V10 m outs c main_v3 : Fv S64x256) = dotT (A1 m c) (A6 m c) :=
  ((Gen.V10_of m outs c main_v3 (by decide)).trans <| (Gen.V9_of m outs c main_v3 (by decide)).trans <| (Gen.V8_of m outs c main_v3 (by decide)).trans <| (Gen.V7_of m outs c main_v3 (by decide)).trans <| (Gen.V6_of m outs c main_v3 (by decide)).trans <| (Gen.V5_of m outs c main_v3 (by decide)).trans <| (Gen.V4_of m outs c main_v3 (by decide)).trans <| (Gen.V3_of m outs c main_v3 (by decide)).trans <| (Gen.V2_of m outs c main_v3 (by decide))).trans (V1_main_v3 m c)
theorem c10_v4 : (Gen.V10 m outs c main_v4 : Fv S64x256) = dotT (A2 m c) (A7 m c) :=
  ((Gen.V10_of m outs c main_v4 (by decide)).trans <| (Gen.V9_of m outs c main_v4 (by decide)).trans <| (Gen.V8_of m outs c main_v4 (by decide)).trans <| (Gen.V7_of m outs c main_v4 (by decide)).trans <| (Gen.V6_of m outs c main_v4 (by decide)).trans <| (Gen.V5_of m outs c main_v4 (by decide)).trans <| (Gen.V4_of m outs c main_v4 (by decide)).trans <| (Gen.V3_of m outs c main_v4 (by decide)).trans <| (Gen.V2_of m outs c main_v4 (by decide))).trans (V1_main_v4 m c)
theorem c10_v68 : (Gen.V10 m outs c main_v68 : Fv S64x256) = poolN (propR (O40 outs c) (sR m c) (dR m c)) (A17 m c) :=
  ((Gen.V10_of m outs c main_v68 (by decide)).trans <| (Gen.V9_of m outs c main_v68 (by decide)).trans <| (Gen.V8_of m outs c main_v68 (by decide)).trans <| (Gen.V7_of m outs c main_v68 (by decide))).trans (V6_main_v68 m outs c)
theorem c10_a19 : Gen.V10 m outs c main_arg19 = A19 m c :=
  (Gen.V10_of m outs c main_arg19 (by decide)).trans <| (Gen.V9_of m outs c main_arg19 (by decide)).trans <| (Gen.V8_of m outs c main_arg19 (by decide)).trans <| (Gen.V7_of m outs c main_arg19 (by decide)).trans <| (Gen.V6_of m outs c main_arg19 (by decide)).trans <| (Gen.V5_of m outs c main_arg19 (by decide)).trans <| (Gen.V4_of m outs c main_arg19 (by decide)).trans <| (Gen.V3_of m outs c main_arg19 (by decide)).trans <| (Gen.V2_of m outs c main_arg19 (by decide)).trans <| (Gen.V1_of m c main_arg19 (by decide))
theorem c10_a20 : Gen.V10 m outs c main_arg20 = A20 m c :=
  (Gen.V10_of m outs c main_arg20 (by decide)).trans <| (Gen.V9_of m outs c main_arg20 (by decide)).trans <| (Gen.V8_of m outs c main_arg20 (by decide)).trans <| (Gen.V7_of m outs c main_arg20 (by decide)).trans <| (Gen.V6_of m outs c main_arg20 (by decide)).trans <| (Gen.V5_of m outs c main_arg20 (by decide)).trans <| (Gen.V4_of m outs c main_arg20 (by decide)).trans <| (Gen.V3_of m outs c main_arg20 (by decide)).trans <| (Gen.V2_of m outs c main_arg20 (by decide)).trans <| (Gen.V1_of m c main_arg20 (by decide))
theorem c10_a12 : Gen.V10 m outs c main_arg12 = A12 m c :=
  (Gen.V10_of m outs c main_arg12 (by decide)).trans <| (Gen.V9_of m outs c main_arg12 (by decide)).trans <| (Gen.V8_of m outs c main_arg12 (by decide)).trans <| (Gen.V7_of m outs c main_arg12 (by decide)).trans <| (Gen.V6_of m outs c main_arg12 (by decide)).trans <| (Gen.V5_of m outs c main_arg12 (by decide)).trans <| (Gen.V4_of m outs c main_arg12 (by decide)).trans <| (Gen.V3_of m outs c main_arg12 (by decide)).trans <| (Gen.V2_of m outs c main_arg12 (by decide)).trans <| (Gen.V1_of m c main_arg12 (by decide))
theorem c10_a13 : Gen.V10 m outs c main_arg13 = A13 m c :=
  (Gen.V10_of m outs c main_arg13 (by decide)).trans <| (Gen.V9_of m outs c main_arg13 (by decide)).trans <| (Gen.V8_of m outs c main_arg13 (by decide)).trans <| (Gen.V7_of m outs c main_arg13 (by decide)).trans <| (Gen.V6_of m outs c main_arg13 (by decide)).trans <| (Gen.V5_of m outs c main_arg13 (by decide)).trans <| (Gen.V4_of m outs c main_arg13 (by decide)).trans <| (Gen.V3_of m outs c main_arg13 (by decide)).trans <| (Gen.V2_of m outs c main_arg13 (by decide)).trans <| (Gen.V1_of m c main_arg13 (by decide))
theorem V11_main_v149 : (Gen.V11 m outs c main_v149 : Fv S64x256)
    = hiddenK (dotT (A0 m c) (A5 m c)) (poolN (propR (O40 outs c) (sR m c) (dR m c)) (A17 m c))
        (poolI (poolG (propC (O104 outs c) (sC m c) (dC m c)) (A19 m c)) (A20 m c)) (dotT (A1 m c) (A6 m c)) (dotT (A2 m c) (A7 m c))
        (A12 m c) (A13 m c) :=
  (h4_v149 (Gen.V10 m outs c) ((c10_v86 m outs c).trans (by rw [c10_v76]))).trans
    (by rw [c10_v2, c10_v68, c10_v104, c10_v75, c10_v76, c10_a19, c10_a20, c10_v3, c10_v4, c10_a12, c10_a13])
theorem V12_main_v150 : (Gen.V12 m outs c main_v150 : Fv S64x256)
    = reluH (hiddenK (dotT (A0 m c) (A5 m c)) (poolN (propR (O40 outs c) (sR m c) (dR m c)) (A17 m c))
        (poolI (poolG (propC (O104 outs c) (sC m c) (dC m c)) (A19 m c)) (A20 m c)) (dotT (A1 m c) (A6 m c)) (dotT (A2 m c) (A7 m c))
        (A12 m c) (A13 m c)) :=
  (h41_v150 (Gen.V11 m outs c)).trans (by rw [V11_main_v149])
theorem c12_a14 : Gen.V12 m outs c main_arg14 = A14 m c :=
  (Gen.V12_of m outs c main_arg14 (by decide)).trans <| (Gen.V11_of m outs c main_arg14 (by decide)).trans <| (Gen.V10_of m outs c main_arg14 (by decide)).trans <| (Gen.V9_of m outs c main_arg14 (by decide)).trans <| (Gen.V8_of m outs c main_arg14 (by decide)).trans <| (Gen.V7_of m outs c main_arg14 (by decide)).trans <| (Gen.V6_of m outs c main_arg14 (by decide)).trans <| (Gen.V5_of m outs c main_arg14 (by decide)).trans <| (Gen.V4_of m outs c main_arg14 (by decide)).trans <| (Gen.V3_of m outs c main_arg14 (by decide)).trans <| (Gen.V2_of m outs c main_arg14 (by decide)).trans <| (Gen.V1_of m c main_arg14 (by decide))
theorem c12_a15 : Gen.V12 m outs c main_arg15 = A15 m c :=
  (Gen.V12_of m outs c main_arg15 (by decide)).trans <| (Gen.V11_of m outs c main_arg15 (by decide)).trans <| (Gen.V10_of m outs c main_arg15 (by decide)).trans <| (Gen.V9_of m outs c main_arg15 (by decide)).trans <| (Gen.V8_of m outs c main_arg15 (by decide)).trans <| (Gen.V7_of m outs c main_arg15 (by decide)).trans <| (Gen.V6_of m outs c main_arg15 (by decide)).trans <| (Gen.V5_of m outs c main_arg15 (by decide)).trans <| (Gen.V4_of m outs c main_arg15 (by decide)).trans <| (Gen.V3_of m outs c main_arg15 (by decide)).trans <| (Gen.V2_of m outs c main_arg15 (by decide)).trans <| (Gen.V1_of m c main_arg15 (by decide))
theorem V13_main_v154 : (Gen.V13 m outs c main_v154 : Fv S64x2)
    = tailK (propR (O40 outs c) (sR m c) (dR m c)) (propC (O104 outs c) (sC m c) (dC m c))
        (A0 m c) (A1 m c) (A2 m c) (A5 m c) (A6 m c) (A7 m c) (A12 m c) (A13 m c) (A14 m c) (A15 m c) (A17 m c) (A19 m c) (A20 m c) :=
  (h42_v154 (Gen.V12 m outs c)).trans
    (by rw [V12_main_v150, c12_a14, c12_a15]; rfl)
/-! ### The results -/
theorem c17_v154 : Gen.V17 m outs c main_v154 = Gen.V13 m outs c main_v154 :=
  (Gen.V17_of m outs c main_v154 (by decide)).trans <| (Gen.V16_of m outs c main_v154 (by decide)).trans <| (Gen.V15_of m outs c main_v154 (by decide)).trans <| (Gen.V14_of m outs c main_v154 (by decide))
/-- The predictions: everything after the two second-layer graph convolutions. -/
theorem V17_main_v154 : (Gen.V17 m outs c main_v154 : Fv S64x2)
    = tailK (propR (O40 outs c) (sR m c) (dR m c)) (propC (O104 outs c) (sC m c) (dC m c))
        (A0 m c) (A1 m c) (A2 m c) (A5 m c) (A6 m c) (A7 m c) (A12 m c) (A13 m c) (A14 m c) (A15 m c) (A17 m c) (A19 m c) (A20 m c) :=
  (c17_v154 m outs c).trans (V13_main_v154 m outs c)
theorem c14_a21 : Gen.V14 m outs c main_arg21 = A21 m c :=
  (Gen.V14_of m outs c main_arg21 (by decide)).trans <| (Gen.V13_of m outs c main_arg21 (by decide)).trans <| (Gen.V12_of m outs c main_arg21 (by decide)).trans <| (Gen.V11_of m outs c main_arg21 (by decide)).trans <| (Gen.V10_of m outs c main_arg21 (by decide)).trans <| (Gen.V9_of m outs c main_arg21 (by decide)).trans <| (Gen.V8_of m outs c main_arg21 (by decide)).trans <| (Gen.V7_of m outs c main_arg21 (by decide)).trans <| (Gen.V6_of m outs c main_arg21 (by decide)).trans <| (Gen.V5_of m outs c main_arg21 (by decide)).trans <| (Gen.V4_of m outs c main_arg21 (by decide)).trans <| (Gen.V3_of m outs c main_arg21 (by decide)).trans <| (Gen.V2_of m outs c main_arg21 (by decide)).trans <| (Gen.V1_of m c main_arg21 (by decide))
theorem V14_main_v155 : (Gen.V14 m outs c main_v155 : Fv S64x2) = logSoftmaxK (Gen.V17 m outs c main_v154) :=
  (h43_v155 (Gen.V13 m outs c)).trans (by rw [c17_v154])
theorem V15_main_v156 : (Gen.V15 m outs c main_v156 : Iv S64x1) = labelCol (A21 m c) :=
  (h44_v156 (Gen.V14 m outs c)).trans (by rw [c14_a21])
theorem c15_v155 : (Gen.V15 m outs c main_v155 : Fv S64x2) = logSoftmaxK (Gen.V17 m outs c main_v154) :=
  ((Gen.V15_of m outs c main_v155 (by decide))).trans (V14_main_v155 m outs c)
theorem V16_main_v157 : (Gen.V16 m outs c main_v157 : Fv S64x1)
    = takeK (logSoftmaxK (Gen.V17 m outs c main_v154)) (labelCol (A21 m c)) :=
  (h45_v157 (Gen.V15 m outs c)).trans (by rw [c15_v155, V15_main_v156])
/-- The loss, as a function of the predictions and the labels. -/
theorem V17_main_v160 : (Gen.V17 m outs c main_v160 : Fv S_) = lossK (Gen.V17 m outs c main_v154) (A21 m c) :=
  (h46_v160 (Gen.V16 m outs c)).trans (by rw [V16_main_v157]; rfl)

end Chain

end Cert.KernelIdeal.HandValue

end
-- ==== Proof.LibAggregateLinear.lean ====
/-
  A linear map commutes with a weighted aggregation, on the extended reals.

  Aggregating rows first and applying a matrix afterwards,
      ∑ k, (∑ e ∈ hits, x e k · a e) · w k ,
  is applying the matrix to every row first and aggregating afterwards,
      ∑ e ∈ hits, (∑ k, x e k · w k) · a e ,
  when every `x e k`, `w k` and `a e` is a real number: over ℝ this is distributivity and an exchange of the two finite sums.
  (With an infinite entry the two sides can differ: distributivity fails at `⊤ + ⊥`.)  The selection of the rows that hit is an
  `if` inside the sum, as a scatter-add read at an index leaves it.

  Also here: the coercion ℝ → EReal commutes with finite sums, and the reciprocal square root of a positive extended real is
  a real number (`⊤ ↦ 0`), so that `if 0 < y then rsqrt (max y ε) else 0` is real for every `y` and `ε`.
-/
import Idealize.ShloMosaic.PureOps.Ideal

noncomputable section

open scoped BigOperators

namespace Idealize.ShloMosaic.AggregateLinear

/-- The coercion of a finite real sum is the sum of the coercions. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_isReal {ι : Type*} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih fun i hi => hf i (Finset.mem_insert_of_mem hi)
    obtain ⟨q, hq⟩ := hf a (Finset.mem_insert_self a s)
    exact ⟨q + r, by rw [Finset.sum_insert ha, hr, hq, EReal.coe_add]⟩

/-- AGGREGATE THEN MAP = MAP THEN AGGREGATE, when every entry is real. -/
theorem aggregate_map_comm {ι κ : Type*} [Fintype ι] [Fintype κ] (x : ι → κ → EReal) (w : κ → EReal) (a : ι → EReal)
    (p : ι → Prop) [DecidablePred p]
    (hx : ∀ e k, ∃ r : ℝ, x e k = r) (hw : ∀ k, ∃ r : ℝ, w k = r) (ha : ∀ e, ∃ r : ℝ, a e = r) :
    ∑ k, (∑ e, if p e then x e k * a e else 0) * w k = ∑ e, if p e then (∑ k, x e k * w k) * a e else 0 := by
  choose X hX using hx
  choose W hW using hw
  choose A hA using ha
  have hl : ∀ k, (∑ e, if p e then x e k * a e else 0) * w k
      = (((∑ e, if p e then X e k * A e else 0) * W k : ℝ) : EReal) := by
    intro k
    rw [EReal.coe_mul, coe_finset_sum, hW]
    refine congrArg (· * (W k : EReal)) (Finset.sum_congr rfl fun e _ => ?_)
    by_cases h : p e
    · rw [if_pos h, if_pos h, hX, hA, EReal.coe_mul]
    · rw [if_neg h, if_neg h, EReal.coe_zero]
  have hr : ∀ e, (if p e then (∑ k, x e k * w k) * a e else 0)
      = (((if p e then (∑ k, X e k * W k) * A e else 0 : ℝ)) : EReal) := by
    intro e
    by_cases h : p e
    · rw [if_pos h, if_pos h, EReal.coe_mul, coe_finset_sum, hA]
      refine congrArg (· * (A e : EReal)) (Finset.sum_congr rfl fun k _ => ?_)
      rw [hX, hW, EReal.coe_mul]
    · rw [if_neg h, if_neg h, EReal.coe_zero]
  simp only [hl, hr, ← coe_finset_sum]
  refine congrArg (fun r : ℝ => (r : EReal)) ?_
  simp only [Finset.sum_mul]
  rw [Finset.sum_comm]
  refine Finset.sum_congr rfl fun e _ => ?_
  by_cases h : p e
  · simp only [if_pos h]
    refine Finset.sum_congr rfl fun k _ => ?_
    ring
  · simp only [if_neg h, zero_mul, Finset.sum_const_zero]

/-- The reciprocal square root of a positive extended real is a real number (`⊤ ↦ 0`). -/
theorem rsqrt_isReal_of_pos (y : EReal) (h : 0 < y) : ∃ r : ℝ, Ideal.rsqrt y = r := by
  induction y using EReal.rec with
  | bot => exact absurd h (not_lt.mpr bot_le)
  | top => exact ⟨0, by rw [Ideal.rsqrt_top, EReal.coe_zero]⟩
  | coe r =>
    have hr : 0 < r := EReal.coe_pos.mp h
    refine ⟨(Real.sqrt r)⁻¹, ?_⟩
    rw [Ideal.rsqrt_coe, if_neg (not_lt.mpr hr.le), if_neg hr.ne']

end Idealize.ShloMosaic.AggregateLinear

end
-- ==== Proof.GcnCore.lean ====
/-
  One normalized graph-convolution layer on the extended reals, abstractly, and the small facts around it.

  A layer aggregates, at every node n, the messages of the edges e that arrive at n. Scaling the node features by a
  per-node factor before the aggregation and the aggregated sum by the factor of n afterwards,
      (0 + ∑ e, if e arrives at n then m e · a e else 0) · c ,
  is scaling every message by both factors,
      0 + ∑ e, if e arrives at n then m e · (a e · b e) else 0 ,
  when the second factor b e of an edge arriving at n is c and every entry is a real number: over ℝ this is
  distributivity. (With an infinite entry distributivity fails at ⊤ + ⊥.)

  Also here: the number of edges arriving at a node, counted as a sum of ones, is a positive real when some edge arrives,
  so its reciprocal square root is real; max(x, 0) of a real is real; a finite sum of products of reals is real; the
  product of three real matrices is associative entry by entry; and a node number read signed that is not negative is left
  alone by the wrap "x + N where x < 0".
-/
import proofs.«154056_j23527830847606_2_alg».proof.Proof.LibAggregateLinear
import Idealize.ShloMosaic.PureOps.Ideal
import Idealize.ShloMosaic.PureOps.Ideal.Laws
import Idealize.ShloMosaic.Lib.ValueIdx

noncomputable section

open scoped BigOperators

namespace Cert.Bridge

open Idealize.ShloMosaic Idealize.ShloMosaic.AggregateLinear Idealize.ShloMosaic.ValueIdx

/-- SCALE, AGGREGATE, SCALE = AGGREGATE THE DOUBLY SCALED MESSAGES, when every entry is real. -/
theorem layer_core {ι : Type*} [Fintype ι] (p : ι → Prop) [DecidablePred p] (m a b : ι → EReal) (c : EReal)
    (hm : ∀ e, ∃ r : ℝ, m e = r) (ha : ∀ e, ∃ r : ℝ, a e = r) (hc : ∃ r : ℝ, c = r) (hb : ∀ e, p e → b e = c) :
    (0 + ∑ e, if p e then m e * a e else 0) * c = 0 + ∑ e, if p e then m e * (a e * b e) else 0 := by
  choose M hM using hm
  choose A hA using ha
  obtain ⟨C, hC⟩ := hc
  have hl : ∀ e, (if p e then m e * a e else 0) = (((if p e then M e * A e else 0 : ℝ)) : EReal) := by
    intro e
    by_cases h : p e
    · rw [if_pos h, if_pos h, hM, hA, EReal.coe_mul]
    · rw [if_neg h, if_neg h, EReal.coe_zero]
  have hr : ∀ e, (if p e then m e * (a e * b e) else 0) = (((if p e then M e * A e * C else 0 : ℝ)) : EReal) := by
    intro e
    by_cases h : p e
    · rw [if_pos h, if_pos h, hb e h, hM, hA, hC, EReal.coe_mul, EReal.coe_mul, mul_assoc]
    · rw [if_neg h, if_neg h, EReal.coe_zero]
  rw [zero_add, zero_add]
  simp only [hl, hr, ← coe_finset_sum]
  rw [hC, ← EReal.coe_mul]
  refine congrArg (fun r : ℝ => (r : EReal)) ?_
  rw [Finset.sum_mul]
  refine Finset.sum_congr rfl fun e _ => ?_
  by_cases h : p e
  · rw [if_pos h, if_pos h]
  · rw [if_neg h, if_neg h, zero_mul]

/-- The scaled aggregate of real messages is real. -/
theorem layer_core_real {ι : Type*} [Fintype ι] (p : ι → Prop) [DecidablePred p] (m a : ι → EReal) (c : EReal)
    (hm : ∀ e, ∃ r : ℝ, m e = r) (ha : ∀ e, ∃ r : ℝ, a e = r) (hc : ∃ r : ℝ, c = r) :
    ∃ r : ℝ, (0 + ∑ e, if p e then m e * a e else 0) * c = r := by
  obtain ⟨C, hC⟩ := hc
  obtain ⟨S, hS⟩ := sum_isReal Finset.univ (fun e => if p e then m e * a e else 0) (fun e _ => by
    by_cases h : p e
    · obtain ⟨x, hx⟩ := hm e
      obtain ⟨y, hy⟩ := ha e
      exact ⟨x * y, by rw [if_pos h, hx, hy, EReal.coe_mul]⟩
    · exact ⟨0, by rw [if_neg h, EReal.coe_zero]⟩)
  exact ⟨S * C, by rw [zero_add, hS, hC, EReal.coe_mul]⟩

/-- A count of at least one edge, as a sum of ones, is a positive real. -/
theorem count_real_pos {ι : Type*} [Fintype ι] (p : ι → Prop) [DecidablePred p] (hp : ∃ e, p e) :
    ∃ r : ℝ, 0 < r ∧ (0 + ∑ e, if p e then (1 : EReal) else 0) = r := by
  refine ⟨∑ e, if p e then (1 : ℝ) else 0, ?_, ?_⟩
  · obtain ⟨e0, he0⟩ := hp
    have hle : (if p e0 then (1 : ℝ) else 0) ≤ ∑ e, if p e then (1 : ℝ) else 0 :=
      Finset.single_le_sum (f := fun e => if p e then (1 : ℝ) else 0)
        (fun e _ => by by_cases h : p e <;> simp [h]) (Finset.mem_univ e0)
    rw [if_pos he0] at hle
    exact lt_of_lt_of_le one_pos hle
  · rw [zero_add, coe_finset_sum]
    refine Finset.sum_congr rfl fun e _ => ?_
    by_cases h : p e
    · rw [if_pos h, if_pos h, EReal.coe_one]
    · rw [if_neg h, if_neg h, EReal.coe_zero]

/-- The reciprocal square root of such a count is real. -/
theorem rsqrt_count_real {ι : Type*} [Fintype ι] (p : ι → Prop) [DecidablePred p] (hp : ∃ e, p e) :
    ∃ r : ℝ, Ideal.rsqrt (0 + ∑ e, if p e then (1 : EReal) else 0) = r := by
  obtain ⟨r, hr, h⟩ := count_real_pos p hp
  exact rsqrt_isReal_of_pos _ (by rw [h]; exact EReal.coe_pos.mpr hr)

/-- max(x, 0) of a real is real. -/
theorem max_zero_real (x : EReal) (hx : ∃ r : ℝ, x = r) : ∃ r : ℝ, max x 0 = r := by
  rcases le_total x 0 with h | h
  · exact ⟨0, by rw [max_eq_right h, EReal.coe_zero]⟩
  · obtain ⟨r, hr⟩ := hx
    exact ⟨r, by rw [max_eq_left h, hr]⟩

/-- A finite sum of products of reals is real. -/
theorem dot_real {κ : Type*} [Fintype κ] (x w : κ → EReal) (hx : ∀ k, ∃ r : ℝ, x k = r) (hw : ∀ k, ∃ r : ℝ, w k = r) :
    ∃ r : ℝ, ∑ k, x k * w k = r :=
  sum_isReal _ _ fun k _ => by
    obtain ⟨a, ha⟩ := hx k
    obtain ⟨b, hb⟩ := hw k
    exact ⟨a * b, by rw [ha, hb, EReal.coe_mul]⟩

/-- (x · T) · w = x · (T · w) for a real row x, a real matrix T and a real column w. -/
theorem dot_assoc {ι κ : Type*} [Fintype ι] [Fintype κ] (x : ι → EReal) (t : ι → κ → EReal) (w : κ → EReal)
    (hx : ∀ i, ∃ r : ℝ, x i = r) (ht : ∀ i j, ∃ r : ℝ, t i j = r) (hw : ∀ j, ∃ r : ℝ, w j = r) :
    ∑ j, (∑ i, x i * t i j) * w j = ∑ i, x i * ∑ j, t i j * w j := by
  choose X hX using hx
  choose T hT using ht
  choose W hW using hw
  have hl : ∀ j, (∑ i, x i * t i j) * w j = (((∑ i, X i * T i j) * W j : ℝ) : EReal) := by
    intro j
    rw [EReal.coe_mul, coe_finset_sum, hW]
    refine congrArg (· * (W j : EReal)) (Finset.sum_congr rfl fun i _ => ?_)
    rw [hX, hT, EReal.coe_mul]
  have hr : ∀ i, x i * ∑ j, t i j * w j = ((X i * ∑ j, T i j * W j : ℝ) : EReal) := by
    intro i
    rw [EReal.coe_mul, coe_finset_sum, hX]
    refine congrArg ((X i : EReal) * ·) (Finset.sum_congr rfl fun j _ => ?_)
    rw [hT, hW, EReal.coe_mul]
  simp only [hl, hr, ← coe_finset_sum]
  refine congrArg (fun r : ℝ => (r : EReal)) ?_
  simp only [Finset.sum_mul, Finset.mul_sum]
  rw [Finset.sum_comm]
  refine Finset.sum_congr rfl fun i _ => Finset.sum_congr rfl fun j _ => ?_
  ring

/-- A node number that, read signed, is not negative is left alone by the wrap "x + N where x < 0". -/
theorem select_slt_zero_of_nonneg (x a : BitVec 32) (hx : 0 ≤ x.toInt) :
    Scalar.select (IntOp.cmpi .slt x 0#32) a x = x := by
  have h : x.slt 0#32 = false := by
    unfold BitVec.slt
    rw [decide_eq_false_iff_not, BitVec.toInt_zero]
    omega
  show Scalar.select (BitVec.ofBool (x.slt 0#32)) a x = x
  rw [h, BitVec.ofBool_false]
  exact select_zero a x

end Cert.Bridge

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.LibSideBySide.lean ====
/-
  Layout and clamp lemmas for any sizes.  Two matrices with the same rows laid side by side, read at a column of
  the first or of the second; a sum over a + b positions split into the first a and the last b; a one-column matrix read
  as a vector; a scalar spread over any shape; the select on the comparison x ≥ 0 as an if-then-else; and the two
  spellings of a leaky clamp (branching on 0 ≤ x or on 0 < x), equal because both give 0 at 0.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx

variable {α : Type}

/-- Two arrays with the same rows laid side by side: a column in the first a columns reads the first array. -/
theorem sideBySide_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin a) (hk : k'.val = k.val) :
    concatenate (⟨2, ![n, c]⟩ : Shape) (1 : Fin 2) [⟨⟨2, ![n, a]⟩, x⟩, ⟨⟨2, ![n, b]⟩, y⟩] h (ix2 p k) = x (ix2 p k') :=
  concatenate_pair_apply_left (1 : Fin 2) x y h (ix2 p k) rfl (ix2 p k') (fun d => match d with
    | ⟨0, _⟩ => rfl
    | ⟨1, _⟩ => hk)

/-- Two arrays with the same rows laid side by side: a column past the first a reads the second array, a columns
    earlier. -/
theorem sideBySide_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin b) (hk : k'.val + a = k.val) :
    concatenate (⟨2, ![n, c]⟩ : Shape) (1 : Fin 2) [⟨⟨2, ![n, a]⟩, x⟩, ⟨⟨2, ![n, b]⟩, y⟩] h (ix2 p k) = y (ix2 p k') :=
  concatenate_pair_apply_right (1 : Fin 2) x y h (ix2 p k) rfl rfl (ix2 p k') (fun d hd => match d, hd with
    | ⟨0, _⟩, _ => rfl
    | ⟨1, _⟩, hd => absurd rfl hd) hk

/-- A sum over a + b positions is the sum over the first a plus the sum over the last b. -/
theorem sum_split {M : Type*} [AddCommMonoid M] {a b c : Nat} (hc : a + b = c) (f : Fin c → M) :
    ∑ k : Fin c, f k = (∑ k : Fin a, f ⟨k.val, by omega⟩) + ∑ k : Fin b, f ⟨a + k.val, by omega⟩ := by
  subst hc
  rw [Fin.sum_univ_add]
  rfl

/-- A one-column matrix read as a vector: entry p is the matrix's entry (p, 0). -/
theorem colAsVec_apply {a : Nat} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A scalar spread over any shape reads the scalar everywhere. -/
theorem splat_apply {t : Shape} (h : (⟨0, ![]⟩ : Shape).BroadcastsInDim t (![] : Fin 0 → Fin t.rank))
    (x : (⟨0, ![]⟩ : Shape).Idx → α) (j : t.Idx) : broadcastInDim t (![] : Fin 0 → Fin t.rank) h x j = x ix0 :=
  broadcastInDim_apply (![] : Fin 0 → Fin t.rank) h x j ix0 (fun a => a.elim0)

/-- The two leaky clamps agree: at 0 one takes the branch x, the other c · x, and both are 0. -/
theorem leaky_of_ge (c x : EReal) : (if 0 ≤ x then x else c * x) = (if 0 < x then x else c * x) := by
  by_cases h : 0 < x
  · rw [if_pos h, if_pos h.le]
  · rw [if_neg h]
    by_cases h0 : 0 ≤ x
    · have hx : x = 0 := le_antisymm (not_lt.mp h) h0
      rw [if_pos h0, hx, mul_zero]
    · rw [if_neg h0]

/-- A select on the comparison "x ≥ 0" (0 as its f32 pattern) is the if-then-else on 0 ≤ x. -/
theorem select_oge_zero {β : Type} (x : EReal) (a b : β) :
    Scalar.select (FloatOps.cmpf (F := Ideal) (φ := .f32) .oge x (Ideal.ofBits .f32 0x00000000#32)) a b
      = if 0 ≤ x then a else b := by
  rw [Ideal.ofBits_zero_f32]
  show Scalar.select (Ideal.cmp .oge x 0) a b = _
  unfold Ideal.cmp
  by_cases h : (0 : EReal) ≤ x
  · rw [if_pos h]; simp only [decide_eq_true h, BitVec.ofBool_true]; exact select_one a b
  · rw [if_neg h]; simp only [decide_eq_false h, BitVec.ofBool_false]; exact select_zero a b

end Cert.Bridge

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.GcnLayer.lean ====
/-
  The parts of the two programs' graph convolutions that do not depend on the graph, read at an index.

  The three matrix products: the kernel program multiplies the two weight matrices first (dotW), the reference multiplies
  the features by the first weight matrix (dotX) and the result by the second (dotH); each, read at (p, q) on the
  extended reals, is the sum over the contracted position of the products of the entries. A per-node scalar repeated along
  the features reads the scalar of the row; the zero matrix reads 0; max(x, 0) entry by entry reads max(x, 0). The
  reference's zero matrix and max(x, 0) are the kernel program's.
-/
import proofs.«154056_j23527830847606_2_alg».proof.Proof.Spec
import proofs.«154056_j23527830847606_2_alg».proof.Proof.GcnCore
import proofs.«154056_j23527830847606_2_alg».proof.Proof.LibBroadcastInDim2
import proofs.«154056_j23527830847606_2_alg».proof.Proof.LibSideBySide
import proofs.«154056_j23527830847606_2_alg».proof.Proof.LibPlainDot
import Idealize.ShloMosaic.Lib.IdealHost

noncomputable section

open scoped BigOperators

open Idealize.ShloMosaic Idealize.ShloMosaic.ValueIdx

namespace Cert.Spec.K
open Cert.KernelIdeal Cert.KernelIdeal.Facts₀ Cert.KernelIdeal.Facts

/-- The kernel program's product of the two weight matrices, W_text · W1. -/
abbrev dotW (Wt : Fv S768x256) (Wa : Fv S256x256) : Fv S768x256 :=
  Host.dotGeneral (F := Ideal) dot_S768x256_S256x256_S768x256_1_0_0_1_n_n (some .fp32) Wt Wa

end Cert.Spec.K

namespace Cert.Spec.R
open Cert.ReferenceIdeal Cert.ReferenceIdeal.Facts₀ Cert.ReferenceIdeal.Facts

/-- The reference's product of the features and the first weight matrix, x · W_text. -/
abbrev dotX (X : Fv S100000x768) (Wt : Fv S768x256) : Fv S100000x256 :=
  Host.dotGeneral (F := Ideal) dot_S100000x768_S768x256_S100000x256_1_0_0_1_n_n none X Wt

/-- The reference's product of node features and a square weight matrix, h · W. -/
abbrev dotH (H : Fv S100000x256) (W : Fv S256x256) : Fv S100000x256 :=
  Host.dotGeneral (F := Ideal) dot_S100000x256_S256x256_S100000x256_1_0_0_1_n_n none H W

end Cert.Spec.R

namespace Cert.Bridge

open Cert.Spec Idealize.ShloMosaic.BroadcastInDim2

/-- W_text · W1 at (p, q). -/
theorem dotW_apply (Wt : K.Fv Cert.KernelIdeal.S768x256) (Wa : K.Fv Cert.KernelIdeal.S256x256) (p : Fin 768) (q : Fin 256) :
    K.dotW Wt Wa (ix2 p q) = ∑ k : Fin 256, Wt (ix2 p k) * Wa (ix2 k q) :=
  dotGeneral_plain _ rfl rfl rfl rfl rfl rfl _ _ Wt Wa p q

/-- x · W_text at (p, q). -/
theorem dotX_apply (X : R.Fv Cert.ReferenceIdeal.S100000x768) (Wt : R.Fv Cert.ReferenceIdeal.S768x256) (p : Fin 100000)
    (q : Fin 256) : R.dotX X Wt (ix2 p q) = ∑ k : Fin 768, X (ix2 p k) * Wt (ix2 k q) :=
  dotGeneral_plain _ rfl rfl rfl rfl rfl rfl _ _ X Wt p q

/-- h · W at (p, q). -/
theorem dotH_apply (H : R.Fv Cert.ReferenceIdeal.S100000x256) (W : R.Fv Cert.ReferenceIdeal.S256x256) (p : Fin 100000)
    (q : Fin 256) : R.dotH H W (ix2 p q) = ∑ k : Fin 256, H (ix2 p k) * W (ix2 k q) :=
  dotGeneral_plain _ rfl rfl rfl rfl rfl rfl _ _ H W p q

/-- A per-node scalar repeated along the features, at (n, k): the scalar of node n. -/
theorem spread_apply (v : K.Fv Cert.KernelIdeal.S100000) (n : Fin 100000) (k : Fin 256) :
    K.spread v (ix2 n k) = v (ix1 n) := by
  unfold K.spread
  rw [colToMat_apply, vecToCol_apply]

/-- The kernel program's zero matrix reads 0. -/
theorem zerosK_apply (j : Cert.KernelIdeal.S100000x256.Idx) : K.zerosN j = 0 := by
  unfold K.zerosN
  rw [splat_apply]
  exact Ideal.ofBits_zero_f32

/-- The kernel program's max(x, 0), entry by entry. -/
theorem reluK_apply (x : K.Fv Cert.KernelIdeal.S100000x256) (j : Cert.KernelIdeal.S100000x256.Idx) :
    K.reluN x j = max (x j) 0 := by
  show max (x j) (K.zerosN j) = _
  rw [zerosK_apply]

/-- The reference's zero matrix is the kernel program's. -/
theorem zerosR_eq : R.zerosN = K.zerosN := rfl

/-- The reference's max(x, 0) is the kernel program's. -/
theorem reluR_eq (x : K.Fv Cert.KernelIdeal.S100000x256) : R.reluN x = K.reluN x := rfl

end Cert.Bridge

end
-- ==== Proof.LibRowGatherScatter.lean ====
/-
  Row gather and row scatter-add, read at an index.

  `x[idx]` of a matrix `x : [N, C]` at a vector of `E` row numbers lowers to `stablehlo.gather` with offset_dims [1],
  collapsed_slice_dims [0], start_index_map [0], index_vector_dim 1 and slice sizes [1, C] over the row numbers as an
  `[E, 1]` array: result element `(e, k)` is `x` at row `idx[e, 0]` — read signed and clamped into `[0, N − 1]` — and
  column `k` (`gather_rows_apply`).

  `segment_sum(u, idx)` of updates `u : [E, C]` into `[N, C]` lowers to `stablehlo.scatter` with an `add` body,
  update_window_dims [1], inserted_window_dims [0], scatter_dims_to_operand_dims [0], index_vector_dim 1: at the extended
  reals element `(n, c)` of the result is the operand's plus the sum, over the rows `e` whose row number `idx[e, 0]`, read
  signed and NOT clamped, is `n`, of `u (e, c)` (`scatterAdd_rows_apply`). A row number outside `[0, N)` lands nowhere.

  Both for any sizes `N`, `E`, `C` and any index width.
-/
import Idealize.ShloMosaic.Lib.ValueIdx
import Idealize.ShloMosaic.PureOps.Ideal.Laws

noncomputable section

open scoped BigOperators

namespace Idealize.ShloMosaic.RowIndexing

open Idealize.ShloMosaic Idealize.ShloMosaic.ValueIdx

/-- The entry `[e, 0]` of an `[E, 1]` array of row numbers. -/
abbrev rowAt {E : Nat} (e : Fin E) : (⟨2, ![E, 1]⟩ : Shape).Idx := ix2 e (⟨0, Nat.one_pos⟩ : Fin 1)

/-! ## The gather of whole rows -/

section Gather
variable {α : Type}

/-- The dimension numbers of a gather of whole rows of an `[N, C]` operand at `[E, 1]` row numbers. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]`, read signed and clamped into `[0, N − 1]`, column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (rowAt e)).toInt.toNat (N - 1), by omega⟩ : Fin N) k) := by
  unfold Host.gather
  refine congrArg x ?_
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = rowAt e := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        fun h => absurd (List.mem_singleton.mp h) (show ¬ ((1 : Fin 2) = 0) by decide))]
    have ho : (rowGatherDims N E C wf).offCoord (ix2 e k) 1 = k.val := by
      unfold GatherDims.offCoord
      rw [dif_pos (show (1 : Fin 2) ∈ (rowGatherDims N E C wf).sKept from (GatherDims.mem_sKept _ _).mpr
        ⟨fun h => absurd (List.mem_singleton.mp h) (show ¬ ((1 : Fin 2) = 0) by decide), List.not_mem_nil⟩)]
      rfl
    rw [hs, ho, Nat.add_zero, Nat.zero_add]

end Gather

/-! ## The scatter-add of whole rows -/

section Scatter

/-- The dimension numbers of a scatter of `[E, C]` update rows into an `[N, C]` operand at `[E, 1]` row numbers. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the window of update `(e, k)` starts at the row number `idx[e, 0]`, read signed. -/
theorem rowScatter_start0 : (rowScatterDims N E C wf).start (ix2 e k) idx 0 = (idx (rowAt e)).toInt := by
  unfold ScatterDims.start
  rw [dif_pos (show (0 : Fin 2) ∈ (rowScatterDims N E C wf).scatterDimsToOperandDims from List.mem_singleton.mpr rfl)]
  have hsi : (rowScatterDims N E C wf).siIdx (ix2 e k) ⟨List.idxOf (0 : Fin 2) (rowScatterDims N E C wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

/-- On the column axis it starts at `0`. -/
theorem rowScatter_start1 : (rowScatterDims N E C wf).start (ix2 e k) idx 1 = 0 := by
  unfold ScatterDims.start
  rw [dif_neg (show ¬ (1 : Fin 2) ∈ (rowScatterDims N E C wf).scatterDimsToOperandDims from
    fun h => absurd (List.mem_singleton.mp h) (show ¬ ((1 : Fin 2) = 0) by decide))]

/-- The row axis is inserted: the window coordinate there is `0`. -/
theorem rowScatter_window0 : (rowScatterDims N E C wf).window (ix2 e k) 0 = 0 := by
  unfold ScatterDims.window
  rw [dif_neg]
  intro h
  have : (0 : Fin 2) ∈ (List.finRange 2).filter (fun a => a ∉ [(0 : Fin 2)]) := h
  simp at this

/-- On the column axis the window coordinate is the update's column. -/
theorem rowScatter_window1 : (rowScatterDims N E C wf).window (ix2 e k) 1 = k.val := by
  unfold ScatterDims.window
  rw [dif_pos]
  · rfl
  · show (1 : Fin 2) ∈ (List.finRange 2).filter (fun a => a ∉ [(0 : Fin 2)])
    simp

/-- Update `(e, k)` lands at `(n, c)` exactly when its row number, read signed, is `n` and `k = c`. -/
theorem rowScatter_resultIdx_eq_some_iff (n : Fin N) (c : Fin C) :
    (rowScatterDims N E C wf).resultIdx? (ix2 e k) idx = some (ix2 n c)
      ↔ (idx (rowAt e)).toInt = (n.val : Int) ∧ k = c := by
  have hs0 := rowScatter_start0 wf idx e k
  have hs1 := rowScatter_start1 wf idx e k
  have hw0 := rowScatter_window0 wf e k
  have hw1 := rowScatter_window1 wf e k
  have hn : n.val < N := n.isLt
  have hk : k.val < C := k.isLt
  unfold ScatterDims.resultIdx?
  split
  · rename_i h
    rw [Option.some.injEq]
    constructor
    · intro heq
      have e0 := congrArg Fin.val (congrFun heq 0)
      have e1 := congrArg Fin.val (congrFun heq 1)
      have h0 := (h 0).1
      simp only [hs0, hw0, hs1, hw1] at e0 e1 h0
      have e0' : ((idx (rowAt e)).toInt + ((0 : Nat) : Int)).toNat = n.val := e0
      have e1' : ((0 : Int) + (k.val : Int)).toNat = c.val := e1
      refine ⟨by omega, Fin.ext (by omega)⟩
    · rintro ⟨h0, rfl⟩
      funext a
      refine Fin.ext ?_
      match a with
      | ⟨0, _⟩ =>
        show ((rowScatterDims N E C wf).start (ix2 e k) idx 0 + ((rowScatterDims N E C wf).window (ix2 e k) 0 : Nat)).toNat = n.val
        rw [hs0, hw0, h0]; omega
      | ⟨1, _⟩ =>
        show ((rowScatterDims N E C wf).start (ix2 e k) idx 1 + ((rowScatterDims N E C wf).window (ix2 e k) 1 : Nat)).toNat = k.val
        rw [hs1, hw1]; omega
  · rename_i h
    constructor
    · intro heq; exact absurd heq (by simp)
    · rintro ⟨h0, rfl⟩
      exfalso
      apply h
      intro a
      match a with
      | ⟨0, _⟩ =>
        show 0 ≤ (rowScatterDims N E C wf).start (ix2 e k) idx 0 + ((rowScatterDims N E C wf).window (ix2 e k) 0 : Nat)
          ∧ (rowScatterDims N E C wf).start (ix2 e k) idx 0 + ((rowScatterDims N E C wf).window (ix2 e k) 0 : Nat) < (N : Int)
        rw [hs0, hw0, h0]; omega
      | ⟨1, _⟩ =>
        show 0 ≤ (rowScatterDims N E C wf).start (ix2 e k) idx 1 + ((rowScatterDims N E C wf).window (ix2 e k) 1 : Nat)
          ∧ (rowScatterDims N E C wf).start (ix2 e k) idx 1 + ((rowScatterDims N E C wf).window (ix2 e k) 1 : Nat) < (C : Int)
        rw [hs1, hw1]; omega

/-- THE ROW SCATTER-ADD READ AT `(n, c)`, on the extended reals: the operand there plus the sum over the update rows whose row
    number, read signed, is `n`, of the update at column `c`. -/
theorem scatterAdd_rows_apply {φ : FTy} (x : FVec Ideal ⟨2, ![N, C]⟩ φ) (upd : FVec Ideal ⟨2, ![E, C]⟩ φ) (n : Fin N) (c : Fin C) :
    Host.scatterAdd (rowScatterDims N E C wf) x idx upd (ix2 n c)
      = x (ix2 n c) + ∑ e : Fin E, if (idx (rowAt e)).toInt = (n.val : Int) then upd (ix2 e c) else 0 := by
  show x (ix2 n c) + ∑ j ∈ Finset.univ.filter (fun j => (rowScatterDims N E C wf).resultIdx? j idx = some (ix2 n c)), upd j = _
  refine congrArg (x (ix2 n c) + ·) ?_
  rw [Finset.sum_filter, sum_idx2]
  refine Finset.sum_congr rfl fun e _ => ?_
  simp only [rowScatter_resultIdx_eq_some_iff]
  by_cases h : (idx (rowAt e)).toInt = (n.val : Int)
  · simp only [h, true_and, if_true]
    rw [Finset.sum_ite_eq' Finset.univ c (fun k => upd (ix2 e k))]
    simp
  · simp [h]

end Scatter

end Idealize.ShloMosaic.RowIndexing

end
-- ==== Proof.LibVecGatherScatter.lean ====
/-
  Gather from a vector and scatter-add into a vector, read at an index.

  `v[idx]` of a vector `v : [N]` at `E` positions lowers to `stablehlo.gather` with no offset axis, collapsed_slice_dims [0],
  start_index_map [0], index_vector_dim 1 and slice sizes [1] over the positions as an `[E, 1]` array: result element `e`
  is `v` at position `idx[e, 0]`, read signed and clamped into `[0, N − 1]` (`gather_vec_apply`).

  `segment_sum(u, idx)` of updates `u : [E]` into `[N]` lowers to `stablehlo.scatter` with an `add` body, no update window
  axis, inserted_window_dims [0], scatter_dims_to_operand_dims [0], index_vector_dim 1: at the extended reals element `n` of
  the result is the operand's plus the sum, over the updates `e` whose position `idx[e, 0]`, read signed and NOT clamped,
  is `n`, of `u e` (`scatterAdd_vec_apply`). A position outside `[0, N)` lands nowhere.

  Both for any sizes `N`, `E` and any index width. Also: a sum over the indices of a rank-1 shape is the sum over its
  coordinate (`sum_idx1`).
-/
import Idealize.ShloMosaic.Lib.ValueIdx
import Idealize.ShloMosaic.PureOps.Ideal.Laws

noncomputable section

open scoped BigOperators

namespace Idealize.ShloMosaic.VecIndexing

open Idealize.ShloMosaic Idealize.ShloMosaic.ValueIdx

/-- A rank-1 index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The entry `[e, 0]` of an `[E, 1]` array of positions. -/
abbrev posAt {E : Nat} (e : Fin E) : (⟨2, ![E, 1]⟩ : Shape).Idx := ix2 e (⟨0, Nat.one_pos⟩ : Fin 1)

/-! ## The gather of single entries -/

section Gather
variable {α : Type}

/-- The dimension numbers of a gather of single entries of an `[N]` operand at `[E, 1]` positions. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at position `idx[e, 0]`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (posAt e)).toInt.toNat (N - 1), by omega⟩ : Fin N)) := by
  unfold Host.gather
  refine congrArg x ?_
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = posAt e := by
      funext b; refine Fin.ext ?_
      match b with
      | ⟨0, _⟩ => rfl
      | ⟨1, _⟩ => rfl
    rw [hsi]
    rfl

end Gather

/-! ## The scatter-add of single entries -/

section Scatter

/-- The dimension numbers of a scatter of `[E]` updates into an `[N]` operand at `[E, 1]` positions. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the position `idx[e, 0]`, read signed. -/
theorem vecScatter_start0 : (vecScatterDims N E wf).start (ix1 e) idx 0 = (idx (posAt e)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = posAt e := by
    funext b; refine Fin.ext ?_
    match b with
    | ⟨0, _⟩ => rfl
    | ⟨1, _⟩ => rfl
  rw [hsi]

/-- The one axis is inserted: the window coordinate there is `0`. -/
theorem vecScatter_window0 : (vecScatterDims N E wf).window (ix1 e) 0 = 0 := by
  unfold ScatterDims.window
  rw [dif_neg]
  intro h
  have : (0 : Fin 1) ∈ (List.finRange 1).filter (fun a => a ∉ [(0 : Fin 1)]) := h
  simp at this

/-- Update `e` lands at `n` exactly when its position, read signed, is `n`. -/
theorem vecScatter_resultIdx_eq_some_iff (n : Fin N) :
    (vecScatterDims N E wf).resultIdx? (ix1 e) idx = some (ix1 n) ↔ (idx (posAt e)).toInt = (n.val : Int) := by
  have hs0 := vecScatter_start0 wf idx e
  have hw0 := vecScatter_window0 wf e
  have hn : n.val < N := n.isLt
  unfold ScatterDims.resultIdx?
  split
  · rename_i h
    rw [Option.some.injEq]
    constructor
    · intro heq
      have e0 := congrArg Fin.val (congrFun heq 0)
      have h0 := (h 0).1
      simp only [hs0, hw0] at e0 h0
      have e0' : ((idx (posAt e)).toInt + ((0 : Nat) : Int)).toNat = n.val := e0
      omega
    · intro h0
      funext a
      refine Fin.ext ?_
      match a with
      | ⟨0, _⟩ =>
        show ((vecScatterDims N E wf).start (ix1 e) idx 0 + ((vecScatterDims N E wf).window (ix1 e) 0 : Nat)).toNat = n.val
        rw [hs0, hw0, h0]; omega
  · rename_i h
    constructor
    · intro heq; exact absurd heq (by simp)
    · intro h0
      exfalso
      apply h
      intro a
      match a with
      | ⟨0, _⟩ =>
        show 0 ≤ (vecScatterDims N E wf).start (ix1 e) idx 0 + ((vecScatterDims N E wf).window (ix1 e) 0 : Nat)
          ∧ (vecScatterDims N E wf).start (ix1 e) idx 0 + ((vecScatterDims N E wf).window (ix1 e) 0 : Nat) < (N : Int)
        rw [hs0, hw0, h0]; omega

/-- THE VECTOR SCATTER-ADD READ AT `n`, on the extended reals: the operand there plus the sum over the updates whose position,
    read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e : Fin E, if (idx (posAt e)).toInt = (n.val : Int) then upd (ix1 e) else 0 := by
  show x (ix1 n) + ∑ j ∈ Finset.univ.filter (fun j => (vecScatterDims N E wf).resultIdx? j idx = some (ix1 n)), upd j = _
  refine congrArg (x (ix1 n) + ·) ?_
  rw [Finset.sum_filter, sum_idx1]
  refine Finset.sum_congr rfl fun e _ => ?_
  simp only [vecScatter_resultIdx_eq_some_iff]

end Scatter

end Idealize.ShloMosaic.VecIndexing

end
-- ==== Proof.LibVecConcat.lean ====
/-
  Two vectors laid end to end, read at an index, and a sum over `Fin n` split at a cut.

  The concatenation of `x : [a]` and `y : [b]` along their one axis, of total length `n`, is `x` at a position below `a`
  (`concat_vec_left`) and `y` at `a + q` (`concat_vec_right`); a sum over `Fin n` with `a + b = n` is the sum over the first
  `a` positions plus the sum over the last `b` (`sum_fin_split`). For any sizes.
-/
import Idealize.ShloMosaic.Lib.ValueIdx
import Idealize.ShloMosaic.Lib.Pipeline.Value

open scoped BigOperators

namespace Idealize.ShloMosaic.VecConcat

open Idealize.ShloMosaic Idealize.ShloMosaic.ValueIdx

variable {α : Type}

/-- A position in the first piece reads the first vector there. -/
theorem concat_vec_left {a b n : Nat} (x : (⟨1, ![a]⟩ : Shape).Idx → α) (y : (⟨1, ![b]⟩ : Shape).Idx → α)
    (h : Shape.Concatenates [(⟨1, ![a]⟩ : Shape), ⟨1, ![b]⟩] ⟨1, ![n]⟩ 0) (p : Fin a) (hp : p.val < n) :
    concatenate (⟨1, ![n]⟩ : Shape) 0 [⟨⟨1, ![a]⟩, x⟩, ⟨⟨1, ![b]⟩, y⟩] h (ix1 (⟨p.val, hp⟩ : Fin n)) = x (ix1 p) :=
  concatenate_pair_apply_left 0 x y h (ix1 (⟨p.val, hp⟩ : Fin n)) rfl (ix1 p) (fun d => match d with | ⟨0, _⟩ => rfl)

/-- A position `a + q` reads the second vector at `q`. -/
theorem concat_vec_right {a b n : Nat} (x : (⟨1, ![a]⟩ : Shape).Idx → α) (y : (⟨1, ![b]⟩ : Shape).Idx → α)
    (h : Shape.Concatenates [(⟨1, ![a]⟩ : Shape), ⟨1, ![b]⟩] ⟨1, ![n]⟩ 0) (q : Fin b) (hq : a + q.val < n) :
    concatenate (⟨1, ![n]⟩ : Shape) 0 [⟨⟨1, ![a]⟩, x⟩, ⟨⟨1, ![b]⟩, y⟩] h (ix1 (⟨a + q.val, hq⟩ : Fin n)) = y (ix1 q) :=
  concatenate_pair_apply_right 0 x y h (ix1 (⟨a + q.val, hq⟩ : Fin n)) rfl rfl (ix1 q)
    (fun d => match d with | ⟨0, _⟩ => fun hd => absurd rfl hd)
    (by show q.val + a = a + q.val; omega)

/-- A sum over `Fin n` split at `a`. -/
theorem sum_fin_split {M : Type*} [AddCommMonoid M] {a b n : Nat} (hn : a + b = n) (f : Fin n → M) :
    ∑ e : Fin n, f e = ∑ p : Fin a, f ⟨p.val, by omega⟩ + ∑ q : Fin b, f ⟨a + q.val, by omega⟩ := by
  subst hn
  rw [Fin.sum_univ_add]
  rfl

end Idealize.ShloMosaic.VecConcat
-- ==== Proof.GcnBridgeR.lean ====
/-
  The two normalized graph-convolution layers on the R graph agree.

  Read at (n, k), the kernel program's layer is (0 + the sum, over the edges e whose destination read signed is n, of
  (h · dinv)(g e, k)) · dinv n, where g e is the wrapped source of e read signed and clamped; the reference's is 0 + the
  sum over the same edges of h (g e, k) · (dinv (g e) · dinv (the wrapped destination of e, clamped)). An edge whose
  destination read signed is n, a node number in [0, 100000), has its wrap and its clamp leave n alone, so the second
  factor is dinv n and comes out of the sum. Every node has its self-loop, so its degree counts at least one edge and
  dinv is real; with real features every entry is real and distributivity holds.

  Two layers: the kernel program's first product x · (W_text · W1) is the reference's (x · W_text) · W1 by associativity
  over the reals; the layer lemma, max(x, 0) of reals, the second product and the layer lemma again give the rest.
-/
import proofs.«154056_j23527830847606_2_alg».proof.Proof.GcnLayer
import proofs.«154056_j23527830847606_2_alg».proof.Proof.LibRowGatherScatter
import proofs.«154056_j23527830847606_2_alg».proof.Proof.LibVecGatherScatter
import proofs.«154056_j23527830847606_2_alg».proof.Proof.LibVecConcat

noncomputable section

open scoped BigOperators

open Idealize.ShloMosaic Idealize.ShloMosaic.ValueIdx

namespace Cert.Bridge

open Cert.Spec Idealize.ShloMosaic.BroadcastInDim2 Idealize.ShloMosaic.RowIndexing Idealize.ShloMosaic.VecIndexing
open Cert.KernelIdeal Cert.KernelIdeal.Facts₀ Cert.KernelIdeal.Facts

/-! ## The programs' dimension records are the canonical ones -/

theorem scatterRowsR_eq : scatter_S100000x256_S500000x1_S500000x256_1_0_0_1
    = rowScatterDims 100000 500000 256 scatter_S100000x256_S500000x1_S500000x256_1_0_0_1_wf := rfl

theorem gatherRowsR_eq : gather_S100000x256_S500000x1_S500000x256_1_0_n_n_0_1_1256
    = rowGatherDims 100000 500000 256 gather_S100000x256_S500000x1_S500000x256_1_0_n_n_0_1_1256_wf := rfl

theorem scatterVecR_eq : scatter_S100000_S500000x1_S500000_n_0_0_1
    = vecScatterDims 100000 500000 scatter_S100000_S500000x1_S500000_n_0_0_1_wf := rfl

theorem gatherVecR_eq : Cert.ReferenceIdeal.gather_S100000_S500000x1_S500000_n_0_n_n_0_1_1
    = vecGatherDims 100000 500000 Cert.ReferenceIdeal.Facts₀.gather_S100000_S500000x1_S500000_n_0_n_n_0_1_1_wf := rfl

/-! ## The reference's index arithmetic and degrees are the kernel program's -/

theorem wrapR_eq (x : K.Iv S500000) : R.wrapR x = K.wrapR x := rfl
theorem colR_eq (x : K.Iv S500000) : R.colR x = K.colR x := rfl
theorem dinvR_eq (d : K.Iv S500000) : R.dinvR d = K.dinvR d := rfl
theorem srcR_eq (ei : K.Iv S2x400000) : R.srcR ei = K.srcR ei := rfl
theorem dstR_eq (ei : K.Iv S2x400000) : R.dstR ei = K.dstR ei := rfl

/-! ## Index arithmetic -/

/-- A list of node numbers as a one-column matrix, at (e, 0): entry e of the list. -/
theorem colR_apply (x : K.Iv S500000) (e : Fin 500000) (z : Fin 1) : K.colR x (ix2 e z) = x (ix1 e) := by
  unfold K.colR
  rw [vecToCol_apply]

/-- The wrap leaves a node number that is not negative alone. -/
theorem wrapR_apply_of_nonneg (x : K.Iv S500000) (e : Fin 500000) (h : 0 ≤ (x (ix1 e)).toInt) :
    K.wrapR x (ix1 e) = x (ix1 e) := by
  have hz : broadcastInDim S500000 ![] bcast_S_S500000 (constantI S_ 32 0#32) (ix1 e) = 0#32 := splat_apply _ _ _
  unfold K.wrapR
  rw [select_apply]
  show Scalar.select (IntOp.cmpi .slt (x (ix1 e)) (broadcastInDim S500000 ![] bcast_S_S500000 (constantI S_ 32 0#32) (ix1 e))) _ (x (ix1 e)) = _
  rw [hz]
  exact select_slt_zero_of_nonneg _ _ h

/-- The row that edge e gathers: its wrapped node number, read signed and clamped into [0, 99999]. -/
def rowR (x : K.Iv S500000) (e : Fin 500000) : Fin 100000 :=
  ⟨min (K.wrapR x (ix1 e)).toInt.toNat (100000 - 1), by omega⟩

/-- An edge whose node number read signed is n gathers row n. -/
theorem rowR_of_eq (x : K.Iv S500000) (e : Fin 500000) (n : Fin 100000) (h : (x (ix1 e)).toInt = (n.val : Int)) :
    rowR x e = n := by
  have hn := n.isLt
  refine Fin.ext ?_
  show min (K.wrapR x (ix1 e)).toInt.toNat (100000 - 1) = n.val
  rw [wrapR_apply_of_nonneg x e (by omega), h]
  omega

/-! ## Degrees -/

/-- The degree of node n: the number of edges whose wrapped destination read signed is n, as a sum of ones. -/
theorem degR_apply (d : K.Iv S500000) (n : Fin 100000) :
    K.degR d (ix1 n) = 0 + ∑ e : Fin 500000, if (K.wrapR d (ix1 e)).toInt = (n.val : Int) then (1 : EReal) else 0 := by
  unfold K.degR
  rw [scatterVecR_eq, scatterAdd_vec_apply]
  refine congrArg₂ (fun a b : EReal => a + b) ?_ (Finset.sum_congr rfl fun e _ => ?_)
  · rw [splat_apply, constant_apply]
    exact Ideal.ofBits_zero_f32
  · rw [colR_apply, splat_apply, constant_apply, Ideal.ofBits_one_f32]

/-- dinv of node n is the reciprocal square root of its degree. -/
theorem dinvR_apply (d : K.Iv S500000) (n : Fin 100000) : K.dinvR d (ix1 n) = Ideal.rsqrt (K.degR d (ix1 n)) :=
  Ideal.hostUnary_rsqrt_def (K.degR d (ix1 n))

/-- With a self-loop at every node, dinv is real. -/
theorem dinvR_real (d : K.Iv S500000) (hloop : ∀ n : Fin 100000, ∃ e : Fin 500000, (d (ix1 e)).toInt = (n.val : Int))
    (n : Fin 100000) : ∃ r : ℝ, K.dinvR d (ix1 n) = r := by
  rw [dinvR_apply, degR_apply]
  refine rsqrt_count_real _ ?_
  obtain ⟨e, he⟩ := hloop n
  exact ⟨e, by rw [wrapR_apply_of_nonneg d e (by omega)]; exact he⟩

/-! ## The gathers -/

/-- The rows gathered at the wrapped node numbers, at (e, k): row rowR of edge e, column k. -/
theorem gatherRowsR_apply (x : K.Fv S100000x256) (s : K.Iv S500000) (e : Fin 500000) (k : Fin 256) :
    Host.gather gather_S100000x256_S500000x1_S500000x256_1_0_n_n_0_1_1256 x (K.colR (K.wrapR s)) (ix2 e k)
      = x (ix2 (rowR s e) k) := by
  rw [gatherRowsR_eq, gather_rows_apply (by norm_num)]
  refine congrArg (fun r : Fin 100000 => x (ix2 r k)) (Fin.ext ?_)
  show min (K.colR (K.wrapR s) (rowAt e)).toInt.toNat (100000 - 1) = min (K.wrapR s (ix1 e)).toInt.toNat (100000 - 1)
  rw [colR_apply]

/-- The entries of a per-node vector gathered at the wrapped node numbers, at e: entry rowR of edge e. -/
theorem gatherVecR_apply (v : K.Fv S100000) (s : K.Iv S500000) (e : Fin 500000) :
    Host.gather Cert.ReferenceIdeal.gather_S100000_S500000x1_S500000_n_0_n_n_0_1_1 v (K.colR (K.wrapR s)) (ix1 e)
      = v (ix1 (rowR s e)) := by
  rw [gatherVecR_eq, gather_vec_apply (by norm_num)]
  refine congrArg (fun r : Fin 100000 => v (ix1 r)) (Fin.ext ?_)
  show min (K.colR (K.wrapR s) (posAt e)).toInt.toNat (100000 - 1) = min (K.wrapR s (ix1 e)).toInt.toNat (100000 - 1)
  rw [colR_apply]

/-! ## One layer of each program at (n, k) -/

/-- The kernel program's layer at (n, k). -/
theorem propR_apply (h : K.Fv S100000x256) (s d : K.Iv S500000) (n : Fin 100000) (k : Fin 256) :
    K.propR h s d (ix2 n k)
      = (0 + ∑ e : Fin 500000, if (d (ix1 e)).toInt = (n.val : Int)
          then h (ix2 (rowR s e) k) * K.dinvR d (ix1 (rowR s e)) else 0) * K.dinvR d (ix1 n) := by
  unfold K.propR
  rw [mulf_apply, spread_apply, scatterRowsR_eq, scatterAdd_rows_apply, zerosK_apply]
  refine congrArg (fun t => (0 + t) * K.dinvR d (ix1 n)) (Finset.sum_congr rfl fun e _ => ?_)
  rw [colR_apply]
  by_cases hd : (d (ix1 e)).toInt = (n.val : Int)
  · rw [if_pos hd, if_pos hd, gatherRowsR_apply, mulf_apply, spread_apply]
  · rw [if_neg hd, if_neg hd]

/-- The reference's layer at (n, k). -/
theorem convR_apply (h : K.Fv S100000x256) (s d : K.Iv S500000) (n : Fin 100000) (k : Fin 256) :
    R.convR h s d (ix2 n k)
      = 0 + ∑ e : Fin 500000, if (d (ix1 e)).toInt = (n.val : Int)
          then h (ix2 (rowR s e) k) * (K.dinvR d (ix1 (rowR s e)) * K.dinvR d (ix1 (rowR d e))) else 0 := by
  unfold R.convR
  rw [zerosR_eq, dinvR_eq, wrapR_eq, wrapR_eq, colR_eq, colR_eq, colR_eq]
  show Host.scatterAdd (F := Ideal) scatter_S100000x256_S500000x1_S500000x256_1_0_0_1 K.zerosN (K.colR d) _ (ix2 n k) = _
  rw [scatterRowsR_eq, scatterAdd_rows_apply, zerosK_apply]
  refine congrArg (fun t => 0 + t) (Finset.sum_congr rfl fun e _ => ?_)
  rw [colR_apply]
  by_cases hd : (d (ix1 e)).toInt = (n.val : Int)
  · rw [if_pos hd, if_pos hd, mulf_apply, colToMat_apply, vecToCol_apply, mulf_apply, gatherVecR_apply, gatherVecR_apply]
    exact congrArg (· * (K.dinvR d (ix1 (rowR s e)) * K.dinvR d (ix1 (rowR d e)))) (gatherRowsR_apply h s e k)
  · rw [if_neg hd, if_neg hd]

/-! ## The two programs' layers agree on real features -/

/-- ONE LAYER: on real features, with a self-loop at every node, the kernel program's layer is the reference's. -/
theorem layer_R (h : K.Fv S100000x256) (s d : K.Iv S500000) (hh : ∀ i, ∃ r : ℝ, h i = r)
    (hloop : ∀ n : Fin 100000, ∃ e : Fin 500000, (d (ix1 e)).toInt = (n.val : Int)) :
    K.propR h s d = R.convR h s d := by
  funext i
  obtain ⟨n, k, rfl⟩ : ∃ (n : Fin 100000) (k : Fin 256), i = ix2 n k := ⟨i 0, i 1, eq_ix2 (n0 := 100000) (n1 := 256) i⟩
  rw [propR_apply, convR_apply]
  exact layer_core (fun e : Fin 500000 => (d (ix1 e)).toInt = (n.val : Int)) (fun e => h (ix2 (rowR s e) k))
    (fun e => K.dinvR d (ix1 (rowR s e))) (fun e => K.dinvR d (ix1 (rowR d e))) (K.dinvR d (ix1 n))
    (fun e => hh _) (fun e => dinvR_real d hloop _) (dinvR_real d hloop _)
    (fun e he => by rw [rowR_of_eq d e n he])

/-- … and it is real. -/
theorem layer_R_real (h : K.Fv S100000x256) (s d : K.Iv S500000) (hh : ∀ i, ∃ r : ℝ, h i = r)
    (hloop : ∀ n : Fin 100000, ∃ e : Fin 500000, (d (ix1 e)).toInt = (n.val : Int)) :
    ∀ i, ∃ r : ℝ, K.propR h s d i = r := by
  intro i
  obtain ⟨n, k, rfl⟩ : ∃ (n : Fin 100000) (k : Fin 256), i = ix2 n k := ⟨i 0, i 1, eq_ix2 (n0 := 100000) (n1 := 256) i⟩
  rw [propR_apply]
  exact layer_core_real (fun e : Fin 500000 => (d (ix1 e)).toInt = (n.val : Int)) (fun e => h (ix2 (rowR s e) k))
    (fun e => K.dinvR d (ix1 (rowR s e))) (K.dinvR d (ix1 n))
    (fun e => hh _) (fun e => dinvR_real d hloop _) (dinvR_real d hloop _)

/-! ## Every node has its self-loop -/

/-- The destinations are the edge list's second row followed by 0, 1, …, 99999: position 400000 + n holds n. -/
theorem dstR_loop (ei : K.Iv S2x400000) (n : Fin 100000) :
    ∃ e : Fin 500000, (K.dstR ei (ix1 e)).toInt = (n.val : Int) := by
  have hn := n.isLt
  refine ⟨⟨400000 + n.val, by omega⟩, ?_⟩
  unfold K.dstR
  rw [Idealize.ShloMosaic.VecConcat.concat_vec_right _ _ _ n (by omega)]
  show (BitVec.ofNat 32 n.val).toInt = (n.val : Int)
  rw [BitVec.toInt_eq_toNat_cond, BitVec.toNat_ofNat, Nat.mod_eq_of_lt (by omega), if_pos (by omega)]

/-! ## Two layers -/

/-- TWO LAYERS on the R graph: the kernel program's second layer, fed its own products, is the reference's. -/
theorem gcn_two_layers_R (X : K.Fv S100000x768) (Wt : K.Fv S768x256) (Wa Wb : K.Fv S256x256) (ei : K.Iv S2x400000)
    (hX : ∀ i, ∃ r : ℝ, X i = r) (hWt : ∀ i, ∃ r : ℝ, Wt i = r) (hWa : ∀ i, ∃ r : ℝ, Wa i = r)
    (hWb : ∀ i, ∃ r : ℝ, Wb i = r) (o5 o40 : K.Fv S100000x256)
    (h5 : ∀ (p : Fin 100000) (q : Fin 256),
      o5 (ix2 p q) = ∑ k : Fin 768, X (ix2 p k) * (K.dotW Wt Wa) (ix2 k q))
    (h40 : ∀ (p : Fin 100000) (q : Fin 256),
      o40 (ix2 p q) = ∑ k : Fin 256, (K.reluN (K.propR o5 (K.srcR ei) (K.dstR ei))) (ix2 p k) * Wb (ix2 k q)) :
    K.propR o40 (K.srcR ei) (K.dstR ei)
      = R.convR (R.dotH (R.reluN (R.convR (R.dotH (R.dotX X Wt) Wa) (R.srcR ei) (R.dstR ei))) Wb) (R.srcR ei) (R.dstR ei) := by
  have hloop := dstR_loop ei
  rw [srcR_eq, dstR_eq]
  -- x · (W_text · W1) = (x · W_text) · W1
  have e5 : o5 = R.dotH (R.dotX X Wt) Wa := by
    funext i
    obtain ⟨p, q, rfl⟩ : ∃ (p : Fin 100000) (q : Fin 256), i = ix2 p q := ⟨i 0, i 1, eq_ix2 (n0 := 100000) (n1 := 256) i⟩
    rw [h5, dotH_apply]
    simp only [dotX_apply, dotW_apply]
    exact (dot_assoc (fun a => X (ix2 p a)) (fun a b => Wt (ix2 a b)) (fun b => Wa (ix2 b q))
      (fun a => hX _) (fun a b => hWt _) (fun b => hWa _)).symm
  have r5 : ∀ i, ∃ r : ℝ, o5 i = r := by
    intro i
    obtain ⟨p, q, rfl⟩ : ∃ (p : Fin 100000) (q : Fin 256), i = ix2 p q := ⟨i 0, i 1, eq_ix2 (n0 := 100000) (n1 := 256) i⟩
    rw [h5]
    exact dot_real _ _ (fun a => hX _) (fun a => by
      rw [dotW_apply]
      exact dot_real _ _ (fun b => hWt _) (fun b => hWa _))
  -- the first layer
  have e1 : K.propR o5 (K.srcR ei) (K.dstR ei) = R.convR (R.dotH (R.dotX X Wt) Wa) (K.srcR ei) (K.dstR ei) := by
    rw [← e5]
    exact layer_R o5 _ _ r5 hloop
  have r1 := layer_R_real o5 (K.srcR ei) (K.dstR ei) r5 hloop
  -- max(·, 0) and the second product
  have e40 : o40 = R.dotH (R.reluN (R.convR (R.dotH (R.dotX X Wt) Wa) (K.srcR ei) (K.dstR ei))) Wb := by
    funext i
    obtain ⟨p, q, rfl⟩ : ∃ (p : Fin 100000) (q : Fin 256), i = ix2 p q := ⟨i 0, i 1, eq_ix2 (n0 := 100000) (n1 := 256) i⟩
    rw [h40, dotH_apply, ← e1, reluR_eq]
  have r40 : ∀ i, ∃ r : ℝ, o40 i = r := by
    intro i
    obtain ⟨p, q, rfl⟩ : ∃ (p : Fin 100000) (q : Fin 256), i = ix2 p q := ⟨i 0, i 1, eq_ix2 (n0 := 100000) (n1 := 256) i⟩
    rw [h40]
    exact dot_real _ _ (fun a => by
      rw [reluK_apply]
      exact max_zero_real _ (r1 _)) (fun a => hWb _)
  -- the second layer
  rw [← e40]
  exact layer_R o40 _ _ r40 hloop

end Cert.Bridge

end
-- ==== Proof.GcnBridgeC.lean ====
/-
  The two normalized graph-convolution layers on the C graph agree.

  Read at (n, k), the kernel program's layer is (0 + the sum, over the edges e whose destination read signed is n, of
  (h · dinv)(g e, k)) · dinv n, where g e is the wrapped source of e read signed and clamped; the reference's is 0 + the
  sum over the same edges of h (g e, k) · (dinv (g e) · dinv (the wrapped destination of e, clamped)). An edge whose
  destination read signed is n, a node number in [0, 100000), has its wrap and its clamp leave n alone, so the second
  factor is dinv n and comes out of the sum. Every node has its self-loop, so its degree counts at least one edge and
  dinv is real; with real features every entry is real and distributivity holds.

  Two layers: the kernel program's first product x · (W_text · W1) is the reference's (x · W_text) · W1 by associativity
  over the reals; the layer lemma, max(x, 0) of reals, the second product and the layer lemma again give the rest.
-/
import proofs.«154056_j23527830847606_2_alg».proof.Proof.GcnLayer
import proofs.«154056_j23527830847606_2_alg».proof.Proof.LibRowGatherScatter
import proofs.«154056_j23527830847606_2_alg».proof.Proof.LibVecGatherScatter
import proofs.«154056_j23527830847606_2_alg».proof.Proof.LibVecConcat

noncomputable section

open scoped BigOperators

open Idealize.ShloMosaic Idealize.ShloMosaic.ValueIdx

namespace Cert.Bridge

open Cert.Spec Idealize.ShloMosaic.BroadcastInDim2 Idealize.ShloMosaic.RowIndexing Idealize.ShloMosaic.VecIndexing
open Cert.KernelIdeal Cert.KernelIdeal.Facts₀ Cert.KernelIdeal.Facts

/-! ## The programs' dimension records are the canonical ones -/

theorem scatterRowsC_eq : scatter_S100000x256_S400000x1_S400000x256_1_0_0_1
    = rowScatterDims 100000 400000 256 scatter_S100000x256_S400000x1_S400000x256_1_0_0_1_wf := rfl

theorem gatherRowsC_eq : gather_S100000x256_S400000x1_S400000x256_1_0_n_n_0_1_1256
    = rowGatherDims 100000 400000 256 gather_S100000x256_S400000x1_S400000x256_1_0_n_n_0_1_1256_wf := rfl

theorem scatterVecC_eq : scatter_S100000_S400000x1_S400000_n_0_0_1
    = vecScatterDims 100000 400000 scatter_S100000_S400000x1_S400000_n_0_0_1_wf := rfl

theorem gatherVecC_eq : Cert.ReferenceIdeal.gather_S100000_S400000x1_S400000_n_0_n_n_0_1_1
    = vecGatherDims 100000 400000 Cert.ReferenceIdeal.Facts₀.gather_S100000_S400000x1_S400000_n_0_n_n_0_1_1_wf := rfl

/-! ## The reference's index arithmetic and degrees are the kernel program's -/

theorem wrapC_eq (x : K.Iv S400000) : R.wrapC x = K.wrapC x := rfl
theorem colC_eq (x : K.Iv S400000) : R.colC x = K.colC x := rfl
theorem dinvC_eq (d : K.Iv S400000) : R.dinvC d = K.dinvC d := rfl
theorem srcC_eq (ei : K.Iv S2x300000) : R.srcC ei = K.srcC ei := rfl
theorem dstC_eq (ei : K.Iv S2x300000) : R.dstC ei = K.dstC ei := rfl

/-! ## Index arithmetic -/

/-- A list of node numbers as a one-column matrix, at (e, 0): entry e of the list. -/
theorem colC_apply (x : K.Iv S400000) (e : Fin 400000) (z : Fin 1) : K.colC x (ix2 e z) = x (ix1 e) := by
  unfold K.colC
  rw [vecToCol_apply]

/-- The wrap leaves a node number that is not negative alone. -/
theorem wrapC_apply_of_nonneg (x : K.Iv S400000) (e : Fin 400000) (h : 0 ≤ (x (ix1 e)).toInt) :
    K.wrapC x (ix1 e) = x (ix1 e) := by
  have hz : broadcastInDim S400000 ![] bcast_S_S400000 (constantI S_ 32 0#32) (ix1 e) = 0#32 := splat_apply _ _ _
  unfold K.wrapC
  rw [select_apply]
  show Scalar.select (IntOp.cmpi .slt (x (ix1 e)) (broadcastInDim S400000 ![] bcast_S_S400000 (constantI S_ 32 0#32) (ix1 e))) _ (x (ix1 e)) = _
  rw [hz]
  exact select_slt_zero_of_nonneg _ _ h

/-- The row that edge e gathers: its wrapped node number, read signed and clamped into [0, 99999]. -/
def rowC (x : K.Iv S400000) (e : Fin 400000) : Fin 100000 :=
  ⟨min (K.wrapC x (ix1 e)).toInt.toNat (100000 - 1), by omega⟩

/-- An edge whose node number read signed is n gathers row n. -/
theorem rowC_of_eq (x : K.Iv S400000) (e : Fin 400000) (n : Fin 100000) (h : (x (ix1 e)).toInt = (n.val : Int)) :
    rowC x e = n := by
  have hn := n.isLt
  refine Fin.ext ?_
  show min (K.wrapC x (ix1 e)).toInt.toNat (100000 - 1) = n.val
  rw [wrapC_apply_of_nonneg x e (by omega), h]
  omega

/-! ## Degrees -/

/-- The degree of node n: the number of edges whose wrapped destination read signed is n, as a sum of ones. -/
theorem degC_apply (d : K.Iv S400000) (n : Fin 100000) :
    K.degC d (ix1 n) = 0 + ∑ e : Fin 400000, if (K.wrapC d (ix1 e)).toInt = (n.val : Int) then (1 : EReal) else 0 := by
  unfold K.degC
  rw [scatterVecC_eq, scatterAdd_vec_apply]
  refine congrArg₂ (fun a b : EReal => a + b) ?_ (Finset.sum_congr rfl fun e _ => ?_)
  · rw [splat_apply, constant_apply]
    exact Ideal.ofBits_zero_f32
  · rw [colC_apply, splat_apply, constant_apply, Ideal.ofBits_one_f32]

/-- dinv of node n is the reciprocal square root of its degree. -/
theorem dinvC_apply (d : K.Iv S400000) (n : Fin 100000) : K.dinvC d (ix1 n) = Ideal.rsqrt (K.degC d (ix1 n)) :=
  Ideal.hostUnary_rsqrt_def (K.degC d (ix1 n))

/-- With a self-loop at every node, dinv is real. -/
theorem dinvC_real (d : K.Iv S400000) (hloop : ∀ n : Fin 100000, ∃ e : Fin 400000, (d (ix1 e)).toInt = (n.val : Int))
    (n : Fin 100000) : ∃ r : ℝ, K.dinvC d (ix1 n) = r := by
  rw [dinvC_apply, degC_apply]
  refine rsqrt_count_real _ ?_
  obtain ⟨e, he⟩ := hloop n
  exact ⟨e, by rw [wrapC_apply_of_nonneg d e (by omega)]; exact he⟩

/-! ## The gathers -/

/-- The rows gathered at the wrapped node numbers, at (e, k): row rowC of edge e, column k. -/
theorem gatherRowsC_apply (x : K.Fv S100000x256) (s : K.Iv S400000) (e : Fin 400000) (k : Fin 256) :
    Host.gather gather_S100000x256_S400000x1_S400000x256_1_0_n_n_0_1_1256 x (K.colC (K.wrapC s)) (ix2 e k)
      = x (ix2 (rowC s e) k) := by
  rw [gatherRowsC_eq, gather_rows_apply (by norm_num)]
  refine congrArg (fun r : Fin 100000 => x (ix2 r k)) (Fin.ext ?_)
  show min (K.colC (K.wrapC s) (rowAt e)).toInt.toNat (100000 - 1) = min (K.wrapC s (ix1 e)).toInt.toNat (100000 - 1)
  rw [colC_apply]

/-- The entries of a per-node vector gathered at the wrapped node numbers, at e: entry rowC of edge e. -/
theorem gatherVecC_apply (v : K.Fv S100000) (s : K.Iv S400000) (e : Fin 400000) :
    Host.gather Cert.ReferenceIdeal.gather_S100000_S400000x1_S400000_n_0_n_n_0_1_1 v (K.colC (K.wrapC s)) (ix1 e)
      = v (ix1 (rowC s e)) := by
  rw [gatherVecC_eq, gather_vec_apply (by norm_num)]
  refine congrArg (fun r : Fin 100000 => v (ix1 r)) (Fin.ext ?_)
  show min (K.colC (K.wrapC s) (posAt e)).toInt.toNat (100000 - 1) = min (K.wrapC s (ix1 e)).toInt.toNat (100000 - 1)
  rw [colC_apply]

/-! ## One layer of each program at (n, k) -/

/-- The kernel program's layer at (n, k). -/
theorem propC_apply (h : K.Fv S100000x256) (s d : K.Iv S400000) (n : Fin 100000) (k : Fin 256) :
    K.propC h s d (ix2 n k)
      = (0 + ∑ e : Fin 400000, if (d (ix1 e)).toInt = (n.val : Int)
          then h (ix2 (rowC s e) k) * K.dinvC d (ix1 (rowC s e)) else 0) * K.dinvC d (ix1 n) := by
  unfold K.propC
  rw [mulf_apply, spread_apply, scatterRowsC_eq, scatterAdd_rows_apply, zerosK_apply]
  refine congrArg (fun t => (0 + t) * K.dinvC d (ix1 n)) (Finset.sum_congr rfl fun e _ => ?_)
  rw [colC_apply]
  by_cases hd : (d (ix1 e)).toInt = (n.val : Int)
  · rw [if_pos hd, if_pos hd, gatherRowsC_apply, mulf_apply, spread_apply]
  · rw [if_neg hd, if_neg hd]

/-- The reference's layer at (n, k). -/
theorem convC_apply (h : K.Fv S100000x256) (s d : K.Iv S400000) (n : Fin 100000) (k : Fin 256) :
    R.convC h s d (ix2 n k)
      = 0 + ∑ e : Fin 400000, if (d (ix1 e)).toInt = (n.val : Int)
          then h (ix2 (rowC s e) k) * (K.dinvC d (ix1 (rowC s e)) * K.dinvC d (ix1 (rowC d e))) else 0 := by
  unfold R.convC
  rw [zerosR_eq, dinvC_eq, wrapC_eq, wrapC_eq, colC_eq, colC_eq, colC_eq]
  show Host.scatterAdd (F := Ideal) scatter_S100000x256_S400000x1_S400000x256_1_0_0_1 K.zerosN (K.colC d) _ (ix2 n k) = _
  rw [scatterRowsC_eq, scatterAdd_rows_apply, zerosK_apply]
  refine congrArg (fun t => 0 + t) (Finset.sum_congr rfl fun e _ => ?_)
  rw [colC_apply]
  by_cases hd : (d (ix1 e)).toInt = (n.val : Int)
  · rw [if_pos hd, if_pos hd, mulf_apply, colToMat_apply, vecToCol_apply, mulf_apply, gatherVecC_apply, gatherVecC_apply]
    exact congrArg (· * (K.dinvC d (ix1 (rowC s e)) * K.dinvC d (ix1 (rowC d e)))) (gatherRowsC_apply h s e k)
  · rw [if_neg hd, if_neg hd]

/-! ## The two programs' layers agree on real features -/

/-- ONE LAYER: on real features, with a self-loop at every node, the kernel program's layer is the reference's. -/
theorem layer_C (h : K.Fv S100000x256) (s d : K.Iv S400000) (hh : ∀ i, ∃ r : ℝ, h i = r)
    (hloop : ∀ n : Fin 100000, ∃ e : Fin 400000, (d (ix1 e)).toInt = (n.val : Int)) :
    K.propC h s d = R.convC h s d := by
  funext i
  obtain ⟨n, k, rfl⟩ : ∃ (n : Fin 100000) (k : Fin 256), i = ix2 n k := ⟨i 0, i 1, eq_ix2 (n0 := 100000) (n1 := 256) i⟩
  rw [propC_apply, convC_apply]
  exact layer_core (fun e : Fin 400000 => (d (ix1 e)).toInt = (n.val : Int)) (fun e => h (ix2 (rowC s e) k))
    (fun e => K.dinvC d (ix1 (rowC s e))) (fun e => K.dinvC d (ix1 (rowC d e))) (K.dinvC d (ix1 n))
    (fun e => hh _) (fun e => dinvC_real d hloop _) (dinvC_real d hloop _)
    (fun e he => by rw [rowC_of_eq d e n he])

/-- … and it is real. -/
theorem layer_C_real (h : K.Fv S100000x256) (s d : K.Iv S400000) (hh : ∀ i, ∃ r : ℝ, h i = r)
    (hloop : ∀ n : Fin 100000, ∃ e : Fin 400000, (d (ix1 e)).toInt = (n.val : Int)) :
    ∀ i, ∃ r : ℝ, K.propC h s d i = r := by
  intro i
  obtain ⟨n, k, rfl⟩ : ∃ (n : Fin 100000) (k : Fin 256), i = ix2 n k := ⟨i 0, i 1, eq_ix2 (n0 := 100000) (n1 := 256) i⟩
  rw [propC_apply]
  exact layer_core_real (fun e : Fin 400000 => (d (ix1 e)).toInt = (n.val : Int)) (fun e => h (ix2 (rowC s e) k))
    (fun e => K.dinvC d (ix1 (rowC s e))) (K.dinvC d (ix1 n))
    (fun e => hh _) (fun e => dinvC_real d hloop _) (dinvC_real d hloop _)

/-! ## Every node has its self-loop -/

/-- The destinations are the edge list's second row followed by 0, 1, …, 99999: position 300000 + n holds n. -/
theorem dstC_loop (ei : K.Iv S2x300000) (n : Fin 100000) :
    ∃ e : Fin 400000, (K.dstC ei (ix1 e)).toInt = (n.val : Int) := by
  have hn := n.isLt
  refine ⟨⟨300000 + n.val, by omega⟩, ?_⟩
  unfold K.dstC
  rw [Idealize.ShloMosaic.VecConcat.concat_vec_right _ _ _ n (by omega)]
  show (BitVec.ofNat 32 n.val).toInt = (n.val : Int)
  rw [BitVec.toInt_eq_toNat_cond, BitVec.toNat_ofNat, Nat.mod_eq_of_lt (by omega), if_pos (by omega)]

/-! ## Two layers -/

/-- TWO LAYERS on the C graph: the kernel program's second layer, fed its own products, is the reference's. -/
theorem gcn_two_layers_C (X : K.Fv S100000x768) (Wt : K.Fv S768x256) (Wa Wb : K.Fv S256x256) (ei : K.Iv S2x300000)
    (hX : ∀ i, ∃ r : ℝ, X i = r) (hWt : ∀ i, ∃ r : ℝ, Wt i = r) (hWa : ∀ i, ∃ r : ℝ, Wa i = r)
    (hWb : ∀ i, ∃ r : ℝ, Wb i = r) (o5 o40 : K.Fv S100000x256)
    (h5 : ∀ (p : Fin 100000) (q : Fin 256),
      o5 (ix2 p q) = ∑ k : Fin 768, X (ix2 p k) * (K.dotW Wt Wa) (ix2 k q))
    (h40 : ∀ (p : Fin 100000) (q : Fin 256),
      o40 (ix2 p q) = ∑ k : Fin 256, (K.reluN (K.propC o5 (K.srcC ei) (K.dstC ei))) (ix2 p k) * Wb (ix2 k q)) :
    K.propC o40 (K.srcC ei) (K.dstC ei)
      = R.convC (R.dotH (R.reluN (R.convC (R.dotH (R.dotX X Wt) Wa) (R.srcC ei) (R.dstC ei))) Wb) (R.srcC ei) (R.dstC ei) := by
  have hloop := dstC_loop ei
  rw [srcC_eq, dstC_eq]
  -- x · (W_text · W1) = (x · W_text) · W1
  have e5 : o5 = R.dotH (R.dotX X Wt) Wa := by
    funext i
    obtain ⟨p, q, rfl⟩ : ∃ (p : Fin 100000) (q : Fin 256), i = ix2 p q := ⟨i 0, i 1, eq_ix2 (n0 := 100000) (n1 := 256) i⟩
    rw [h5, dotH_apply]
    simp only [dotX_apply, dotW_apply]
    exact (dot_assoc (fun a => X (ix2 p a)) (fun a b => Wt (ix2 a b)) (fun b => Wa (ix2 b q))
      (fun a => hX _) (fun a b => hWt _) (fun b => hWa _)).symm
  have r5 : ∀ i, ∃ r : ℝ, o5 i = r := by
    intro i
    obtain ⟨p, q, rfl⟩ : ∃ (p : Fin 100000) (q : Fin 256), i = ix2 p q := ⟨i 0, i 1, eq_ix2 (n0 := 100000) (n1 := 256) i⟩
    rw [h5]
    exact dot_real _ _ (fun a => hX _) (fun a => by
      rw [dotW_apply]
      exact dot_real _ _ (fun b => hWt _) (fun b => hWa _))
  -- the first layer
  have e1 : K.propC o5 (K.srcC ei) (K.dstC ei) = R.convC (R.dotH (R.dotX X Wt) Wa) (K.srcC ei) (K.dstC ei) := by
    rw [← e5]
    exact layer_C o5 _ _ r5 hloop
  have r1 := layer_C_real o5 (K.srcC ei) (K.dstC ei) r5 hloop
  -- max(·, 0) and the second product
  have e40 : o40 = R.dotH (R.reluN (R.convC (R.dotH (R.dotX X Wt) Wa) (K.srcC ei) (K.dstC ei))) Wb := by
    funext i
    obtain ⟨p, q, rfl⟩ : ∃ (p : Fin 100000) (q : Fin 256), i = ix2 p q := ⟨i 0, i 1, eq_ix2 (n0 := 100000) (n1 := 256) i⟩
    rw [h40, dotH_apply, ← e1, reluR_eq]
  have r40 : ∀ i, ∃ r : ℝ, o40 i = r := by
    intro i
    obtain ⟨p, q, rfl⟩ : ∃ (p : Fin 100000) (q : Fin 256), i = ix2 p q := ⟨i 0, i 1, eq_ix2 (n0 := 100000) (n1 := 256) i⟩
    rw [h40]
    exact dot_real _ _ (fun a => by
      rw [reluK_apply]
      exact max_zero_real _ (r1 _)) (fun a => hWb _)
  -- the second layer
  rw [← e40]
  exact layer_C o40 _ _ r40 hloop

end Cert.Bridge

end
-- ==== Proof.KIMatmul.lean ====
/-
  What the four product arrays hold after their regions, on the extended reals.  Each of the four calls multiplies a
  [100000, K] left factor, taken in 25 row tiles of 4000, by a whole [K, 256] right factor (K = 768 for calls 0 and 2,
  K = 256 for calls 1 and 3), and writes the [4000, 256] product tile back to the same rows of the product array.
  Per call: the body's tile at an entry is the contraction sum of the two loaded blocks; the left block at point t is
  rows 4000 t … 4000 t + 3999 of the left factor and the right block is the right factor, so what point t writes back
  is block t of ONE whole-array function, the matrix product of the two arrays as the region finds them; row r lies
  in the block of point r / 4000, so the 25 blocks cover the product array, which therefore ends holding that product:
  entry (p, q) is the sum over k of L (p, k) * R (k, q).
-/
import proofs.«154056_j23527830847606_2_alg».proof.Proof.KIDefs
import proofs.«154056_j23527830847606_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem zeros2 : (![0, 0] : Fin 2 → Nat) = fun _ => 0 := funext fun a => by fin_cases a <;> rfl

/-! ## Call 0: [100000, 768] x [768, 256], the left factor in row tiles of 4000 -/

/-- The body's product tile at an entry: the contraction sum of the two loaded blocks. -/
theorem pay0_apply (x0 : Vec Ideal S4000x768 .f32) (x1 : Vec Ideal S768x256 .f32) (p : Fin 4000) (q : Fin 256) :
    k0_pay1 x0 x1 (ix2 p q) = ∑ k : Fin 768, x0 (ix2 p k) * x1 (ix2 k q) := by
  unfold k0_pay1
  rw [shapeCast_self]
  exact Cert.Bridge.matmul_zero_plain dot_S4000x768_S768x256_S4000x256_1_0_0_1_n_n rfl rfl rfl rfl rfl rfl (some .fp32) x0 x1 p q

/-- The whole matrix product of a left factor and a right factor. -/
def prod0 (L : S100000x768.Idx → EReal) (R : S768x256.Idx → EReal) : S100000x256.Idx → EReal :=
  fun i => ∑ k : Fin 768, L (ix2 (i 0 : Fin 100000) k) * R (ix2 k (i 1 : Fin 256))

theorem prod0_apply (L : S100000x768.Idx → EReal) (R : S768x256.Idx → EReal) (p : Fin 100000) (q : Fin 256) :
    prod0 L R (ix2 p q) = ∑ k : Fin 768, L (ix2 p k) * R (ix2 k q) := rfl

/-- A product tile is the whole product where its rows sit: if row `j 0` of the left block is row `i 0` of the left
    factor and column `j 1` of the right block is column `i 1` of the right factor, the tile at `j` is the product at `i`. -/
theorem tile0 (L : S100000x768.Idx → EReal) (R : S768x256.Idx → EReal) (x0 : Vec Ideal S4000x768 .f32)
    (x1 : Vec Ideal S768x256 .f32) (i : S100000x256.Idx) (j : S4000x256.Idx)
    (h0 : ∀ k : Fin 768, x0 (ix2 (j 0 : Fin 4000) k) = L (ix2 (i 0 : Fin 100000) k))
    (h1 : ∀ k : Fin 768, x1 (ix2 k (j 1 : Fin 256)) = R (ix2 k (i 1 : Fin 256))) :
    k0_pay1 x0 x1 j = prod0 L R i := by
  obtain ⟨p, q, rfl⟩ : ∃ (p : Fin 4000) (q : Fin 256), j = ix2 p q := ⟨j 0, j 1, eq_ix2 j⟩
  rw [pay0_apply]
  unfold prod0
  exact Finset.sum_congr rfl fun k _ => congrArg₂ (· * ·) (h0 k) (h1 k)

/-- The printed index maps over the 25 grid points: the left tile and the product tile are at block row `t`,
    the right factor is one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point `t` writes back is block `t` of the whole product of the two arrays the region finds. -/
theorem flushed0_eq (c : Dev nD) (t : Fin cfg0.N) :
    (dat0 V c).flushed 2 t = ((cfg0.win 2).blk t).view.read (Elt Ideal) (prod0 (V c main_arg3) (V c main_v0)) := by
  show (cfg0.win 2).cut (grid0.coords t) ((dat0 V c).after 2 t) = _
  rw [after0_2]
  unfold out0_2
  rw [View.canon_unit_zero zeros2]
  simp only [View.ld_unit_zero (S := S4000x768) zeros2, View.ld_unit_zero (S := S768x256) zeros2]
  obtain ⟨e00, e01, e10, e11, e20, e21⟩ := idx0 t
  funext j
  refine tile0 (V c main_arg3) (V c main_v0) (iblk0 V c 0 t) (iblk0 V c 1 t) (((cfg0.win 2).blk t).view.emb j) j ?_ ?_
  · intro k
    show V c main_arg3 (((cfg0.win 0).blk t).view.emb (ix2 (j 0 : Fin 4000) k)) = V c main_arg3 (ix2 ((((cfg0.win 2).blk t).view.emb j) 0 : Fin 100000) k)
    refine congrArg (V c main_arg3) (funext fun a => Fin.ext ?_)
    match a with
    | ⟨0, _⟩ => show win0_0.index t (0 : Fin 2) * 4000 + 1 * (j 0).val = win0_2.index t (0 : Fin 2) * 4000 + 1 * (j 0).val; rw [e00, e20]
    | ⟨1, _⟩ => show win0_0.index t (1 : Fin 2) * 768 + 1 * k.val = k.val; rw [e01]; omega
  · intro k
    show V c main_v0 (((cfg0.win 1).blk t).view.emb (ix2 k (j 1 : Fin 256))) = V c main_v0 (ix2 k ((((cfg0.win 2).blk t).view.emb j) 1 : Fin 256))
    refine congrArg (V c main_v0) (funext fun a => Fin.ext ?_)
    match a with
    | ⟨0, _⟩ => show win0_1.index t (0 : Fin 2) * 768 + 1 * k.val = k.val; rw [e10]; omega
    | ⟨1, _⟩ => show win0_1.index t (1 : Fin 2) * 256 + 1 * (j 1).val = win0_2.index t (1 : Fin 2) * 256 + 1 * (j 1).val; rw [e11, e21]

/-- An index of the product array is in point `t`'s block iff each coordinate is in the block's range on its axis. -/
theorem mem_blk0 (t : Fin cfg0.N) (i : S100000x256.Idx) :
    i ∈ ((cfg0.win 2).blk t).view.set ↔ ∀ a : Fin 2, win0_2.index t a * S4000x256.size a ≤ (i a).val ∧ (i a).val < win0_2.index t a * S4000x256.size a + S4000x256.size a := by
  show i ∈ ((View.whole main_v5).slice (win0_2.rect t)).set ↔ _
  rw [View.set_slice_whole, Rect.mem_set_unit]
  exact Iff.rfl

/-- Row `r` of the product is in the block of point `r / 4000`: the 25 row tiles cover the array. -/
theorem cover0 (i : S100000x256.Idx) : ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, e20, e21⟩ := idx0 t
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; rw [e20, ht]; omega
  | ⟨1, _⟩ => show win0_2.index t (1 : Fin 2) * 256 ≤ (i 1).val ∧ (i 1).val < win0_2.index t (1 : Fin 2) * 256 + 256; rw [e21]; omega

/-- After the region the product array holds the whole product of the two arrays the region finds. -/
theorem arr0_eq (c : Dev nD) : (dat0 V c).arrAt 2 cfg0.N = prod0 (V c main_arg3) (V c main_v0) :=
  (dat0 V c).arrAt_eq_of_cover 2 (prod0 (V c main_arg3) (V c main_v0)) (fun t _ => flushed0_eq V c t) cover0

/-- Entry (p, q) of the product array after the region, the two factors named as functions of their indices. -/
theorem arrAt0 (c : Dev nD) (L : S100000x768.Idx → EReal) (R : S768x256.Idx → EReal) (hL : V c main_arg3 = L) (hR : V c main_v0 = R)
    (p : Fin 100000) (q : Fin 256) :
    (dat0 V c).arrAt 2 cfg0.N (ix2 p q) = ∑ k : Fin 768, L (ix2 p k) * R (ix2 k q) := by
  subst hL hR
  rw [arr0_eq]
  rfl

end

/-! ## Call 1: [100000, 256] x [256, 256], the left factor in row tiles of 4000 -/

/-- The body's product tile at an entry: the contraction sum of the two loaded blocks. -/
theorem pay1_apply (x0 : Vec Ideal S4000x256 .f32) (x1 : Vec Ideal S256x256 .f32) (p : Fin 4000) (q : Fin 256) :
    k1_pay1 x0 x1 (ix2 p q) = ∑ k : Fin 256, x0 (ix2 p k) * x1 (ix2 k q) := by
  unfold k1_pay1
  rw [shapeCast_self]
  exact Cert.Bridge.matmul_zero_plain dot_S4000x256_S256x256_S4000x256_1_0_0_1_n_n rfl rfl rfl rfl rfl rfl (some .fp32) x0 x1 p q

/-- The whole matrix product of a left factor and a right factor. -/
def prod1 (L : S100000x256.Idx → EReal) (R : S256x256.Idx → EReal) : S100000x256.Idx → EReal :=
  fun i => ∑ k : Fin 256, L (ix2 (i 0 : Fin 100000) k) * R (ix2 k (i 1 : Fin 256))

theorem prod1_apply (L : S100000x256.Idx → EReal) (R : S256x256.Idx → EReal) (p : Fin 100000) (q : Fin 256) :
    prod1 L R (ix2 p q) = ∑ k : Fin 256, L (ix2 p k) * R (ix2 k q) := rfl

/-- A product tile is the whole product where its rows sit: if row `j 0` of the left block is row `i 0` of the left
    factor and column `j 1` of the right block is column `i 1` of the right factor, the tile at `j` is the product at `i`. -/
theorem tile1 (L : S100000x256.Idx → EReal) (R : S256x256.Idx → EReal) (x0 : Vec Ideal S4000x256 .f32)
    (x1 : Vec Ideal S256x256 .f32) (i : S100000x256.Idx) (j : S4000x256.Idx)
    (h0 : ∀ k : Fin 256, x0 (ix2 (j 0 : Fin 4000) k) = L (ix2 (i 0 : Fin 100000) k))
    (h1 : ∀ k : Fin 256, x1 (ix2 k (j 1 : Fin 256)) = R (ix2 k (i 1 : Fin 256))) :
    k1_pay1 x0 x1 j = prod1 L R i := by
  obtain ⟨p, q, rfl⟩ : ∃ (p : Fin 4000) (q : Fin 256), j = ix2 p q := ⟨j 0, j 1, eq_ix2 j⟩
  rw [pay1_apply]
  unfold prod1
  exact Finset.sum_congr rfl fun k _ => congrArg₂ (· * ·) (h0 k) (h1 k)

/-- The printed index maps over the 25 grid points: the left tile and the product tile are at block row `t`,
    the right factor is one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point `t` writes back is block `t` of the whole product of the two arrays the region finds. -/
theorem flushed1_eq (c : Dev nD) (t : Fin cfg1.N) :
    (dat1 V c).flushed 2 t = ((cfg1.win 2).blk t).view.read (Elt Ideal) (prod1 (V c main_v39) (V c main_arg9)) := by
  show (cfg1.win 2).cut (grid1.coords t) ((dat1 V c).after 2 t) = _
  rw [after1_2]
  unfold out1_2
  rw [View.canon_unit_zero zeros2]
  simp only [View.ld_unit_zero (S := S4000x256) zeros2, View.ld_unit_zero (S := S256x256) zeros2]
  obtain ⟨e00, e01, e10, e11, e20, e21⟩ := idx1 t
  funext j
  refine tile1 (V c main_v39) (V c main_arg9) (iblk1 V c 0 t) (iblk1 V c 1 t) (((cfg1.win 2).blk t).view.emb j) j ?_ ?_
  · intro k
    show V c main_v39 (((cfg1.win 0).blk t).view.emb (ix2 (j 0 : Fin 4000) k)) = V c main_v39 (ix2 ((((cfg1.win 2).blk t).view.emb j) 0 : Fin 100000) k)
    refine congrArg (V c main_v39) (funext fun a => Fin.ext ?_)
    match a with
    | ⟨0, _⟩ => show win1_0.index t (0 : Fin 2) * 4000 + 1 * (j 0).val = win1_2.index t (0 : Fin 2) * 4000 + 1 * (j 0).val; rw [e00, e20]
    | ⟨1, _⟩ => show win1_0.index t (1 : Fin 2) * 256 + 1 * k.val = k.val; rw [e01]; omega
  · intro k
    show V c main_arg9 (((cfg1.win 1).blk t).view.emb (ix2 k (j 1 : Fin 256))) = V c main_arg9 (ix2 k ((((cfg1.win 2).blk t).view.emb j) 1 : Fin 256))
    refine congrArg (V c main_arg9) (funext fun a => Fin.ext ?_)
    match a with
    | ⟨0, _⟩ => show win1_1.index t (0 : Fin 2) * 256 + 1 * k.val = k.val; rw [e10]; omega
    | ⟨1, _⟩ => show win1_1.index t (1 : Fin 2) * 256 + 1 * (j 1).val = win1_2.index t (1 : Fin 2) * 256 + 1 * (j 1).val; rw [e11, e21]

/-- An index of the product array is in point `t`'s block iff each coordinate is in the block's range on its axis. -/
theorem mem_blk1 (t : Fin cfg1.N) (i : S100000x256.Idx) :
    i ∈ ((cfg1.win 2).blk t).view.set ↔ ∀ a : Fin 2, win1_2.index t a * S4000x256.size a ≤ (i a).val ∧ (i a).val < win1_2.index t a * S4000x256.size a + S4000x256.size a := by
  show i ∈ ((View.whole main_v40).slice (win1_2.rect t)).set ↔ _
  rw [View.set_slice_whole, Rect.mem_set_unit]
  exact Iff.rfl

/-- Row `r` of the product is in the block of point `r / 4000`: the 25 row tiles cover the array. -/
theorem cover1 (i : S100000x256.Idx) : ∃ t : Fin cfg1.N, (cfg1.win 2).flush t = true ∧ i ∈ ((cfg1.win 2).blk t).view.set := by
  have hi0 : (i 0).val < 100000 := (i 0).isLt
  have hi1 : (i 1).val < 256 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, e20, e21⟩ := idx1 t
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; rw [e20, ht]; omega
  | ⟨1, _⟩ => show win1_2.index t (1 : Fin 2) * 256 ≤ (i 1).val ∧ (i 1).val < win1_2.index t (1 : Fin 2) * 256 + 256; rw [e21]; omega

/-- After the region the product array holds the whole product of the two arrays the region finds. -/
theorem arr1_eq (c : Dev nD) : (dat1 V c).arrAt 2 cfg1.N = prod1 (V c main_v39) (V c main_arg9) :=
  (dat1 V c).arrAt_eq_of_cover 2 (prod1 (V c main_v39) (V c main_arg9)) (fun t _ => flushed1_eq V c t) cover1

/-- Entry (p, q) of the product array after the region, the two factors named as functions of their indices. -/
theorem arrAt1 (c : Dev nD) (L : S100000x256.Idx → EReal) (R : S256x256.Idx → EReal) (hL : V c main_v39 = L) (hR : V c main_arg9 = R)
    (p : Fin 100000) (q : Fin 256) :
    (dat1 V c).arrAt 2 cfg1.N (ix2 p q) = ∑ k : Fin 256, L (ix2 p k) * R (ix2 k q) := by
  subst hL hR
  rw [arr1_eq]
  rfl

end

/-! ## Call 2: [100000, 768] x [768, 256], the left factor in row tiles of 4000 -/

/-- The body's product tile at an entry: the contraction sum of the two loaded blocks. -/
theorem pay2_apply (x0 : Vec Ideal S4000x768 .f32) (x1 : Vec Ideal S768x256 .f32) (p : Fin 4000) (q : Fin 256) :
    k2_pay1 x0 x1 (ix2 p q) = ∑ k : Fin 768, x0 (ix2 p k) * x1 (ix2 k q) := by
  unfold k2_pay1
  rw [shapeCast_self]
  exact Cert.Bridge.matmul_zero_plain dot_S4000x768_S768x256_S4000x256_1_0_0_1_n_n rfl rfl rfl rfl rfl rfl (some .fp32) x0 x1 p q

/-- The whole matrix product of a left factor and a right factor. -/
def prod2 (L : S100000x768.Idx → EReal) (R : S768x256.Idx → EReal) : S100000x256.Idx → EReal :=
  fun i => ∑ k : Fin 768, L (ix2 (i 0 : Fin 100000) k) * R (ix2 k (i 1 : Fin 256))

theorem prod2_apply (L : S100000x768.Idx → EReal) (R : S768x256.Idx → EReal) (p : Fin 100000) (q : Fin 256) :
    prod2 L R (ix2 p q) = ∑ k : Fin 768, L (ix2 p k) * R (ix2 k q) := rfl

/-- A product tile is the whole product where its rows sit: if row `j 0` of the left block is row `i 0` of the left
    factor and column `j 1` of the right block is column `i 1` of the right factor, the tile at `j` is the product at `i`. -/
theorem tile2 (L : S100000x768.Idx → EReal) (R : S768x256.Idx → EReal) (x0 : Vec Ideal S4000x768 .f32)
    (x1 : Vec Ideal S768x256 .f32) (i : S100000x256.Idx) (j : S4000x256.Idx)
    (h0 : ∀ k : Fin 768, x0 (ix2 (j 0 : Fin 4000) k) = L (ix2 (i 0 : Fin 100000) k))
    (h1 : ∀ k : Fin 768, x1 (ix2 k (j 1 : Fin 256)) = R (ix2 k (i 1 : Fin 256))) :
    k2_pay1 x0 x1 j = prod2 L R i := by
  obtain ⟨p, q, rfl⟩ : ∃ (p : Fin 4000) (q : Fin 256), j = ix2 p q := ⟨j 0, j 1, eq_ix2 j⟩
  rw [pay2_apply]
  unfold prod2
  exact Finset.sum_congr rfl fun k _ => congrArg₂ (· * ·) (h0 k) (h1 k)

/-- The printed index maps over the 25 grid points: the left tile and the product tile are at block row `t`,
    the right factor is one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- What point `t` writes back is block `t` of the whole product of the two arrays the region finds. -/
theorem flushed2_eq (c : Dev nD) (t : Fin cfg2.N) :
    (dat2 V c).flushed 2 t = ((cfg2.win 2).blk t).view.read (Elt Ideal) (prod2 (V c main_arg4) (V c main_v1)) := by
  show (cfg2.win 2).cut (grid2.coords t) ((dat2 V c).after 2 t) = _
  rw [after2_2]
  unfold out2_2
  rw [View.canon_unit_zero zeros2]
  simp only [View.ld_unit_zero (S := S4000x768) zeros2, View.ld_unit_zero (S := S768x256) zeros2]
  obtain ⟨e00, e01, e10, e11, e20, e21⟩ := idx2 t
  funext j
  refine tile2 (V c main_arg4) (V c main_v1) (iblk2 V c 0 t) (iblk2 V c 1 t) (((cfg2.win 2).blk t).view.emb j) j ?_ ?_
  · intro k
    show V c main_arg4 (((cfg2.win 0).blk t).view.emb (ix2 (j 0 : Fin 4000) k)) = V c main_arg4 (ix2 ((((cfg2.win 2).blk t).view.emb j) 0 : Fin 100000) k)
    refine congrArg (V c main_arg4) (funext fun a => Fin.ext ?_)
    match a with
    | ⟨0, _⟩ => show win2_0.index t (0 : Fin 2) * 4000 + 1 * (j 0).val = win2_2.index t (0 : Fin 2) * 4000 + 1 * (j 0).val; rw [e00, e20]
    | ⟨1, _⟩ => show win2_0.index t (1 : Fin 2) * 768 + 1 * k.val = k.val; rw [e01]; omega
  · intro k
    show V c main_v1 (((cfg2.win 1).blk t).view.emb (ix2 k (j 1 : Fin 256))) = V c main_v1 (ix2 k ((((cfg2.win 2).blk t).view.emb j) 1 : Fin 256))
    refine congrArg (V c main_v1) (funext fun a => Fin.ext ?_)
    match a with
    | ⟨0, _⟩ => show win2_1.index t (0 : Fin 2) * 768 + 1 * k.val = k.val; rw [e10]; omega
    | ⟨1, _⟩ => show win2_1.index t (1 : Fin 2) * 256 + 1 * (j 1).val = win2_2.index t (1 : Fin 2) * 256 + 1 * (j 1).val; rw [e11, e21]

/-- An index of the product array is in point `t`'s block iff each coordinate is in the block's range on its axis. -/
theorem mem_blk2 (t : Fin cfg2.N) (i : S100000x256.Idx) :
    i ∈ ((cfg2.win 2).blk t).view.set ↔ ∀ a : Fin 2, win2_2.index t a * S4000x256.size a ≤ (i a).val ∧ (i a).val < win2_2.index t a * S4000x256.size a + S4000x256.size a := by
  show i ∈ ((View.whole main_v69).slice (win2_2.rect t)).set ↔ _
  rw [View.set_slice_whole, Rect.mem_set_unit]
  exact Iff.rfl

/-- Row `r` of the product is in the block of point `r / 4000`: the 25 row tiles cover the array. -/
theorem cover2 (i : S100000x256.Idx) : ∃ t : Fin cfg2.N, (cfg2.win 2).flush t = true ∧ i ∈ ((cfg2.win 2).blk t).view.set := by
  have hi0 : (i 0).val < 100000 := (i 0).isLt
  have hi1 : (i 1).val < 256 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, e20, e21⟩ := idx2 t
  refine ⟨t, flush2_2 t, ?_⟩
  rw [mem_blk2]
  intro a
  match a with
  | ⟨0, _⟩ => show win2_2.index t (0 : Fin 2) * 4000 ≤ (i 0).val ∧ (i 0).val < win2_2.index t (0 : Fin 2) * 4000 + 4000; rw [e20, ht]; omega
  | ⟨1, _⟩ => show win2_2.index t (1 : Fin 2) * 256 ≤ (i 1).val ∧ (i 1).val < win2_2.index t (1 : Fin 2) * 256 + 256; rw [e21]; omega

/-- After the region the product array holds the whole product of the two arrays the region finds. -/
theorem arr2_eq (c : Dev nD) : (dat2 V c).arrAt 2 cfg2.N = prod2 (V c main_arg4) (V c main_v1) :=
  (dat2 V c).arrAt_eq_of_cover 2 (prod2 (V c main_arg4) (V c main_v1)) (fun t _ => flushed2_eq V c t) cover2

/-- Entry (p, q) of the product array after the region, the two factors named as functions of their indices. -/
theorem arrAt2 (c : Dev nD) (L : S100000x768.Idx → EReal) (R : S768x256.Idx → EReal) (hL : V c main_arg4 = L) (hR : V c main_v1 = R)
    (p : Fin 100000) (q : Fin 256) :
    (dat2 V c).arrAt 2 cfg2.N (ix2 p q) = ∑ k : Fin 768, L (ix2 p k) * R (ix2 k q) := by
  subst hL hR
  rw [arr2_eq]
  rfl

end

/-! ## Call 3: [100000, 256] x [256, 256], the left factor in row tiles of 4000 -/

/-- The body's product tile at an entry: the contraction sum of the two loaded blocks. -/
theorem pay3_apply (x0 : Vec Ideal S4000x256 .f32) (x1 : Vec Ideal S256x256 .f32) (p : Fin 4000) (q : Fin 256) :
    k3_pay1 x0 x1 (ix2 p q) = ∑ k : Fin 256, x0 (ix2 p k) * x1 (ix2 k q) := by
  unfold k3_pay1
  rw [shapeCast_self]
  exact Cert.Bridge.matmul_zero_plain dot_S4000x256_S256x256_S4000x256_1_0_0_1_n_n rfl rfl rfl rfl rfl rfl (some .fp32) x0 x1 p q

/-- The whole matrix product of a left factor and a right factor. -/
def prod3 (L : S100000x256.Idx → EReal) (R : S256x256.Idx → EReal) : S100000x256.Idx → EReal :=
  fun i => ∑ k : Fin 256, L (ix2 (i 0 : Fin 100000) k) * R (ix2 k (i 1 : Fin 256))

theorem prod3_apply (L : S100000x256.Idx → EReal) (R : S256x256.Idx → EReal) (p : Fin 100000) (q : Fin 256) :
    prod3 L R (ix2 p q) = ∑ k : Fin 256, L (ix2 p k) * R (ix2 k q) := rfl

/-- A product tile is the whole product where its rows sit: if row `j 0` of the left block is row `i 0` of the left
    factor and column `j 1` of the right block is column `i 1` of the right factor, the tile at `j` is the product at `i`. -/
theorem tile3 (L : S100000x256.Idx → EReal) (R : S256x256.Idx → EReal) (x0 : Vec Ideal S4000x256 .f32)
    (x1 : Vec Ideal S256x256 .f32) (i : S100000x256.Idx) (j : S4000x256.Idx)
    (h0 : ∀ k : Fin 256, x0 (ix2 (j 0 : Fin 4000) k) = L (ix2 (i 0 : Fin 100000) k))
    (h1 : ∀ k : Fin 256, x1 (ix2 k (j 1 : Fin 256)) = R (ix2 k (i 1 : Fin 256))) :
    k3_pay1 x0 x1 j = prod3 L R i := by
  obtain ⟨p, q, rfl⟩ : ∃ (p : Fin 4000) (q : Fin 256), j = ix2 p q := ⟨j 0, j 1, eq_ix2 j⟩
  rw [pay3_apply]
  unfold prod3
  exact Finset.sum_congr rfl fun k _ => congrArg₂ (· * ·) (h0 k) (h1 k)

/-- The printed index maps over the 25 grid points: the left tile and the product tile are at block row `t`,
    the right factor is one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- What point `t` writes back is block `t` of the whole product of the two arrays the region finds. -/
theorem flushed3_eq (c : Dev nD) (t : Fin cfg3.N) :
    (dat3 V c).flushed 2 t = ((cfg3.win 2).blk t).view.read (Elt Ideal) (prod3 (V c main_v103) (V c main_arg11)) := by
  show (cfg3.win 2).cut (grid3.coords t) ((dat3 V c).after 2 t) = _
  rw [after3_2]
  unfold out3_2
  rw [View.canon_unit_zero zeros2]
  simp only [View.ld_unit_zero (S := S4000x256) zeros2, View.ld_unit_zero (S := S256x256) zeros2]
  obtain ⟨e00, e01, e10, e11, e20, e21⟩ := idx3 t
  funext j
  refine tile3 (V c main_v103) (V c main_arg11) (iblk3 V c 0 t) (iblk3 V c 1 t) (((cfg3.win 2).blk t).view.emb j) j ?_ ?_
  · intro k
    show V c main_v103 (((cfg3.win 0).blk t).view.emb (ix2 (j 0 : Fin 4000) k)) = V c main_v103 (ix2 ((((cfg3.win 2).blk t).view.emb j) 0 : Fin 100000) k)
    refine congrArg (V c main_v103) (funext fun a => Fin.ext ?_)
    match a with
    | ⟨0, _⟩ => show win3_0.index t (0 : Fin 2) * 4000 + 1 * (j 0).val = win3_2.index t (0 : Fin 2) * 4000 + 1 * (j 0).val; rw [e00, e20]
    | ⟨1, _⟩ => show win3_0.index t (1 : Fin 2) * 256 + 1 * k.val = k.val; rw [e01]; omega
  · intro k
    show V c main_arg11 (((cfg3.win 1).blk t).view.emb (ix2 k (j 1 : Fin 256))) = V c main_arg11 (ix2 k ((((cfg3.win 2).blk t).view.emb j) 1 : Fin 256))
    refine congrArg (V c main_arg11) (funext fun a => Fin.ext ?_)
    match a with
    | ⟨0, _⟩ => show win3_1.index t (0 : Fin 2) * 256 + 1 * k.val = k.val; rw [e10]; omega
    | ⟨1, _⟩ => show win3_1.index t (1 : Fin 2) * 256 + 1 * (j 1).val = win3_2.index t (1 : Fin 2) * 256 + 1 * (j 1).val; rw [e11, e21]

/-- An index of the product array is in point `t`'s block iff each coordinate is in the block's range on its axis. -/
theorem mem_blk3 (t : Fin cfg3.N) (i : S100000x256.Idx) :
    i ∈ ((cfg3.win 2).blk t).view.set ↔ ∀ a : Fin 2, win3_2.index t a * S4000x256.size a ≤ (i a).val ∧ (i a).val < win3_2.index t a * S4000x256.size a + S4000x256.size a := by
  show i ∈ ((View.whole main_v104).slice (win3_2.rect t)).set ↔ _
  rw [View.set_slice_whole, Rect.mem_set_unit]
  exact Iff.rfl

/-- Row `r` of the product is in the block of point `r / 4000`: the 25 row tiles cover the array. -/
theorem cover3 (i : S100000x256.Idx) : ∃ t : Fin cfg3.N, (cfg3.win 2).flush t = true ∧ i ∈ ((cfg3.win 2).blk t).view.set := by
  have hi0 : (i 0).val < 100000 := (i 0).isLt
  have hi1 : (i 1).val < 256 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨-, -, -, -, e20, e21⟩ := idx3 t
  refine ⟨t, flush3_2 t, ?_⟩
  rw [mem_blk3]
  intro a
  match a with
  | ⟨0, _⟩ => show win3_2.index t (0 : Fin 2) * 4000 ≤ (i 0).val ∧ (i 0).val < win3_2.index t (0 : Fin 2) * 4000 + 4000; rw [e20, ht]; omega
  | ⟨1, _⟩ => show win3_2.index t (1 : Fin 2) * 256 ≤ (i 1).val ∧ (i 1).val < win3_2.index t (1 : Fin 2) * 256 + 256; rw [e21]; omega

/-- After the region the product array holds the whole product of the two arrays the region finds. -/
theorem arr3_eq (c : Dev nD) : (dat3 V c).arrAt 2 cfg3.N = prod3 (V c main_v103) (V c main_arg11) :=
  (dat3 V c).arrAt_eq_of_cover 2 (prod3 (V c main_v103) (V c main_arg11)) (fun t _ => flushed3_eq V c t) cover3

/-- Entry (p, q) of the product array after the region, the two factors named as functions of their indices. -/
theorem arrAt3 (c : Dev nD) (L : S100000x256.Idx → EReal) (R : S256x256.Idx → EReal) (hL : V c main_v103 = L) (hR : V c main_arg11 = R)
    (p : Fin 100000) (q : Fin 256) :
    (dat3 V c).arrAt 2 cfg3.N (ix2 p q) = ∑ k : Fin 256, L (ix2 p k) * R (ix2 k q) := by
  subst hL hR
  rw [arr3_eq]
  rfl

end

end Cert.KernelIdeal.HandValue

end
-- ==== Proof.FiniteInputs.lean ====
/-
  Every float input of the kernel is a real number. The precondition of the claim is the printed predicate
  `finite_inputs`: the conjunction, over the sixteen float arguments x, of "every entry of |x| is below +∞", each an
  all-reduce by `and` of the entrywise comparison. Here it is read back: a conjunction of bits that is one has every
  conjunct one; an all-reduce by `and` that is one has a one at every entry; the bit pattern of +∞ denotes ⊤; and an
  extended real x with max x (-x) < ⊤ is neither ⊤ nor ⊥, so it is a real.
-/
import proofs.«154056_j23527830847606_2_alg».proof.Defs
import proofs.«154056_j23527830847606_2_alg».proof.Proof.Gen.KernelIdeal
import proofs.«154056_j23527830847606_2_alg».proof.Proof.Gen.Pre_finite_inputs
import Idealize.ShloMosaic.Lib.ReduceAll
import Idealize.ShloMosaic.Lib.ValueIdx
import Idealize.ShloMosaic.PureOps.Ideal

noncomputable section

namespace Cert.Proof.Finite

open Idealize.ShloMosaic Idealize.SL.Sem

/-- The shape of a scalar has exactly one index. -/
instance : Subsingleton Cert.Pre_finite_inputs.S_.Idx := ⟨fun a b => funext fun d => d.elim0⟩

/-- An extended real whose absolute value max x (-x) is below +∞ is a real number: it is neither ⊤ nor ⊥. -/
theorem real_of_abs_lt_top (x : EReal) (h : max x (-x) < ⊤) : ∃ r : ℝ, x = (r : EReal) := by
  induction x using EReal.rec with
  | bot => simp at h
  | coe r => exact ⟨r, rfl⟩
  | top => simp at h

/-- The element fact: if the comparison |x| < +∞ answers one, x is a real number. The pattern 0x7F800000 denotes ⊤. -/
theorem real_of_cmp (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  apply real_of_abs_lt_top
  by_contra hn
  simp [hn] at h'

/-- The all-reduce read back, for an array of any shape: if the reduction by `and`, over all axes, of the entrywise
    comparison |x| < +∞ is one, then every entry of x is a real number. -/
theorem real_of_all {s : Shape} {axes : List (Fin s.rank)} (x : FVec Ideal s .f32)
    (bc : Cert.Pre_finite_inputs.S_.BroadcastsInDim s (![] : Fin 0 → Fin s.rank))
    (h : s.ReducesTo axes Cert.Pre_finite_inputs.S_) (hu : 0 < Cert.Pre_finite_inputs.S_.numel) (j : Cert.Pre_finite_inputs.S_.Idx)
    (e : Host.reduce IntOp.andi
          (cmpf .olt (Host.absf x) (broadcastInDim s ![] bc (constant Cert.Pre_finite_inputs.S_ .f32 0x7F800000#32)))
          (constantI Cert.Pre_finite_inputs.S_ 1 1#1) h hu j = 1#1) (i : s.Idx) :
    ∃ r : ℝ, x i = (r : EReal) :=
  real_of_cmp (x i) (Host.reduce_andi_all _ _ h hu j e i)

/-- The printed predicate decoded, over variables: if `finite_inputs` of twenty-two arrays is one, every entry of each
    of the sixteen float arrays is a real number (the six integer arrays are not constrained). -/
theorem fn_decode (a0 : FVec Ideal Cert.Pre_finite_inputs.S64x768 .f32) (a1 : FVec Ideal Cert.Pre_finite_inputs.S64x768 .f32) (a2 : FVec Ideal Cert.Pre_finite_inputs.S64x768 .f32) (a3 : FVec Ideal Cert.Pre_finite_inputs.S100000x768 .f32) (a4 : FVec Ideal Cert.Pre_finite_inputs.S100000x768 .f32) (a5 : FVec Ideal Cert.Pre_finite_inputs.S768x256 .f32) (a6 : FVec Ideal Cert.Pre_finite_inputs.S768x256 .f32) (a7 : FVec Ideal Cert.Pre_finite_inputs.S768x256 .f32) (a8 : FVec Ideal Cert.Pre_finite_inputs.S256x256 .f32) (a9 : FVec Ideal Cert.Pre_finite_inputs.S256x256 .f32) (a10 : FVec Ideal Cert.Pre_finite_inputs.S256x256 .f32) (a11 : FVec Ideal Cert.Pre_finite_inputs.S256x256 .f32) (a12 : FVec Ideal Cert.Pre_finite_inputs.S1280x256 .f32) (a13 : FVec Ideal Cert.Pre_finite_inputs.S256 .f32) (a14 : FVec Ideal Cert.Pre_finite_inputs.S256x2 .f32) (a15 : FVec Ideal Cert.Pre_finite_inputs.S2 .f32)
    (a16 : IVec Cert.Pre_finite_inputs.S2x400000 32) (a17 : IVec Cert.Pre_finite_inputs.S100000 32) (a18 : IVec Cert.Pre_finite_inputs.S2x300000 32) (a19 : IVec Cert.Pre_finite_inputs.S100000 32) (a20 : IVec Cert.Pre_finite_inputs.S512 32) (a21 : IVec Cert.Pre_finite_inputs.S64 32) (j : Cert.Pre_finite_inputs.S_.Idx)
    (e : Cert.Pre_finite_inputs.fn (F := Ideal) a0 a1 a2 a3 a4 a5 a6 a7 a8 a9 a10 a11 a12 a13 a14 a15 a16 a17 a18 a19 a20 a21 j = 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal)) := by
  dsimp only [Cert.Pre_finite_inputs.fn, Cert.Pre_finite_inputs.fn_part1, Cert.Pre_finite_inputs.fn_part2, Cert.Pre_finite_inputs.fn_part3, Cert.Pre_finite_inputs.fn_part4, Idealize.ShloMosaic.andi] at e
  simp only [IntOp.andi_eq_one] at e
  obtain ⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩ := e
  exact ⟨real_of_all _ _ _ _ _ e0, real_of_all _ _ _ _ _ e1, real_of_all _ _ _ _ _ e2, real_of_all _ _ _ _ _ e3, real_of_all _ _ _ _ _ e4, real_of_all _ _ _ _ _ e5, real_of_all _ _ _ _ _ e6, real_of_all _ _ _ _ _ e7, real_of_all _ _ _ _ _ e8, real_of_all _ _ _ _ _ e9, real_of_all _ _ _ _ _ e10, real_of_all _ _ _ _ _ e11, real_of_all _ _ _ _ _ e12, real_of_all _ _ _ _ _ e13, real_of_all _ _ _ _ _ e14, real_of_all _ _ _ _ _ e15⟩

/-- Under the claim's precondition every entry of each float argument array of the kernel program is a real
    number, on every device. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ (∀ i, ∃ r : ℝ, m ((c.tc : Thread Cert.KernelIdeal.nD Cert.KernelIdeal.τ).loc Cert.KernelIdeal.main_arg12) i = (r : EReal))
      ∧ (∀ i, ∃ r : ℝ, m ((c.tc : Thread Cert.KernelIdeal.nD Cert.KernelIdeal.τ).loc Cert.KernelIdeal.main_arg13) i = (r : EReal))
      ∧ (∀ i, ∃ r : ℝ, m ((c.tc : Thread Cert.KernelIdeal.nD Cert.KernelIdeal.τ).loc Cert.KernelIdeal.main_arg14) i = (r : EReal))
      ∧ (∀ i, ∃ r : ℝ, m ((c.tc : Thread Cert.KernelIdeal.nD Cert.KernelIdeal.τ).loc Cert.KernelIdeal.main_arg15) i = (r : EReal)) :=
  fn_decode (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) ValueIdx.ix0 (congrFun (h c) ValueIdx.ix0)

/-! The sixteen conjuncts one by one, the index typed by the argument's shape. -/

/-- Every entry of float argument 0 (shape 64 × 768) is a real number. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x768.Idx) :
    ∃ r : ℝ, m ((c.tc : Thread Cert.KernelIdeal.nD Cert.KernelIdeal.τ).loc Cert.KernelIdeal.main_arg0) i = (r : EReal) :=
  (real_of_pre m h c).1 i

/-- Every entry of float argument 1 (shape 64 × 768) is a real number. -/
theorem real_arg1 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x768.Idx) :
    ∃ r : ℝ, m ((c.tc : Thread Cert.KernelIdeal.nD Cert.KernelIdeal.τ).loc Cert.KernelIdeal.main_arg1) i = (r : EReal) :=
  (real_of_pre m h c).2.1 i

/-- Every entry of float argument 2 (shape 64 × 768) is a real number. -/
theorem real_arg2 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x768.Idx) :
    ∃ r : ℝ, m ((c.tc : Thread Cert.KernelIdeal.nD Cert.KernelIdeal.τ).loc Cert.KernelIdeal.main_arg2) i = (r : EReal) :=
  (real_of_pre m h c).2.2.1 i

/-- Every entry of float argument 3 (shape 100000 × 768) is a real number. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S100000x768.Idx) :
    ∃ r : ℝ, m ((c.tc : Thread Cert.KernelIdeal.nD Cert.KernelIdeal.τ).loc Cert.KernelIdeal.main_arg3) i = (r : EReal) :=
  (real_of_pre m h c).2.2.2.1 i

/-- Every entry of float argument 4 (shape 100000 × 768) is a real number. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S100000x768.Idx) :
    ∃ r : ℝ, m ((c.tc : Thread Cert.KernelIdeal.nD Cert.KernelIdeal.τ).loc Cert.KernelIdeal.main_arg4) i = (r : EReal) :=
  (real_of_pre m h c).2.2.2.2.1 i

/-- Every entry of float argument 5 (shape 768 × 256) is a real number. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S768x256.Idx) :
    ∃ r : ℝ, m ((c.tc : Thread Cert.KernelIdeal.nD Cert.KernelIdeal.τ).loc Cert.KernelIdeal.main_arg5) i = (r : EReal) :=
  (real_of_pre m h c).2.2.2.2.2.1 i

/-- Every entry of float argument 6 (shape 768 × 256) is a real number. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S768x256.Idx) :
    ∃ r : ℝ, m ((c.tc : Thread Cert.KernelIdeal.nD Cert.KernelIdeal.τ).loc Cert.KernelIdeal.main_arg6) i = (r : EReal) :=
  (real_of_pre m h c).2.2.2.2.2.2.1 i

/-- Every entry of float argument 7 (shape 768 × 256) is a real number. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S768x256.Idx) :
    ∃ r : ℝ, m ((c.tc : Thread Cert.KernelIdeal.nD Cert.KernelIdeal.τ).loc Cert.KernelIdeal.main_arg7) i = (r : EReal) :=
  (real_of_pre m h c).2.2.2.2.2.2.2.1 i

/-- Every entry of float argument 8 (shape 256 × 256) is a real number. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S256x256.Idx) :
    ∃ r : ℝ, m ((c.tc : Thread Cert.KernelIdeal.nD Cert.KernelIdeal.τ).loc Cert.KernelIdeal.main_arg8) i = (r : EReal) :=
  (real_of_pre m h c).2.2.2.2.2.2.2.2.1 i

/-- Every entry of float argument 9 (shape 256 × 256) is a real number. -/
theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S256x256.Idx) :
    ∃ r : ℝ, m ((c.tc : Thread Cert.KernelIdeal.nD Cert.KernelIdeal.τ).loc Cert.KernelIdeal.main_arg9) i = (r : EReal) :=
  (real_of_pre m h c).2.2.2.2.2.2.2.2.2.1 i

/-- Every entry of float argument 10 (shape 256 × 256) is a real number. -/
theorem real_arg10 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S256x256.Idx) :
    ∃ r : ℝ, m ((c.tc : Thread Cert.KernelIdeal.nD Cert.KernelIdeal.τ).loc Cert.KernelIdeal.main_arg10) i = (r : EReal) :=
  (real_of_pre m h c).2.2.2.2.2.2.2.2.2.2.1 i

/-- Every entry of float argument 11 (shape 256 × 256) is a real number. -/
theorem real_arg11 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S256x256.Idx) :
    ∃ r : ℝ, m ((c.tc : Thread Cert.KernelIdeal.nD Cert.KernelIdeal.τ).loc Cert.KernelIdeal.main_arg11) i = (r : EReal) :=
  (real_of_pre m h c).2.2.2.2.2.2.2.2.2.2.2.1 i

/-- Every entry of float argument 12 (shape 1280 × 256) is a real number. -/
theorem real_arg12 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S1280x256.Idx) :
    ∃ r : ℝ, m ((c.tc : Thread Cert.KernelIdeal.nD Cert.KernelIdeal.τ).loc Cert.KernelIdeal.main_arg12) i = (r : EReal) :=
  (real_of_pre m h c).2.2.2.2.2.2.2.2.2.2.2.2.1 i

/-- Every entry of float argument 13 (shape 256) is a real number. -/
theorem real_arg13 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S256.Idx) :
    ∃ r : ℝ, m ((c.tc : Thread Cert.KernelIdeal.nD Cert.KernelIdeal.τ).loc Cert.KernelIdeal.main_arg13) i = (r : EReal) :=
  (real_of_pre m h c).2.2.2.2.2.2.2.2.2.2.2.2.2.1 i

/-- Every entry of float argument 14 (shape 256 × 2) is a real number. -/
theorem real_arg14 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S256x2.Idx) :
    ∃ r : ℝ, m ((c.tc : Thread Cert.KernelIdeal.nD Cert.KernelIdeal.τ).loc Cert.KernelIdeal.main_arg14) i = (r : EReal) :=
  (real_of_pre m h c).2.2.2.2.2.2.2.2.2.2.2.2.2.2.1 i

/-- Every entry of float argument 15 (shape 2) is a real number. -/
theorem real_arg15 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S2.Idx) :
    ∃ r : ℝ, m ((c.tc : Thread Cert.KernelIdeal.nD Cert.KernelIdeal.τ).loc Cert.KernelIdeal.main_arg15) i = (r : EReal) :=
  (real_of_pre m h c).2.2.2.2.2.2.2.2.2.2.2.2.2.2.2 i

end Cert.Proof.Finite

end
-- ==== Proof.Encoders.lean ====
/-
  The two encoders of the kernel program's run are the reference's.

  On each graph the kernel program computes x · (W_text · W1) in its first product call, one graph-convolution layer and
  max(·, 0) on the host, the product with W2 in its second call, and the second layer on the host. The product calls
  leave, entry by entry, the contraction sums of what the run holds before them; the host stretches are the layer
  functions of the launch contents; the launch contents are real by the precondition. So the two-layer theorem applies
  with the first call's array and the second call's array in the roles of the two products.
-/
import proofs.«154056_j23527830847606_2_alg».proof.Proof.GcnBridgeR
import proofs.«154056_j23527830847606_2_alg».proof.Proof.GcnBridgeC
import proofs.«154056_j23527830847606_2_alg».proof.Proof.KIRun
import proofs.«154056_j23527830847606_2_alg».proof.Proof.KIMatmul
import proofs.«154056_j23527830847606_2_alg».proof.Proof.KIValue
import proofs.«154056_j23527830847606_2_alg».proof.Proof.FiniteInputs

noncomputable section

open scoped BigOperators

namespace Cert.Proof.Enc

open Cert.KernelIdeal Cert.KernelIdeal.Gen Cert.KernelIdeal.Hand Cert.KernelIdeal.HandValue
open Idealize.ShloMosaic Idealize.ShloMosaic.TcCoe Idealize.SL.Sem Idealize.ShloMosaic.ValueIdx
open Cert.Spec Cert.Proof.Finite

variable (m : (ℓ : Loc nD τ sig) → Buf (Elt Ideal) ℓ)

/-- THE R-GRAPH ENCODER: the kernel program's second layer on the second call's array is the reference's two layers on
    the launch contents. -/
theorem enc_R (h : Cert.Pre_KernelIdeal m) (c : Dev nD) :
    K.propR (O40 (outs m) c) (sR m c) (dR m c)
      = R.convR (R.dotH (R.reluN (R.convR (R.dotH (R.dotX (A3 m c) (A5 m c)) (A8 m c)) (R.srcR (A16 m c)) (R.dstR (A16 m c))))
          (A9 m c)) (R.srcR (A16 m c)) (R.dstR (A16 m c)) :=
  Cert.Bridge.gcn_two_layers_R (A3 m c) (A5 m c) (A8 m c) (A9 m c) (A16 m c)
    (real_arg3 m h c) (real_arg5 m h c) (real_arg8 m h c) (real_arg9 m h c) (O5 (outs m) c) (O40 (outs m) c)
    (fun p q => by
      show outs m 2 main_v5 c (ix2 p q) = _
      rw [outs_eq0]
      exact arrAt0 (fun c b => Gen.V1 m c b) c (A3 m c) (K.dotW (A5 m c) (A8 m c)) (V1_main_arg3 m c) (V1_main_v0 m c) p q)
    (fun p q => by
      show outs m 5 main_v40 c (ix2 p q) = _
      rw [outs_eq1]
      exact arrAt1 (fun c b => Gen.V4 m (outs m) c b) c _ (A9 m c) (V4_main_v39 m (outs m) c) (V4_main_arg9 m (outs m) c) p q)

/-- THE C-GRAPH ENCODER: the same on the C graph, with the third and the fourth call's arrays. -/
theorem enc_C (h : Cert.Pre_KernelIdeal m) (c : Dev nD) :
    K.propC (O104 (outs m) c) (sC m c) (dC m c)
      = R.convC (R.dotH (R.reluN (R.convC (R.dotH (R.dotX (A4 m c) (A5 m c)) (A10 m c)) (R.srcC (A18 m c)) (R.dstC (A18 m c))))
          (A11 m c)) (R.srcC (A18 m c)) (R.dstC (A18 m c)) :=
  Cert.Bridge.gcn_two_layers_C (A4 m c) (A5 m c) (A10 m c) (A11 m c) (A18 m c)
    (real_arg4 m h c) (real_arg5 m h c) (real_arg10 m h c) (real_arg11 m h c) (O69 (outs m) c) (O104 (outs m) c)
    (fun p q => by
      show outs m 7 main_v69 c (ix2 p q) = _
      rw [outs_eq2]
      exact arrAt2 (fun c b => Gen.V6 m (outs m) c b) c (A4 m c) (K.dotW (A5 m c) (A10 m c)) (V6_main_arg4 m (outs m) c)
        (V6_main_v1 m (outs m) c) p q)
    (fun p q => by
      show outs m 10 main_v104 c (ix2 p q) = _
      rw [outs_eq3]
      exact arrAt3 (fun c b => Gen.V9 m (outs m) c b) c _ (A11 m c) (V9_main_v103 m (outs m) c) (V9_main_arg11 m (outs m) c) p q)

end Cert.Proof.Enc

end
-- ==== Proof.TailSame.lean ====
/-
  After the two graph encoders both programs apply the same operations: the mean pools, the three small products,
  the five-way concatenate, the two dense layers, and the loss. Written once in each program's names, the two
  compositions are the same function.
-/
import proofs.«154056_j23527830847606_2_alg».proof.Proof.SpecTailK
import proofs.«154056_j23527830847606_2_alg».proof.Proof.SpecTailR

noncomputable section

open Idealize.ShloMosaic

namespace Cert.Spec

theorem tail_same (r cm : FVec Ideal Cert.KernelIdeal.S100000x256 .f32) (a0 a1 a2 : FVec Ideal Cert.KernelIdeal.S64x768 .f32)
    (a5 a6 a7 : FVec Ideal Cert.KernelIdeal.S768x256 .f32) (a12 : FVec Ideal Cert.KernelIdeal.S1280x256 .f32)
    (a13 : FVec Ideal Cert.KernelIdeal.S256 .f32) (a14 : FVec Ideal Cert.KernelIdeal.S256x2 .f32) (a15 : FVec Ideal Cert.KernelIdeal.S2 .f32)
    (a17 a19 : IVec Cert.KernelIdeal.S100000 32) (a20 : IVec Cert.KernelIdeal.S512 32) :
    K.tailK r cm a0 a1 a2 a5 a6 a7 a12 a13 a14 a15 a17 a19 a20 = R.tailR r cm a0 a1 a2 a5 a6 a7 a12 a13 a14 a15 a17 a19 a20 := by
  unfold K.tailK R.tailR
  rfl

theorem loss_same (preds : FVec Ideal Cert.KernelIdeal.S64x2 .f32) (a21 : IVec Cert.KernelIdeal.S64 32) :
    K.lossK preds a21 = R.lossR preds a21 := by
  unfold K.lossK R.lossR
  rfl

end Cert.Spec

end
-- ==== Proof.Claims.lean ====
/-
  The five claims. The two kernel programs' frames are their hand-written launches over the generated valuation
  chain; the reference's frame is its run with the results dropped; nothing was rewritten by the ideal pass, so the
  preservation claim is trivial. For the value claim both programs end, and their two results are equal as
  extended reals: the reference's predictions are the shared last stages (mean pools, the small products, the dense
  layers) applied to its two graph encoders, the kernel program's are the same stages applied to its own encoders,
  and on finite inputs an encoder of the kernel program — features folded through W_text·W1 in the first pallas
  call, normalization applied to the node tensors — equals the reference's encoder; the loss is one function of the
  predictions and the labels in both programs.
-/
import proofs.«154056_j23527830847606_2_alg».proof.Defs
import proofs.«154056_j23527830847606_2_alg».proof.Proof.KRun
import proofs.«154056_j23527830847606_2_alg».proof.Proof.KIRun
import proofs.«154056_j23527830847606_2_alg».proof.Proof.KIRunPost
import proofs.«154056_j23527830847606_2_alg».proof.Proof.RefRunH
import proofs.«154056_j23527830847606_2_alg».proof.Proof.RefValue
import proofs.«154056_j23527830847606_2_alg».proof.Proof.KIValue
import proofs.«154056_j23527830847606_2_alg».proof.Proof.Encoders
import proofs.«154056_j23527830847606_2_alg».proof.Proof.TailSame

noncomputable section

namespace Cert.Proof.Claims

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference launches no kernel: its frame is its run, the two results forgotten. -/
theorem frame_ri : Cert.frame_ReferenceIdeal := fun m ρ _ =>
  (θ_run Cert.ReferenceIdeal.defs _ _).mono (fun _ h c => (h c).2.2) (Cert.ReferenceIdeal.RunH.run (F := Ideal) m ρ)

theorem preserves : Cert.preserves_Kernel_KernelIdeal := trivial

/-- Both programs end with the same predictions and the same loss. -/
theorem algebraic : Cert.algebraic_KernelIdeal_ReferenceIdeal := by
  intro m g m' g' hpre hagree
  refine ⟨fun c => Cert.KernelIdeal.Gen.V17 m (Cert.KernelIdeal.Hand.outs m) c Cert.KernelIdeal.main_v154,
    fun c => Cert.KernelIdeal.Gen.V17 m (Cert.KernelIdeal.Hand.outs m) c Cert.KernelIdeal.main_v160,
    Cert.KernelIdeal.HandValue.kernel_run m g, ?_⟩
  -- the predictions: the reference's stages on its encoders are the kernel program's stages on its own
  have hp : ∀ c, Cert.ReferenceIdeal.Value.res_main_v228 (F := Ideal) m' c
      = Cert.KernelIdeal.Gen.V17 m (Cert.KernelIdeal.Hand.outs m) c Cert.KernelIdeal.main_v154 := by
    intro c
    obtain ⟨e0, e1, e2, e3, e4, e5, e6, e7, e8, e9, e10, e11, e12, e13, e14, e15, e16, e17, e18, e19, e20, e21⟩ := hagree c
    rw [Cert.ReferenceIdeal.HandValue.ref_preds m' c, e0, e1, e2, e3, e4, e5, e6, e7, e8, e9, e10, e11, e12, e13, e14, e15,
      e16, e17, e18, e19, e20]
    refine Eq.trans ?_ (Cert.KernelIdeal.HandValue.V17_main_v154 m _ c).symm
    rw [Cert.Spec.tail_same, Cert.Proof.Enc.enc_R m hpre c, Cert.Proof.Enc.enc_C m hpre c]
  refine (θ_run Cert.ReferenceIdeal.defs _ _).mono
    (fun _ h c => ⟨(h c).1.trans (hp c), (h c).2.1.trans ?_, (h c).2.2⟩)
    (Cert.ReferenceIdeal.RunH.run (F := Ideal) m' g')
  -- the loss: one function of the predictions and the labels
  obtain ⟨-, -, -, -, -, -, -, -, -, -, -, -, -, -, -, -, -, -, -, -, -, e21⟩ := hagree c
  rw [Cert.ReferenceIdeal.HandValue.ref_loss m' c, hp c, e21]
  exact ((Cert.KernelIdeal.HandValue.V17_main_v160 m _ c).trans (Cert.Spec.loss_same _ _)).symm

end Cert.Proof.Claims

end
-- ==== Proof.lean ====
/-
  The certificate: the programs' stated side conditions (proved by the generated fact modules), then the five claims.
-/
import proofs.«154056_j23527830847606_2_alg».proof.Defs
import proofs.«154056_j23527830847606_2_alg».proof.Proof.Gen.Kernel
import proofs.«154056_j23527830847606_2_alg».proof.Proof.Gen.KernelIdeal
import proofs.«154056_j23527830847606_2_alg».proof.Proof.Gen.ReferenceIdeal
import proofs.«154056_j23527830847606_2_alg».proof.Proof.Gen.Pre_finite_inputs
import proofs.«154056_j23527830847606_2_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
